-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S192x40 : Shape := ⟨2, ![192, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S2x64 .f32) (main_arg6 : FVec F S192x40 .f32) (main_arg7 : FVec F S40 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S192x40 .f32 := Host.absf main_arg6
  let main_cst_8 : FVec F S_ .f32 := constant S_ .f32 0x7F800000#32
  let main_v25 : FVec F S192x40 .f32 := broadcastInDim S192x40 ![] bcast_S_S192x40 main_cst_8
  let main_v26 : IVec S192x40 1 := cmpf .olt main_v24 main_v25
  let main_c_9 : IVec S_ 1 := constantI S_ 1 1#1
  let main_v27 : IVec S_ 1 := (fun x v => Host.reduce IntOp.andi x v reducesTo_S192x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S2x64x64 .f32) (main_arg5 : FVec F S2x64 .f32) (main_arg6 : FVec F S192x40 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64x64 .f32 := Host.absf main_arg4
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S192x40 : Shape := ⟨2, ![192, 40]⟩
abbrev S40 : Shape := ⟨1, ![40]⟩
abbrev S1x1250000 : Shape := ⟨2, ![1, 1250000]⟩
abbrev S1250000 : Shape := ⟨1, ![1250000]⟩
abbrev S100000 : Shape := ⟨1, ![100000]⟩
abbrev S1350000 : Shape := ⟨1, ![1350000]⟩
abbrev S_ : Shape := ⟨0, ![]⟩
abbrev S1350000x1 : Shape := ⟨2, ![1350000, 1]⟩
abbrev S10000x64 : Shape := ⟨2, ![10000, 64]⟩
abbrev S1x64 : Shape := ⟨2, ![1, 64]⟩
abbrev S1x64x64 : Shape := ⟨3, ![1, 64, 64]⟩
abbrev S1350000x64 : Shape := ⟨2, ![1350000, 64]⟩
abbrev S100000x192 : Shape := ⟨2, ![100000, 192]⟩
abbrev S100000x40 : Shape := ⟨2, ![100000, 40]⟩
abbrev S10000x192 : Shape := ⟨2, ![10000, 192]⟩
abbrev S10000x40 : Shape := ⟨2, ![10000, 40]⟩
abbrev S1x40 : Shape := ⟨2, ![1, 40]⟩

abbrev nBuf : Space → Nat
  | .hbm => 101
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S192x40, .f32⟩
  | .hbm, ⟨7, _⟩ => ⟨S40, .f32⟩
  | .hbm, ⟨8, _⟩ => ⟨S1x1250000, .i32⟩
  | .hbm, ⟨9, _⟩ => ⟨S1250000, .i32⟩
  | .hbm, ⟨10, _⟩ => ⟨S100000, .i32⟩
  | .hbm, ⟨11, _⟩ => ⟨S1350000, .i32⟩
  | .hbm, ⟨12, _⟩ => ⟨S1x1250000, .i32⟩
  | .hbm, ⟨13, _⟩ => ⟨S1250000, .i32⟩
  | .hbm, ⟨14, _⟩ => ⟨S100000, .i32⟩
  | .hbm, ⟨15, _⟩ => ⟨S1350000, .i32⟩
  | .hbm, ⟨16, _⟩ => ⟨S_, .f32⟩
  | .hbm, ⟨17, _⟩ => ⟨S1350000, .f32⟩
  | .hbm, ⟨18, _⟩ => ⟨S_, .f32⟩
  | .hbm, ⟨19, _⟩ => ⟨S100000, .f32⟩
  | .hbm, ⟨20, _⟩ => ⟨S1350000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1350000, .i32⟩
  | .hbm, ⟨35, _⟩ => ⟨S1350000, .i1⟩
  | .hbm, ⟨36, _⟩ => ⟨S_, .i32⟩
  | .hbm, ⟨37, _⟩ => ⟨S1350000, .i32⟩
  | .hbm, ⟨38, _⟩ => ⟨S1350000, .i32⟩
  | .hbm, ⟨39, _⟩ => ⟨S1350000, .i32⟩
  | .hbm, ⟨40, _⟩ => ⟨S1350000x1, .i32⟩
  | .hbm, ⟨41, _⟩ => ⟨S1350000, .f32⟩
  | .hbm, ⟨42, _⟩ => ⟨S_, .i32⟩
  | .hbm, ⟨43, _⟩ => ⟨S1350000, .i32⟩
  | .hbm, ⟨44, _⟩ => ⟨S1350000, .i1⟩
  | .hbm, ⟨45, _⟩ => ⟨S_, .i32⟩
  | .hbm, ⟨46, _⟩ => ⟨S1350000, .i32⟩
  | .hbm, ⟨47, _⟩ => ⟨S1350000, .i32⟩
  | .hbm, ⟨48, _⟩ => ⟨S1350000, .i32⟩
  | .hbm, ⟨49, _⟩ => ⟨S1350000x1, .i32⟩
  | .hbm, ⟨50, _⟩ => ⟨S1350000, .f32⟩
  | .hbm, ⟨51, _⟩ => ⟨S1350000, .f32⟩
  | .hbm, ⟨52, _⟩ => ⟨S100000x64, .f32⟩
  | .hbm, ⟨53, _⟩ => ⟨S_, .f32⟩
  | .hbm, ⟨54, _⟩ => ⟨S64, .f32⟩
  | .hbm, ⟨55, _⟩ => ⟨S1x64x64, .f32⟩
  | .hbm, ⟨56, _⟩ => ⟨S64x64, .f32⟩
  | .hbm, ⟨57, _⟩ => ⟨S100000x64, .f32⟩
  | .hbm, ⟨58, _⟩ => ⟨S1350000x1, .f32⟩
  | .hbm, ⟨59, _⟩ => ⟨S_, .i32⟩
  | .hbm, ⟨60, _⟩ => ⟨S1350000, .i32⟩
  | .hbm, ⟨61, _⟩ => ⟨S1350000, .i1⟩
  | .hbm, ⟨62, _⟩ => ⟨S_, .i32⟩
  | .hbm, ⟨63, _⟩ => ⟨S1350000, .i32⟩
  | .hbm, ⟨64, _⟩ => ⟨S1350000, .i32⟩
  | .hbm, ⟨65, _⟩ => ⟨S1350000, .i32⟩
  | .hbm, ⟨66, _⟩ => ⟨S1350000x1, .i32⟩
  | .hbm, ⟨67, _⟩ => ⟨S1350000x64, .f32⟩
  | .hbm, ⟨68, _⟩ => ⟨S1350000x64, .f32⟩
  | .hbm, ⟨69, _⟩ => ⟨S1350000x64, .f32⟩
  | .hbm, ⟨70, _⟩ => ⟨S_, .f32⟩
  | .hbm, ⟨71, _⟩ => ⟨S100000x64, .f32⟩
  | .hbm, ⟨72, _⟩ => ⟨S1350000x1, .i32⟩
  | .hbm, ⟨73, _⟩ => ⟨S100000x64, .f32⟩
  | .hbm, ⟨74, _⟩ => ⟨S1x64, .f32⟩
  | .hbm, ⟨75, _⟩ => ⟨S64, .f32⟩
  | .hbm, ⟨76, _⟩ => ⟨S100000x64, .f32⟩
  | .hbm, ⟨77, _⟩ => ⟨S1x64x64, .f32⟩
  | .hbm, ⟨78, _⟩ => ⟨S64x64, .f32⟩
  | .hbm, ⟨79, _⟩ => ⟨S100000x64, .f32⟩
  | .hbm, ⟨80, _⟩ => ⟨S1350000x1, .f32⟩
  | .hbm, ⟨81, _⟩ => ⟨S_, .i32⟩
  | .hbm, ⟨82, _⟩ => ⟨S1350000, .i32⟩
  | .hbm, ⟨83, _⟩ => ⟨S1350000, .i1⟩
  | .hbm, ⟨84, _⟩ => ⟨S_, .i32⟩
  | .hbm, ⟨85, _⟩ => ⟨S1350000, .i32⟩
  | .hbm, ⟨86, _⟩ => ⟨S1350000, .i32⟩
  | .hbm, ⟨87, _⟩ => ⟨S1350000, .i32⟩
  | .hbm, ⟨88, _⟩ => ⟨S1350000x1, .i32⟩
  | .hbm, ⟨89, _⟩ => ⟨S1350000x64, .f32⟩
  | .hbm, ⟨90, _⟩ => ⟨S1350000x64, .f32⟩
  | .hbm, ⟨91, _⟩ => ⟨S1350000x64, .f32⟩
  | .hbm, ⟨92, _⟩ => ⟨S_, .f32⟩
  | .hbm, ⟨93, _⟩ => ⟨S100000x64, .f32⟩
  | .hbm, ⟨94, _⟩ => ⟨S1350000x1, .i32⟩
  | .hbm, ⟨95, _⟩ => ⟨S100000x64, .f32⟩
  | .hbm, ⟨96, _⟩ => ⟨S1x64, .f32⟩
  | .hbm, ⟨97, _⟩ => ⟨S64, .f32⟩
  | .hbm, ⟨98, _⟩ => ⟨S100000x64, .f32⟩
  | .hbm, ⟨99, _⟩ => ⟨S100000x192, .f32⟩
  | .hbm, ⟨100, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | .local _ .vmem, ⟨28, _⟩ => ⟨S10000x192, .f32⟩
  | .local _ .vmem, ⟨29, _⟩ => ⟨S10000x192, .f32⟩
  | .local _ .vmem, ⟨30, _⟩ => ⟨S192x40, .f32⟩
  | .local _ .vmem, ⟨31, _⟩ => ⟨S40, .f32⟩
  | .local _ .vmem, ⟨32, _⟩ => ⟨S10000x40, .f32⟩
  | .local _ .vmem, ⟨33, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S192x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S64 : S_.BroadcastsInDim S64 (![] : Fin 0 → Fin S64.rank)
  slices_S2x64x64_S1x64x64_0_0_0 : S2x64x64.Slices ![0, 0, 0] S1x64x64
  shapeCasts_S1x64x64_S64x64 : S1x64x64.ShapeCasts S64x64
  shapeCasts_S64x64_S64x64 : S64x64.ShapeCasts S64x64
  shapeCasts_S64_S64 : S64.ShapeCasts S64
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  slices_S2x64_S1x64_0_0 : S2x64.Slices ![0, 0] S1x64
  shapeCasts_S1x64_S64 : S1x64.ShapeCasts S64
  shapeCasts_S10000x64_S10000x64 : S10000x64.ShapeCasts S10000x64
  slices_S2x64x64_S1x64x64_1_0_0 : S2x64x64.Slices ![1, 0, 0] S1x64x64
  slices_S2x64_S1x64_1_0 : S2x64.Slices ![1, 0] S1x64
  concatenates_S100000x64_S100000x64_S100000x64_S100000x192_d1 : Shape.Concatenates [S100000x64, S100000x64, S100000x64] S100000x192 1
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S192x40_S192x40_0_0 : ∀ a, (![0, 0] : Fin 2 → Nat) a + S192x40.size a ≤ S192x40.size a
  h_S192x40 : 0 < S192x40.numel
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x64_S64x64_S10000x64_1_0_0_1_n_n_wf : DotDims.WF S10000x64 S64x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S10000x192_S192x40_S10000x40_1_0_0_1_n_n_wf : DotDims.WF S10000x192 S192x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x192.size a ≤ S100000x192.size a
  hwx5_0 : ∀ i : grid5.Coords, EltTy.bits .f32 = 32 ∨ (Rect.block (s := S100000x192) S10000x192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S192x40.size a ≤ S192x40.size a
  hwx5_1 : ∀ i : grid5.Coords, EltTy.bits .f32 = 32 ∨ (Rect.block (s := S192x40) S192x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S40.size a ≤ S40.size a
  hwx5_2 : ∀ i : grid5.Coords, EltTy.bits .f32 = 32 ∨ (Rect.block (s := S40) S40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x40.size a ≤ S100000x40.size a
  hwx5_3 : ∀ i : grid5.Coords, EltTy.bits .f32 = 32 ∨ (Rect.block (s := S100000x40) S10000x40.size (cc5_transform_3 i) (hinb5_3 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S10000x192_S192x40_S10000x40_1_0_0_1_n_n : DotDims S10000x192 S192x40 S10000x40 where
  lhsContracting := [1]
  rhsContracting := [0]
  lhsNonContracting := [0]
  rhsNonContracting := [1]
  lhsBatch := []
  rhsBatch := []
  wf := dot_S10000x192_S192x40_S10000x40_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S192x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S10000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S192x40 : Shape := ⟨2, ![192, 40]⟩
abbrev S40 : Shape := ⟨1, ![40]⟩
abbrev S1x1250000 : Shape := ⟨2, ![1, 1250000]⟩
abbrev S1250000 : Shape := ⟨1, ![1250000]⟩
abbrev S100000 : Shape := ⟨1, ![100000]⟩
abbrev S1350000 : Shape := ⟨1, ![1350000]⟩
abbrev S_ : Shape := ⟨0, ![]⟩
abbrev S1350000x1 : Shape := ⟨2, ![1350000, 1]⟩
abbrev S1x64 : Shape := ⟨2, ![1, 64]⟩
abbrev S1x64x64 : Shape := ⟨3, ![1, 64, 64]⟩
abbrev S1350000x64 : Shape := ⟨2, ![1350000, 64]⟩
abbrev S100000x192 : Shape := ⟨2, ![100000, 192]⟩
abbrev S100000x40 : Shape := ⟨2, ![100000, 40]⟩
abbrev S1x40 : Shape := ⟨2, ![1, 40]⟩

abbrev nBuf : Space → Nat
  | .hbm => 118
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S192x40, .f32⟩
  | .hbm, ⟨7, _⟩ => ⟨S40, .f32⟩
  | .hbm, ⟨8, _⟩ => ⟨S1x1250000, .i32⟩
  | .hbm, ⟨9, _⟩ => ⟨S1250000, .i32⟩
  | .hbm, ⟨10, _⟩ => ⟨S100000, .i32⟩
  | .hbm, ⟨11, _⟩ => ⟨S1350000, .i32⟩
  | .hbm, ⟨12, _⟩ => ⟨S1x1250000, .i32⟩
  | .hbm, ⟨13, _⟩ => ⟨S1250000, .i32⟩
  | .hbm, ⟨14, _⟩ => ⟨S100000, .i32⟩
  | .hbm, ⟨15, _⟩ => ⟨S1350000, .i32⟩
  | .hbm, ⟨16, _⟩ => ⟨S_, .f32⟩
  | .hbm, ⟨17, _⟩ => ⟨S1350000, .f32⟩
  | .hbm, ⟨18, _⟩ => ⟨S_, .f32⟩
  | .hbm, ⟨19, _⟩ => ⟨S100000, .f32⟩
  | .hbm, ⟨20, _⟩ => ⟨S1350000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1350000, .i32⟩
  | .hbm, ⟨35, _⟩ => ⟨S1350000, .i1⟩
  | .hbm, ⟨36, _⟩ => ⟨S_, .i32⟩
  | .hbm, ⟨37, _⟩ => ⟨S1350000, .i32⟩
  | .hbm, ⟨38, _⟩ => ⟨S1350000, .i32⟩
  | .hbm, ⟨39, _⟩ => ⟨S1350000, .i32⟩
  | .hbm, ⟨40, _⟩ => ⟨S1350000x1, .i32⟩
  | .hbm, ⟨41, _⟩ => ⟨S1350000, .f32⟩
  | .hbm, ⟨42, _⟩ => ⟨S_, .i32⟩
  | .hbm, ⟨43, _⟩ => ⟨S1350000, .i32⟩
  | .hbm, ⟨44, _⟩ => ⟨S1350000, .i1⟩
  | .hbm, ⟨45, _⟩ => ⟨S_, .i32⟩
  | .hbm, ⟨46, _⟩ => ⟨S1350000, .i32⟩
  | .hbm, ⟨47, _⟩ => ⟨S1350000, .i32⟩
  | .hbm, ⟨48, _⟩ => ⟨S1350000, .i32⟩
  | .hbm, ⟨49, _⟩ => ⟨S1350000x1, .i32⟩
  | .hbm, ⟨50, _⟩ => ⟨S1350000, .f32⟩
  | .hbm, ⟨51, _⟩ => ⟨S1350000, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S1x64x64, .f32⟩
  | .hbm, ⟨60, _⟩ => ⟨S64x64, .f32⟩
  | .hbm, ⟨61, _⟩ => ⟨S1x64, .f32⟩
  | .hbm, ⟨62, _⟩ => ⟨S64, .f32⟩
  | .hbm, ⟨63, _⟩ => ⟨S100000x64, .f32⟩
  | .hbm, ⟨64, _⟩ => ⟨S1350000x1, .f32⟩
  | .hbm, ⟨65, _⟩ => ⟨S_, .i32⟩
  | .hbm, ⟨66, _⟩ => ⟨S1350000, .i32⟩
  | .hbm, ⟨67, _⟩ => ⟨S1350000, .i1⟩
  | .hbm, ⟨68, _⟩ => ⟨S_, .i32⟩
  | .hbm, ⟨69, _⟩ => ⟨S1350000, .i32⟩
  | .hbm, ⟨70, _⟩ => ⟨S1350000, .i32⟩
  | .hbm, ⟨71, _⟩ => ⟨S1350000, .i32⟩
  | .hbm, ⟨72, _⟩ => ⟨S1350000x1, .i32⟩
  | .hbm, ⟨73, _⟩ => ⟨S1350000x64, .f32⟩
  | .hbm, ⟨74, _⟩ => ⟨S1350000x64, .f32⟩
  | .hbm, ⟨75, _⟩ => ⟨S1350000x64, .f32⟩
  | .hbm, ⟨76, _⟩ => ⟨S_, .f32⟩
  | .hbm, ⟨77, _⟩ => ⟨S100000x64, .f32⟩
  | .hbm, ⟨78, _⟩ => ⟨S1350000x1, .i32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S1x64x64, .f32⟩
  | .hbm, ⟨87, _⟩ => ⟨S64x64, .f32⟩
  | .hbm, ⟨88, _⟩ => ⟨S1x64, .f32⟩
  | .hbm, ⟨89, _⟩ => ⟨S64, .f32⟩
  | .hbm, ⟨90, _⟩ => ⟨S100000x64, .f32⟩
  | .hbm, ⟨91, _⟩ => ⟨S1350000x1, .f32⟩
  | .hbm, ⟨92, _⟩ => ⟨S_, .i32⟩
  | .hbm, ⟨93, _⟩ => ⟨S1350000, .i32⟩
  | .hbm, ⟨94, _⟩ => ⟨S1350000, .i1⟩
  | .hbm, ⟨95, _⟩ => ⟨S_, .i32⟩
  | .hbm, ⟨96, _⟩ => ⟨S1350000, .i32⟩
  | .hbm, ⟨97, _⟩ => ⟨S1350000, .i32⟩
  | .hbm, ⟨98, _⟩ => ⟨S1350000, .i32⟩
  | .hbm, ⟨99, _⟩ => ⟨S1350000x1, .i32⟩
  | .hbm, ⟨100, _⟩ => ⟨S1350000x64, .f32⟩
  | .hbm, ⟨101, _⟩ => ⟨S1350000x64, .f32⟩
  | .hbm, ⟨102, _⟩ => ⟨S1350000x64, .f32⟩
  | .hbm, ⟨103, _⟩ => ⟨S_, .f32⟩
  | .hbm, ⟨104, _⟩ => ⟨S100000x64, .f32⟩
  | .hbm, ⟨105, _⟩ => ⟨S1350000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | .hbm, ⟨113, _⟩ => ⟨S100000x192, .f32⟩
  | .hbm, ⟨114, _⟩ => ⟨S100000x40, .f32⟩
  | .hbm, ⟨115, _⟩ => ⟨S1x40, .f32⟩
  | .hbm, ⟨116, _⟩ => ⟨S100000x40, .f32⟩
  | .hbm, ⟨117, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call2_cst : Ref sig .tc := ⟨.hbm, 83, rfl⟩
abbrev main_call2_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_10 : Ref sig .tc := ⟨.hbm, 92, rfl⟩
abbrev main_v66 : Ref sig .tc := ⟨.hbm, 93, rfl⟩
abbrev main_v67 : Ref sig .tc := ⟨.hbm, 94, rfl⟩
abbrev main_c_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call3_cst : Ref sig .tc := ⟨.hbm, 110, rfl⟩
abbrev main_call3_v0 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S1350000x1_S1350000x64_0_1 : S1350000x1.BroadcastsInDim S1350000x64 (![0, 1] : Fin 2 → Fin S1350000x64.rank)
  slices_S2x64x64_S1x64x64_1_0_0 : S2x64x64.Slices ![1, 0, 0] S1x64x64
  slices_S2x64_S1x64_1_0 : S2x64.Slices ![1, 0] S1x64
  concatenates_S100000x64_S100000x64_S100000x64_S100000x192_d1 : Shape.Concatenates [S100000x64, S100000x64, S100000x64] S100000x192 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x64_S64x64_S100000x64_1_0_0_1_n_n_wf : DotDims.WF S100000x64 S64x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x192_S192x40_S100000x40_1_0_0_1_n_n_wf : DotDims.WF S100000x192 S192x40 S100000x40 [1] [0] [0] [1] [] []

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x192_S192x40_S100000x40_1_0_0_1_n_n : DotDims S100000x192 S192x40 S100000x40 where
  lhsContracting := [1]
  rhsContracting := [0]
  lhsNonContracting := [0]
  rhsNonContracting := [1]
  lhsBatch := []
  rhsBatch := []
  wf := dot_S100000x192_S192x40_S100000x40_1_0_0_1_n_n_wf

class Facts : Prop extends Facts₀ where

variable [Facts]
-- ==== Proof.BitsCall0.lean ====
/-
  Pallas call 0 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.Kernel.Launch
import proofs.«145378_j26474178413288_1_alg».proof.Proof.Gen.Kernel.Skeleton
import proofs.«145378_j26474178413288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the block index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or the block index stood still. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or the block index stood still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev rOut0 : Rect S10000x64 := Rect.unit (s := S10000x64) ![0, 0] S10000x64.size inb_S10000x64_S10000x64_0_0

/-- The output block after the body: the one store's payload of the loaded input blocks. -/
def out0 (x0 : Vec F S10000x64 .f32) (x1 : Vec F S64x64 .f32) (x2 : Vec F S64 .f32) : Vec F S10000x64 .f32 :=
  View.canon [⟨rOut0, k0_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover0 (p0 : Vec F S10000x64 .f32) (y : S10000x64.Idx) :
    ∃ pc ∈ ([⟨rOut0, p0⟩] : List (View.Piece (Elt F) S10000x64 .f32)), y ∈ pc.1.set :=
  View.cover_of_tiled [⟨rOut0, p0⟩] S10000x64.size (by rfl) y

set_option maxHeartbeats 4000000 in
/-- The body on whole staging memrefs — inputs at contents `xᵢ`, the output at anything — runs to the continuation with the
    inputs as they were and the output at `out0` of them. -/
theorem sound_kernel0 (c : Dev nD) (E : Set ℕ) (i : grid0.Coords) (arg0 : Memref sig .tc .vmem S10000x64 .f32) (harg0 : arg0.IsWhole) (arg1 : Memref sig .tc .vmem S64x64 .f32) (harg1 : arg1.IsWhole) (arg2 : Memref sig .tc .vmem S64 .f32) (harg2 : arg2.IsWhole) (arg3 : Memref sig .tc .vmem S10000x64 .f32) (harg3 : arg3.IsWhole)
    (x0 : Vec F S10000x64 .f32) (x1 : Vec F S64x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The call's proof data on core `c`: arrays as found; after the body each input buffer at its block and the output buffer at
    `out0` of the input blocks; nothing owed, full shares, the class invariant untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Calls

end
-- ==== Proof.BitsCall1.lean ====
/-
  Pallas call 1 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.Kernel.Launch
import proofs.«145378_j26474178413288_1_alg».proof.Proof.Gen.Kernel.Skeleton
import proofs.«145378_j26474178413288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the block index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or the block index stood still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or the block index stood still. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole output block as one rectangle. -/
abbrev rOut1 : Rect S10000x64 := Rect.unit (s := S10000x64) ![0, 0] S10000x64.size inb_S10000x64_S10000x64_0_0

/-- The output block after the body: the one store's payload of the loaded input blocks. -/
def out1 (x0 : Vec F S10000x64 .f32) (x1 : Vec F S64x64 .f32) (x2 : Vec F S64 .f32) : Vec F S10000x64 .f32 :=
  View.canon [⟨rOut1, k1_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover1 (p0 : Vec F S10000x64 .f32) (y : S10000x64.Idx) :
    ∃ pc ∈ ([⟨rOut1, p0⟩] : List (View.Piece (Elt F) S10000x64 .f32)), y ∈ pc.1.set :=
  View.cover_of_tiled [⟨rOut1, p0⟩] S10000x64.size (by rfl) y

set_option maxHeartbeats 4000000 in
/-- The body on whole staging memrefs — inputs at contents `xᵢ`, the output at anything — runs to the continuation with the
    inputs as they were and the output at `out1` of them. -/
theorem sound_kernel1 (c : Dev nD) (E : Set ℕ) (i : grid1.Coords) (arg0 : Memref sig .tc .vmem S10000x64 .f32) (harg0 : arg0.IsWhole) (arg1 : Memref sig .tc .vmem S64x64 .f32) (harg1 : arg1.IsWhole) (arg2 : Memref sig .tc .vmem S64 .f32) (harg2 : arg2.IsWhole) (arg3 : Memref sig .tc .vmem S10000x64 .f32) (harg3 : arg3.IsWhole)
    (x0 : Vec F S10000x64 .f32) (x1 : Vec F S64x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The call's proof data on core `c`: arrays as found; after the body each input buffer at its block and the output buffer at
    `out1` of the input blocks; nothing owed, full shares, the class invariant untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Calls

end
-- ==== Proof.BitsCall2.lean ====
/-
  Pallas call 2 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.Kernel.Launch
import proofs.«145378_j26474178413288_1_alg».proof.Proof.Gen.Kernel.Skeleton
import proofs.«145378_j26474178413288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or the block index stood still. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or the block index stood still. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole output block as one rectangle. -/
abbrev rOut2 : Rect S10000x64 := Rect.unit (s := S10000x64) ![0, 0] S10000x64.size inb_S10000x64_S10000x64_0_0

/-- The output block after the body: the one store's payload of the loaded input blocks. -/
def out2 (x0 : Vec F S10000x64 .f32) (x1 : Vec F S64 .f32) : Vec F S10000x64 .f32 :=
  View.canon [⟨rOut2, k2_pay1 (View.ld x0 (Rect.unit (s := S10000x64) ![0, 0] S10000x64.size inb_S10000x64_S10000x64_0_0)) (View.ld x1 (Rect.unit (s := S64) ![0] S64.size inb_S64_S64_0))⟩]

/-- The one store covers the output block. -/
theorem cover2 (p0 : Vec F S10000x64 .f32) (y : S10000x64.Idx) :
    ∃ pc ∈ ([⟨rOut2, p0⟩] : List (View.Piece (Elt F) S10000x64 .f32)), y ∈ pc.1.set :=
  View.cover_of_tiled [⟨rOut2, p0⟩] S10000x64.size (by rfl) y

set_option maxHeartbeats 4000000 in
/-- The body on whole staging memrefs — inputs at contents `xᵢ`, the output at anything — runs to the continuation with the
    inputs as they were and the output at `out2` of them. -/
theorem sound_kernel2 (c : Dev nD) (E : Set ℕ) (i : grid2.Coords) (arg0 : Memref sig .tc .vmem S10000x64 .f32) (harg0 : arg0.IsWhole) (arg1 : Memref sig .tc .vmem S64 .f32) (harg1 : arg1.IsWhole) (arg2 : Memref sig .tc .vmem S10000x64 .f32) (harg2 : arg2.IsWhole)
    (x0 : Vec F S10000x64 .f32) (x1 : Vec F S64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ K ⟨⟩))
      ⊢ wp frame (wpE (defs₀ (F := F)) Variants.none c none) E (cc2__bias_relu_kernel i arg0 harg0 arg1 harg1 arg2 harg2) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The call's proof data on core `c`: arrays as found; after the body each input buffer at its block and the output buffer at
    `out2` of the input blocks; nothing owed, full shares, the class invariant untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the triple applies; the invariant and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Calls

end
-- ==== Proof.BitsCall3.lean ====
/-
  Pallas call 3 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.Kernel.Launch
import proofs.«145378_j26474178413288_1_alg».proof.Proof.Gen.Kernel.Skeleton
import proofs.«145378_j26474178413288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or the block index stood still. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or the block index stood still. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or the block index stood still. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole output block as one rectangle. -/
abbrev rOut3 : Rect S10000x64 := Rect.unit (s := S10000x64) ![0, 0] S10000x64.size inb_S10000x64_S10000x64_0_0

/-- The output block after the body: the one store's payload of the loaded input blocks. -/
def out3 (x0 : Vec F S10000x64 .f32) (x1 : Vec F S64x64 .f32) (x2 : Vec F S64 .f32) : Vec F S10000x64 .f32 :=
  View.canon [⟨rOut3, k3_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover3 (p0 : Vec F S10000x64 .f32) (y : S10000x64.Idx) :
    ∃ pc ∈ ([⟨rOut3, p0⟩] : List (View.Piece (Elt F) S10000x64 .f32)), y ∈ pc.1.set :=
  View.cover_of_tiled [⟨rOut3, p0⟩] S10000x64.size (by rfl) y

set_option maxHeartbeats 4000000 in
/-- The body on whole staging memrefs — inputs at contents `xᵢ`, the output at anything — runs to the continuation with the
    inputs as they were and the output at `out3` of them. -/
theorem sound_kernel3 (c : Dev nD) (E : Set ℕ) (i : grid3.Coords) (arg0 : Memref sig .tc .vmem S10000x64 .f32) (harg0 : arg0.IsWhole) (arg1 : Memref sig .tc .vmem S64x64 .f32) (harg1 : arg1.IsWhole) (arg2 : Memref sig .tc .vmem S64 .f32) (harg2 : arg2.IsWhole) (arg3 : Memref sig .tc .vmem S10000x64 .f32) (harg3 : arg3.IsWhole)
    (x0 : Vec F S10000x64 .f32) (x1 : Vec F S64x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3 x0 x1 x2)) -∗ K ⟨⟩))
      ⊢ wp frame (wpE (defs₀ (F := F)) Variants.none c none) E (cc3__linear_kernel i arg0 harg0 arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The call's proof data on core `c`: arrays as found; after the body each input buffer at its block and the output buffer at
    `out3` of the input blocks; nothing owed, full shares, the class invariant untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the core's dues pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Calls

end
-- ==== Proof.BitsCall4.lean ====
/-
  Pallas call 4 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.Kernel.Launch
import proofs.«145378_j26474178413288_1_alg».proof.Proof.Gen.Kernel.Skeleton
import proofs.«145378_j26474178413288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the point fetched it or the block index stood still. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the point fetched it or the block index stood still. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole output block as one rectangle. -/
abbrev rOut4 : Rect S10000x64 := Rect.unit (s := S10000x64) ![0, 0] S10000x64.size inb_S10000x64_S10000x64_0_0

/-- The output block after the body: the one store's payload of the loaded input blocks. -/
def out4 (x0 : Vec F S10000x64 .f32) (x1 : Vec F S64 .f32) : Vec F S10000x64 .f32 :=
  View.canon [⟨rOut4, k4_pay1 (View.ld x0 (Rect.unit (s := S10000x64) ![0, 0] S10000x64.size inb_S10000x64_S10000x64_0_0)) (View.ld x1 (Rect.unit (s := S64) ![0] S64.size inb_S64_S64_0))⟩]

/-- The one store covers the output block. -/
theorem cover4 (p0 : Vec F S10000x64 .f32) (y : S10000x64.Idx) :
    ∃ pc ∈ ([⟨rOut4, p0⟩] : List (View.Piece (Elt F) S10000x64 .f32)), y ∈ pc.1.set :=
  View.cover_of_tiled [⟨rOut4, p0⟩] S10000x64.size (by rfl) y

set_option maxHeartbeats 4000000 in
/-- The body on whole staging memrefs — inputs at contents `xᵢ`, the output at anything — runs to the continuation with the
    inputs as they were and the output at `out4` of them. -/
theorem sound_kernel4 (c : Dev nD) (E : Set ℕ) (i : grid4.Coords) (arg0 : Memref sig .tc .vmem S10000x64 .f32) (harg0 : arg0.IsWhole) (arg1 : Memref sig .tc .vmem S64 .f32) (harg1 : arg1.IsWhole) (arg2 : Memref sig .tc .vmem S10000x64 .f32) (harg2 : arg2.IsWhole)
    (x0 : Vec F S10000x64 .f32) (x1 : Vec F S64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4 x0 x1)) -∗ K ⟨⟩))
      ⊢ wp frame (wpE (defs₀ (F := F)) Variants.none c none) E (cc4__bias_relu_kernel i arg0 harg0 arg1 harg1 arg2 harg2) K := by
  simp only [cc4__bias_relu_kernel_eq_skeleton]; unfold cc4__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-- The call's proof data on core `c`: arrays as found; after the body each input buffer at its block and the output buffer at
    `out4` of the input blocks; nothing owed, full shares, the class invariant untouched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the triple applies; the invariant and the core's dues pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Calls

end
-- ==== Proof.BitsCall5.lean ====
/-
  Pallas call 5 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.Kernel.Launch
import proofs.«145378_j26474178413288_1_alg».proof.Proof.Gen.Kernel.Skeleton
import proofs.«145378_j26474178413288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the point fetched it or the block index stood still. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the point fetched it or the block index stood still. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the point fetched it or the block index stood still. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole output block as one rectangle. -/
abbrev rOut5 : Rect S10000x40 := Rect.unit (s := S10000x40) ![0, 0] S10000x40.size inb_S10000x40_S10000x40_0_0

/-- The output block after the body: the one store's payload of the loaded input blocks. -/
def out5 (x0 : Vec F S10000x192 .f32) (x1 : Vec F S192x40 .f32) (x2 : Vec F S40 .f32) : Vec F S10000x40 .f32 :=
  View.canon [⟨rOut5, k5_pay1 (View.ld x0 (Rect.unit (s := S10000x192) ![0, 0] S10000x192.size inb_S10000x192_S10000x192_0_0)) (View.ld x1 (Rect.unit (s := S192x40) ![0, 0] S192x40.size inb_S192x40_S192x40_0_0)) (View.ld x2 (Rect.unit (s := S40) ![0] S40.size inb_S40_S40_0))⟩]

/-- The one store covers the output block. -/
theorem cover5 (p0 : Vec F S10000x40 .f32) (y : S10000x40.Idx) :
    ∃ pc ∈ ([⟨rOut5, p0⟩] : List (View.Piece (Elt F) S10000x40 .f32)), y ∈ pc.1.set :=
  View.cover_of_tiled [⟨rOut5, p0⟩] S10000x40.size (by rfl) y

set_option maxHeartbeats 4000000 in
/-- The body on whole staging memrefs — inputs at contents `xᵢ`, the output at anything — runs to the continuation with the
    inputs as they were and the output at `out5` of them. -/
theorem sound_kernel5 (c : Dev nD) (E : Set ℕ) (i : grid5.Coords) (arg0 : Memref sig .tc .vmem S10000x192 .f32) (harg0 : arg0.IsWhole) (arg1 : Memref sig .tc .vmem S192x40 .f32) (harg1 : arg1.IsWhole) (arg2 : Memref sig .tc .vmem S40 .f32) (harg2 : arg2.IsWhole) (arg3 : Memref sig .tc .vmem S10000x40 .f32) (harg3 : arg3.IsWhole)
    (x0 : Vec F S10000x192 .f32) (x1 : Vec F S192x40 .f32) (x2 : Vec F S40 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5 x0 x1 x2)) -∗ K ⟨⟩))
      ⊢ wp frame (wpE (defs₀ (F := F)) Variants.none c none) E (cc5__linear_kernel i arg0 harg0 arg1 harg1 arg2 harg2 arg3 harg3) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The call's proof data on core `c`: arrays as found; after the body each input buffer at its block and the output buffer at
    `out5` of the input blocks; nothing owed, full shares, the class invariant untouched. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the triple applies; the invariant and the core's dues pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Calls

end
-- ==== Proof.BitsRun.lean ====
/-
  The whole program run: the buffers' contents at every boundary between two items of the entry function (a stretch of
  host operations applies its operations; a Pallas call leaves its input arrays as found and its output array at what
  the grid's write-backs leave), each call as a segment of the pipelined launch, and the launch itself: every weakly
  fair execution terminates with every unscoped buffer at the last boundary's contents.  The argument arrays are
  written by no item, so they end as launched.
-/
import proofs.«145378_j26474178413288_1_alg».proof.Proof.BitsCall0
import proofs.«145378_j26474178413288_1_alg».proof.Proof.BitsCall1
import proofs.«145378_j26474178413288_1_alg».proof.Proof.BitsCall2
import proofs.«145378_j26474178413288_1_alg».proof.Proof.BitsCall3
import proofs.«145378_j26474178413288_1_alg».proof.Proof.BitsCall4
import proofs.«145378_j26474178413288_1_alg».proof.Proof.BitsCall5
import proofs.«145378_j26474178413288_1_alg».proof.Proof.Gen.Kernel.Regions

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev B0 : Dev nD → Valuation τ sig (Elt F) := fun c b => (s₀ m ρ).mem ((c : Dev nD), b)
abbrev T0 : (c : Dev nD) → (b : Ref sig .tc) → Buf (Elt F) ((c : Thread nD τ).loc b) := fun c b => B0 m ρ c b

/-- After the host stretch `hostOps0`. -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b
theorem keep1 (c : Dev nD) (r : Ref sig .tc) (h : r ∉ hostOps0_W) : T1 m ρ c r = T0 m ρ c r :=
  StableHlo.after_of_writes_sub hostOps0 _ hostOps0_writes h

/-- After the host stretch `hostOps0_1`. -/
abbrev B2 : Dev nD → Valuation τ sig (Elt F) := fun c => StableHlo.after hostOps0_1 (B1 m ρ c)
abbrev T2 : (c : Dev nD) → (b : Ref sig .tc) → Buf (Elt F) ((c : Thread nD τ).loc b) := fun c b => B2 m ρ c b
theorem keep2 (c : Dev nD) (r : Ref sig .tc) (h : r ∉ hostOps0_1_W) : T2 m ρ c r = T1 m ρ c r :=
  StableHlo.after_of_writes_sub hostOps0_1 _ hostOps0_1_writes h

/-- After the host stretch `hostOps0_2`. -/
abbrev B3 : Dev nD → Valuation τ sig (Elt F) := fun c => StableHlo.after hostOps0_2 (B2 m ρ c)
abbrev T3 : (c : Dev nD) → (b : Ref sig .tc) → Buf (Elt F) ((c : Thread nD τ).loc b) := fun c b => B3 m ρ c b
theorem keep3 (c : Dev nD) (r : Ref sig .tc) (h : r ∉ hostOps0_2_W) : T3 m ρ c r = T2 m ρ c r :=
  StableHlo.after_of_writes_sub hostOps0_2 _ hostOps0_2_writes h

/-- After Pallas call 0: its arrays at what the pipeline leaves, every other buffer as entered. -/
def B4 (c : Dev nD) : Valuation τ sig (Elt F) :=
  Pipeline.withArrays spec0 c (B3 m ρ c) fun w => (dat0 (T3 m ρ) c).arrAt w cfg0.N
theorem B4_arr (c : Dev nD) (w : Fin cfg0.W) :
    B4 m ρ c (Proc.devRef .tc (Pipeline.arrRef spec0 w)) = (dat0 (T3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev T4 : (c : Dev nD) → (b : Ref sig .tc) → Buf (Elt F) ((c : Thread nD τ).loc b) := fun c b => B4 m ρ c b
theorem hF0 (c : Dev nD) (w : Fin cfg0.W) : (dat0 (T3 m ρ) c).arrAt w cfg0.N = T4 m ρ c (Pipeline.arrRef spec0 w) :=
  (B4_arr m ρ c w).symm
theorem hrest0 (c : Dev nD) : ∀ b, b ∉ Finset.univ.image (Pipeline.arrRef spec0) → T4 m ρ c b = T3 m ρ c b :=
  fun b hb => B4_of_ne m ρ c b fun w e => hb (Finset.mem_image.mpr ⟨w, Finset.mem_univ _, e⟩)
/-- Call 0 changes no buffer but its output array: an input array is left as found, any other buffer is not its. -/
theorem keep4 (c : Dev nD) (b : Ref sig .tc) (hb : b ≠ Pipeline.arrRef spec0 3) : T4 m ρ c b = T3 m ρ c b := by
  by_cases h : ∃ w, Pipeline.arrRef spec0 w = b
  · obtain ⟨w, rfl⟩ := h
    have hw : (cfg0.win w).isOut = false := by
      rcases w with ⟨_ | _ | _ | _ | n, hn⟩
      · rfl
      · rfl
      · rfl
      · exact absurd rfl hb
      · exact absurd hn (Nat.not_lt.2 (Nat.le_add_left _ _))
    exact (B4_arr m ρ c w).trans (((dat0 (T3 m ρ) c).arrAt_in w hw _).trans (A_eq0 (T3 m ρ) c w))
  · exact B4_of_ne m ρ c b (fun w e => h ⟨w, e⟩)
/-- What call 0 leaves in its output array. -/
theorem out_arr0 (c : Dev nD) : T4 m ρ c (Pipeline.arrRef spec0 3) = (dat0 (T3 m ρ) c).arrAt 3 cfg0.N := B4_arr m ρ c 3

/-- After the host stretch `hostOps1`. -/
abbrev B5 : Dev nD → Valuation τ sig (Elt F) := fun c => StableHlo.after hostOps1 (B4 m ρ c)
abbrev T5 : (c : Dev nD) → (b : Ref sig .tc) → Buf (Elt F) ((c : Thread nD τ).loc b) := fun c b => B5 m ρ c b
theorem keep5 (c : Dev nD) (r : Ref sig .tc) (h : r ∉ hostOps1_W) : T5 m ρ c r = T4 m ρ c r :=
  StableHlo.after_of_writes_sub hostOps1 _ hostOps1_writes h

/-- After Pallas call 1: its arrays at what the pipeline leaves, every other buffer as entered. -/
def B6 (c : Dev nD) : Valuation τ sig (Elt F) :=
  Pipeline.withArrays spec1 c (B5 m ρ c) fun w => (dat1 (T5 m ρ) c).arrAt w cfg1.N
theorem B6_arr (c : Dev nD) (w : Fin cfg1.W) :
    B6 m ρ c (Proc.devRef .tc (Pipeline.arrRef spec1 w)) = (dat1 (T5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev T6 : (c : Dev nD) → (b : Ref sig .tc) → Buf (Elt F) ((c : Thread nD τ).loc b) := fun c b => B6 m ρ c b
theorem hF1 (c : Dev nD) (w : Fin cfg1.W) : (dat1 (T5 m ρ) c).arrAt w cfg1.N = T6 m ρ c (Pipeline.arrRef spec1 w) :=
  (B6_arr m ρ c w).symm
theorem hrest1 (c : Dev nD) : ∀ b, b ∉ Finset.univ.image (Pipeline.arrRef spec1) → T6 m ρ c b = T5 m ρ c b :=
  fun b hb => B6_of_ne m ρ c b fun w e => hb (Finset.mem_image.mpr ⟨w, Finset.mem_univ _, e⟩)
/-- Call 1 changes no buffer but its output array: an input array is left as found, any other buffer is not its. -/
theorem keep6 (c : Dev nD) (b : Ref sig .tc) (hb : b ≠ Pipeline.arrRef spec1 3) : T6 m ρ c b = T5 m ρ c b := by
  by_cases h : ∃ w, Pipeline.arrRef spec1 w = b
  · obtain ⟨w, rfl⟩ := h
    have hw : (cfg1.win w).isOut = false := by
      rcases w with ⟨_ | _ | _ | _ | n, hn⟩
      · rfl
      · rfl
      · rfl
      · exact absurd rfl hb
      · exact absurd hn (Nat.not_lt.2 (Nat.le_add_left _ _))
    exact (B6_arr m ρ c w).trans (((dat1 (T5 m ρ) c).arrAt_in w hw _).trans (A_eq1 (T5 m ρ) c w))
  · exact B6_of_ne m ρ c b (fun w e => h ⟨w, e⟩)
/-- What call 1 leaves in its output array. -/
theorem out_arr1 (c : Dev nD) : T6 m ρ c (Pipeline.arrRef spec1 3) = (dat1 (T5 m ρ) c).arrAt 3 cfg1.N := B6_arr m ρ c 3

/-- After the host stretch `hostOps2`. -/
abbrev B7 : Dev nD → Valuation τ sig (Elt F) := fun c => StableHlo.after hostOps2 (B6 m ρ c)
abbrev T7 : (c : Dev nD) → (b : Ref sig .tc) → Buf (Elt F) ((c : Thread nD τ).loc b) := fun c b => B7 m ρ c b
theorem keep7 (c : Dev nD) (r : Ref sig .tc) (h : r ∉ hostOps2_W) : T7 m ρ c r = T6 m ρ c r :=
  StableHlo.after_of_writes_sub hostOps2 _ hostOps2_writes h

/-- After Pallas call 2: its arrays at what the pipeline leaves, every other buffer as entered. -/
def B8 (c : Dev nD) : Valuation τ sig (Elt F) :=
  Pipeline.withArrays spec2 c (B7 m ρ c) fun w => (dat2 (T7 m ρ) c).arrAt w cfg2.N
theorem B8_arr (c : Dev nD) (w : Fin cfg2.W) :
    B8 m ρ c (Proc.devRef .tc (Pipeline.arrRef spec2 w)) = (dat2 (T7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
abbrev T8 : (c : Dev nD) → (b : Ref sig .tc) → Buf (Elt F) ((c : Thread nD τ).loc b) := fun c b => B8 m ρ c b
theorem hF2 (c : Dev nD) (w : Fin cfg2.W) : (dat2 (T7 m ρ) c).arrAt w cfg2.N = T8 m ρ c (Pipeline.arrRef spec2 w) :=
  (B8_arr m ρ c w).symm
theorem hrest2 (c : Dev nD) : ∀ b, b ∉ Finset.univ.image (Pipeline.arrRef spec2) → T8 m ρ c b = T7 m ρ c b :=
  fun b hb => B8_of_ne m ρ c b fun w e => hb (Finset.mem_image.mpr ⟨w, Finset.mem_univ _, e⟩)
/-- Call 2 changes no buffer but its output array: an input array is left as found, any other buffer is not its. -/
theorem keep8 (c : Dev nD) (b : Ref sig .tc) (hb : b ≠ Pipeline.arrRef spec2 2) : T8 m ρ c b = T7 m ρ c b := by
  by_cases h : ∃ w, Pipeline.arrRef spec2 w = b
  · obtain ⟨w, rfl⟩ := h
    have hw : (cfg2.win w).isOut = false := by
      rcases w with ⟨_ | _ | _ | n, hn⟩
      · rfl
      · rfl
      · exact absurd rfl hb
      · exact absurd hn (Nat.not_lt.2 (Nat.le_add_left _ _))
    exact (B8_arr m ρ c w).trans (((dat2 (T7 m ρ) c).arrAt_in w hw _).trans (A_eq2 (T7 m ρ) c w))
  · exact B8_of_ne m ρ c b (fun w e => h ⟨w, e⟩)
/-- What call 2 leaves in its output array. -/
theorem out_arr2 (c : Dev nD) : T8 m ρ c (Pipeline.arrRef spec2 2) = (dat2 (T7 m ρ) c).arrAt 2 cfg2.N := B8_arr m ρ c 2

/-- After the host stretch `hostOps3`. -/
abbrev B9 : Dev nD → Valuation τ sig (Elt F) := fun c => StableHlo.after hostOps3 (B8 m ρ c)
abbrev T9 : (c : Dev nD) → (b : Ref sig .tc) → Buf (Elt F) ((c : Thread nD τ).loc b) := fun c b => B9 m ρ c b
theorem keep9 (c : Dev nD) (r : Ref sig .tc) (h : r ∉ hostOps3_W) : T9 m ρ c r = T8 m ρ c r :=
  StableHlo.after_of_writes_sub hostOps3 _ hostOps3_writes h

/-- After Pallas call 3: its arrays at what the pipeline leaves, every other buffer as entered. -/
def B10 (c : Dev nD) : Valuation τ sig (Elt F) :=
  Pipeline.withArrays spec3 c (B9 m ρ c) fun w => (dat3 (T9 m ρ) c).arrAt w cfg3.N
theorem B10_arr (c : Dev nD) (w : Fin cfg3.W) :
    B10 m ρ c (Proc.devRef .tc (Pipeline.arrRef spec3 w)) = (dat3 (T9 m ρ) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) := by
  unfold B10; exact Pipeline.withArrays_of_ne spec3 c _ _ b hb
abbrev T10 : (c : Dev nD) → (b : Ref sig .tc) → Buf (Elt F) ((c : Thread nD τ).loc b) := fun c b => B10 m ρ c b
theorem hF3 (c : Dev nD) (w : Fin cfg3.W) : (dat3 (T9 m ρ) c).arrAt w cfg3.N = T10 m ρ c (Pipeline.arrRef spec3 w) :=
  (B10_arr m ρ c w).symm
theorem hrest3 (c : Dev nD) : ∀ b, b ∉ Finset.univ.image (Pipeline.arrRef spec3) → T10 m ρ c b = T9 m ρ c b :=
  fun b hb => B10_of_ne m ρ c b fun w e => hb (Finset.mem_image.mpr ⟨w, Finset.mem_univ _, e⟩)
/-- Call 3 changes no buffer but its output array: an input array is left as found, any other buffer is not its. -/
theorem keep10 (c : Dev nD) (b : Ref sig .tc) (hb : b ≠ Pipeline.arrRef spec3 3) : T10 m ρ c b = T9 m ρ c b := by
  by_cases h : ∃ w, Pipeline.arrRef spec3 w = b
  · obtain ⟨w, rfl⟩ := h
    have hw : (cfg3.win w).isOut = false := by
      rcases w with ⟨_ | _ | _ | _ | n, hn⟩
      · rfl
      · rfl
      · rfl
      · exact absurd rfl hb
      · exact absurd hn (Nat.not_lt.2 (Nat.le_add_left _ _))
    exact (B10_arr m ρ c w).trans (((dat3 (T9 m ρ) c).arrAt_in w hw _).trans (A_eq3 (T9 m ρ) c w))
  · exact B10_of_ne m ρ c b (fun w e => h ⟨w, e⟩)
/-- What call 3 leaves in its output array. -/
theorem out_arr3 (c : Dev nD) : T10 m ρ c (Pipeline.arrRef spec3 3) = (dat3 (T9 m ρ) c).arrAt 3 cfg3.N := B10_arr m ρ c 3

/-- After the host stretch `hostOps4`. -/
abbrev B11 : Dev nD → Valuation τ sig (Elt F) := fun c => StableHlo.after hostOps4 (B10 m ρ c)
abbrev T11 : (c : Dev nD) → (b : Ref sig .tc) → Buf (Elt F) ((c : Thread nD τ).loc b) := fun c b => B11 m ρ c b
theorem keep11 (c : Dev nD) (r : Ref sig .tc) (h : r ∉ hostOps4_W) : T11 m ρ c r = T10 m ρ c r :=
  StableHlo.after_of_writes_sub hostOps4 _ hostOps4_writes h

/-- After Pallas call 4: its arrays at what the pipeline leaves, every other buffer as entered. -/
def B12 (c : Dev nD) : Valuation τ sig (Elt F) :=
  Pipeline.withArrays spec4 c (B11 m ρ c) fun w => (dat4 (T11 m ρ) c).arrAt w cfg4.N
theorem B12_arr (c : Dev nD) (w : Fin cfg4.W) :
    B12 m ρ c (Proc.devRef .tc (Pipeline.arrRef spec4 w)) = (dat4 (T11 m ρ) c).arrAt w cfg4.N := by
  unfold B12; exact Pipeline.withArrays_arr spec4 launch4.win.arr_inj c _ _ w
theorem B12_of_ne (c : Dev nD) (b : Ref sig .tc) (hb : ∀ w, Pipeline.arrRef spec4 w ≠ b) :
    B12 m ρ c (Proc.devRef .tc b) = B11 m ρ c (Proc.devRef .tc b) := by
  unfold B12; exact Pipeline.withArrays_of_ne spec4 c _ _ b hb
abbrev T12 : (c : Dev nD) → (b : Ref sig .tc) → Buf (Elt F) ((c : Thread nD τ).loc b) := fun c b => B12 m ρ c b
theorem hF4 (c : Dev nD) (w : Fin cfg4.W) : (dat4 (T11 m ρ) c).arrAt w cfg4.N = T12 m ρ c (Pipeline.arrRef spec4 w) :=
  (B12_arr m ρ c w).symm
theorem hrest4 (c : Dev nD) : ∀ b, b ∉ Finset.univ.image (Pipeline.arrRef spec4) → T12 m ρ c b = T11 m ρ c b :=
  fun b hb => B12_of_ne m ρ c b fun w e => hb (Finset.mem_image.mpr ⟨w, Finset.mem_univ _, e⟩)
/-- Call 4 changes no buffer but its output array: an input array is left as found, any other buffer is not its. -/
theorem keep12 (c : Dev nD) (b : Ref sig .tc) (hb : b ≠ Pipeline.arrRef spec4 2) : T12 m ρ c b = T11 m ρ c b := by
  by_cases h : ∃ w, Pipeline.arrRef spec4 w = b
  · obtain ⟨w, rfl⟩ := h
    have hw : (cfg4.win w).isOut = false := by
      rcases w with ⟨_ | _ | _ | n, hn⟩
      · rfl
      · rfl
      · exact absurd rfl hb
      · exact absurd hn (Nat.not_lt.2 (Nat.le_add_left _ _))
    exact (B12_arr m ρ c w).trans (((dat4 (T11 m ρ) c).arrAt_in w hw _).trans (A_eq4 (T11 m ρ) c w))
  · exact B12_of_ne m ρ c b (fun w e => h ⟨w, e⟩)
/-- What call 4 leaves in its output array. -/
theorem out_arr4 (c : Dev nD) : T12 m ρ c (Pipeline.arrRef spec4 2) = (dat4 (T11 m ρ) c).arrAt 2 cfg4.N := B12_arr m ρ c 2

/-- After the host stretch `hostOps5`. -/
abbrev B13 : Dev nD → Valuation τ sig (Elt F) := fun c => StableHlo.after hostOps5 (B12 m ρ c)
abbrev T13 : (c : Dev nD) → (b : Ref sig .tc) → Buf (Elt F) ((c : Thread nD τ).loc b) := fun c b => B13 m ρ c b
theorem keep13 (c : Dev nD) (r : Ref sig .tc) (h : r ∉ hostOps5_W) : T13 m ρ c r = T12 m ρ c r :=
  StableHlo.after_of_writes_sub hostOps5 _ hostOps5_writes h

/-- After Pallas call 5: its arrays at what the pipeline leaves, every other buffer as entered. -/
def B14 (c : Dev nD) : Valuation τ sig (Elt F) :=
  Pipeline.withArrays spec5 c (B13 m ρ c) fun w => (dat5 (T13 m ρ) c).arrAt w cfg5.N
theorem B14_arr (c : Dev nD) (w : Fin cfg5.W) :
    B14 m ρ c (Proc.devRef .tc (Pipeline.arrRef spec5 w)) = (dat5 (T13 m ρ) c).arrAt w cfg5.N := by
  unfold B14; exact Pipeline.withArrays_arr spec5 launch5.win.arr_inj c _ _ w
theorem B14_of_ne (c : Dev nD) (b : Ref sig .tc) (hb : ∀ w, Pipeline.arrRef spec5 w ≠ b) :
    B14 m ρ c (Proc.devRef .tc b) = B13 m ρ c (Proc.devRef .tc b) := by
  unfold B14; exact Pipeline.withArrays_of_ne spec5 c _ _ b hb
abbrev T14 : (c : Dev nD) → (b : Ref sig .tc) → Buf (Elt F) ((c : Thread nD τ).loc b) := fun c b => B14 m ρ c b
theorem hF5 (c : Dev nD) (w : Fin cfg5.W) : (dat5 (T13 m ρ) c).arrAt w cfg5.N = T14 m ρ c (Pipeline.arrRef spec5 w) :=
  (B14_arr m ρ c w).symm
theorem hrest5 (c : Dev nD) : ∀ b, b ∉ Finset.univ.image (Pipeline.arrRef spec5) → T14 m ρ c b = T13 m ρ c b :=
  fun b hb => B14_of_ne m ρ c b fun w e => hb (Finset.mem_image.mpr ⟨w, Finset.mem_univ _, e⟩)
/-- Call 5 changes no buffer but its output array: an input array is left as found, any other buffer is not its. -/
theorem keep14 (c : Dev nD) (b : Ref sig .tc) (hb : b ≠ Pipeline.arrRef spec5 3) : T14 m ρ c b = T13 m ρ c b := by
  by_cases h : ∃ w, Pipeline.arrRef spec5 w = b
  · obtain ⟨w, rfl⟩ := h
    have hw : (cfg5.win w).isOut = false := by
      rcases w with ⟨_ | _ | _ | _ | n, hn⟩
      · rfl
      · rfl
      · rfl
      · exact absurd rfl hb
      · exact absurd hn (Nat.not_lt.2 (Nat.le_add_left _ _))
    exact (B14_arr m ρ c w).trans (((dat5 (T13 m ρ) c).arrAt_in w hw _).trans (A_eq5 (T13 m ρ) c w))
  · exact B14_of_ne m ρ c b (fun w e => h ⟨w, e⟩)
/-- What call 5 leaves in its output array. -/
theorem out_arr5 (c : Dev nD) : T14 m ρ c (Pipeline.arrRef spec5 3) = (dat5 (T13 m ρ) c).arrAt 3 cfg5.N := B14_arr m ρ c 3

/-! ## No item writes an argument array -/

theorem B14_main_arg0 (c : Dev nD) : T14 m ρ c main_arg0 = m ((c : Thread nD τ).loc main_arg0) :=
  (keep14 m ρ c main_arg0 (by decide)).trans <| (keep13 m ρ c main_arg0 (by decide)).trans <| (keep12 m ρ c main_arg0 (by decide)).trans <| (keep11 m ρ c main_arg0 (by decide)).trans <| (keep10 m ρ c main_arg0 (by decide)).trans <| (keep9 m ρ c main_arg0 (by decide)).trans <| (keep8 m ρ c main_arg0 (by decide)).trans <| (keep7 m ρ c main_arg0 (by decide)).trans <| (keep6 m ρ c main_arg0 (by decide)).trans <| (keep5 m ρ c main_arg0 (by decide)).trans <| (keep4 m ρ c main_arg0 (by decide)).trans <| (keep3 m ρ c main_arg0 (by decide)).trans <| (keep2 m ρ c main_arg0 (by decide)).trans <| (keep1 m ρ c main_arg0 (by decide)).trans <| rfl
theorem B14_main_arg1 (c : Dev nD) : T14 m ρ c main_arg1 = m ((c : Thread nD τ).loc main_arg1) :=
  (keep14 m ρ c main_arg1 (by decide)).trans <| (keep13 m ρ c main_arg1 (by decide)).trans <| (keep12 m ρ c main_arg1 (by decide)).trans <| (keep11 m ρ c main_arg1 (by decide)).trans <| (keep10 m ρ c main_arg1 (by decide)).trans <| (keep9 m ρ c main_arg1 (by decide)).trans <| (keep8 m ρ c main_arg1 (by decide)).trans <| (keep7 m ρ c main_arg1 (by decide)).trans <| (keep6 m ρ c main_arg1 (by decide)).trans <| (keep5 m ρ c main_arg1 (by decide)).trans <| (keep4 m ρ c main_arg1 (by decide)).trans <| (keep3 m ρ c main_arg1 (by decide)).trans <| (keep2 m ρ c main_arg1 (by decide)).trans <| (keep1 m ρ c main_arg1 (by decide)).trans <| rfl
theorem B14_main_arg2 (c : Dev nD) : T14 m ρ c main_arg2 = m ((c : Thread nD τ).loc main_arg2) :=
  (keep14 m ρ c main_arg2 (by decide)).trans <| (keep13 m ρ c main_arg2 (by decide)).trans <| (keep12 m ρ c main_arg2 (by decide)).trans <| (keep11 m ρ c main_arg2 (by decide)).trans <| (keep10 m ρ c main_arg2 (by decide)).trans <| (keep9 m ρ c main_arg2 (by decide)).trans <| (keep8 m ρ c main_arg2 (by decide)).trans <| (keep7 m ρ c main_arg2 (by decide)).trans <| (keep6 m ρ c main_arg2 (by decide)).trans <| (keep5 m ρ c main_arg2 (by decide)).trans <| (keep4 m ρ c main_arg2 (by decide)).trans <| (keep3 m ρ c main_arg2 (by decide)).trans <| (keep2 m ρ c main_arg2 (by decide)).trans <| (keep1 m ρ c main_arg2 (by decide)).trans <| rfl
theorem B14_main_arg3 (c : Dev nD) : T14 m ρ c main_arg3 = m ((c : Thread nD τ).loc main_arg3) :=
  (keep14 m ρ c main_arg3 (by decide)).trans <| (keep13 m ρ c main_arg3 (by decide)).trans <| (keep12 m ρ c main_arg3 (by decide)).trans <| (keep11 m ρ c main_arg3 (by decide)).trans <| (keep10 m ρ c main_arg3 (by decide)).trans <| (keep9 m ρ c main_arg3 (by decide)).trans <| (keep8 m ρ c main_arg3 (by decide)).trans <| (keep7 m ρ c main_arg3 (by decide)).trans <| (keep6 m ρ c main_arg3 (by decide)).trans <| (keep5 m ρ c main_arg3 (by decide)).trans <| (keep4 m ρ c main_arg3 (by decide)).trans <| (keep3 m ρ c main_arg3 (by decide)).trans <| (keep2 m ρ c main_arg3 (by decide)).trans <| (keep1 m ρ c main_arg3 (by decide)).trans <| rfl
theorem B14_main_arg4 (c : Dev nD) : T14 m ρ c main_arg4 = m ((c : Thread nD τ).loc main_arg4) :=
  (keep14 m ρ c main_arg4 (by decide)).trans <| (keep13 m ρ c main_arg4 (by decide)).trans <| (keep12 m ρ c main_arg4 (by decide)).trans <| (keep11 m ρ c main_arg4 (by decide)).trans <| (keep10 m ρ c main_arg4 (by decide)).trans <| (keep9 m ρ c main_arg4 (by decide)).trans <| (keep8 m ρ c main_arg4 (by decide)).trans <| (keep7 m ρ c main_arg4 (by decide)).trans <| (keep6 m ρ c main_arg4 (by decide)).trans <| (keep5 m ρ c main_arg4 (by decide)).trans <| (keep4 m ρ c main_arg4 (by decide)).trans <| (keep3 m ρ c main_arg4 (by decide)).trans <| (keep2 m ρ c main_arg4 (by decide)).trans <| (keep1 m ρ c main_arg4 (by decide)).trans <| rfl
theorem B14_main_arg5 (c : Dev nD) : T14 m ρ c main_arg5 = m ((c : Thread nD τ).loc main_arg5) :=
  (keep14 m ρ c main_arg5 (by decide)).trans <| (keep13 m ρ c main_arg5 (by decide)).trans <| (keep12 m ρ c main_arg5 (by decide)).trans <| (keep11 m ρ c main_arg5 (by decide)).trans <| (keep10 m ρ c main_arg5 (by decide)).trans <| (keep9 m ρ c main_arg5 (by decide)).trans <| (keep8 m ρ c main_arg5 (by decide)).trans <| (keep7 m ρ c main_arg5 (by decide)).trans <| (keep6 m ρ c main_arg5 (by decide)).trans <| (keep5 m ρ c main_arg5 (by decide)).trans <| (keep4 m ρ c main_arg5 (by decide)).trans <| (keep3 m ρ c main_arg5 (by decide)).trans <| (keep2 m ρ c main_arg5 (by decide)).trans <| (keep1 m ρ c main_arg5 (by decide)).trans <| rfl
theorem B14_main_arg6 (c : Dev nD) : T14 m ρ c main_arg6 = m ((c : Thread nD τ).loc main_arg6) :=
  (keep14 m ρ c main_arg6 (by decide)).trans <| (keep13 m ρ c main_arg6 (by decide)).trans <| (keep12 m ρ c main_arg6 (by decide)).trans <| (keep11 m ρ c main_arg6 (by decide)).trans <| (keep10 m ρ c main_arg6 (by decide)).trans <| (keep9 m ρ c main_arg6 (by decide)).trans <| (keep8 m ρ c main_arg6 (by decide)).trans <| (keep7 m ρ c main_arg6 (by decide)).trans <| (keep6 m ρ c main_arg6 (by decide)).trans <| (keep5 m ρ c main_arg6 (by decide)).trans <| (keep4 m ρ c main_arg6 (by decide)).trans <| (keep3 m ρ c main_arg6 (by decide)).trans <| (keep2 m ρ c main_arg6 (by decide)).trans <| (keep1 m ρ c main_arg6 (by decide)).trans <| rfl
theorem B14_main_arg7 (c : Dev nD) : T14 m ρ c main_arg7 = m ((c : Thread nD τ).loc main_arg7) :=
  (keep14 m ρ c main_arg7 (by decide)).trans <| (keep13 m ρ c main_arg7 (by decide)).trans <| (keep12 m ρ c main_arg7 (by decide)).trans <| (keep11 m ρ c main_arg7 (by decide)).trans <| (keep10 m ρ c main_arg7 (by decide)).trans <| (keep9 m ρ c main_arg7 (by decide)).trans <| (keep8 m ρ c main_arg7 (by decide)).trans <| (keep7 m ρ c main_arg7 (by decide)).trans <| (keep6 m ρ c main_arg7 (by decide)).trans <| (keep5 m ρ c main_arg7 (by decide)).trans <| (keep4 m ρ c main_arg7 (by decide)).trans <| (keep3 m ρ c main_arg7 (by decide)).trans <| (keep2 m ρ c main_arg7 (by decide)).trans <| (keep1 m ρ c main_arg7 (by decide)).trans <| rfl

/-! ## The proof data family and what rides beside the buffers -/

abbrev admC : (p : Fin 6) → (pcfgs (F := F) p).Adm := fun p => (cfgs p).toPCfg_adm
/-- Every call's proof data, each at its own entry contents. -/
def pdatsC : (p : Fin 6) → (c : Dev nD) → Dat τ (Elt F) Unit ℕ (UR sig nD τ) ℕ (Pipeline.pin (pcfgs (F := F)) admC p) c
  | ⟨0, _⟩ => fun c => dat0 (T3 m ρ) c
  | ⟨1, _⟩ => fun c => dat1 (T5 m ρ) c
  | ⟨2, _⟩ => fun c => dat2 (T7 m ρ) c
  | ⟨3, _⟩ => fun c => dat3 (T9 m ρ) c
  | ⟨4, _⟩ => fun c => dat4 (T11 m ρ) c
  | ⟨5, _⟩ => fun c => dat5 (T13 m ρ) c
abbrev vr0 : Variants := Variants.none
abbrev Lz : GSem nD τ sig → Finset Unit := fun _ => ∅
abbrev lvz : GSem nD τ sig → Unit → ℕ := fun _ _ => 0
/-- Beside the buffers through every segment: the generator register at some state, and nothing owed. -/
abbrev Rst (c : Dev nD) : sProp 𝕄 := iprop((∃ r, prngReg c r) ∗ ∃ W, owes (c : Thread nD τ) (0 : CellTallies nD τ sig Unit) W)
abbrev hsegC (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vr0 Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucC (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (B14 m ρ c) ∗ ∃ r, prngReg c r)

/-! ## The calls as segments -/

set_option backward.isDefEq.respectTransparency.types false in
/-- Call 0 over the thread state: entered with every unscoped buffer at boundary 3's contents, left at boundary 4's. -/
def reg0 : Pipeline.RegionSeg (pcfgs (F := F)) admC (pdatsC m ρ) () defs₀ vr0 Lz lvz 0 where
  win := launch0.win.to₀
  block_pos := launch0.block_pos
  stage_whole := launch0.stage_whole
  K := PEmpty
  osem k := k.elim
  ho := Pipeline.OwnSemFacts.none _
  hbody c := (body_obligation0 (T3 m ρ) c).loose
  hwaits := Pipeline.hwaits_of_owed_zero _ _ _ _ Lz lvz 0 fun _ _ => rfl
  pre c := iprop(StableHlo.held (c : Thread nD τ) (Pipeline.ucRefs τ sig) (B3 m ρ c) ∗ Rst c)
  post c := iprop(StableHlo.held (c : Thread nD τ) (Pipeline.ucRefs τ sig) (B4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (T3 m ρ c)
  hentry c := by
    rw [Pipeline.ownSems0_none]
    have hsplit := Pipeline.arrays_of_unscopedBufs (p := 0) (pcfgs (F := F)) admC (pdatsC m ρ) launch0.win launch0.arr_whole c
      ((pdatsC m ρ 0 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsC m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admC (Ix := Unit) (Name := ℕ) (U := UR sig nD τ) (Lvl := ℕ)
      launch0.win launch0.arr_whole c (pdatsC m ρ) ((pdatsC m ρ 0 c).share_full fun _ => rfl)
      (T3 m ρ c) (T4 m ρ c) ((pdatsC m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at boundary 5's contents, left at boundary 6's. -/
def reg1 : Pipeline.RegionSeg (pcfgs (F := F)) admC (pdatsC m ρ) () defs₀ vr0 Lz lvz 1 where
  win := launch1.win.to₀
  block_pos := launch1.block_pos
  stage_whole := launch1.stage_whole
  K := PEmpty
  osem k := k.elim
  ho := Pipeline.OwnSemFacts.none _
  hbody c := (body_obligation1 (T5 m ρ) c).loose
  hwaits := Pipeline.hwaits_of_owed_zero _ _ _ _ Lz lvz 1 fun _ _ => rfl
  pre c := iprop(StableHlo.held (c : Thread nD τ) (Pipeline.ucRefs τ sig) (B5 m ρ c) ∗ Rst c)
  post c := iprop(StableHlo.held (c : Thread nD τ) (Pipeline.ucRefs τ sig) (B6 m ρ c) ∗ Rst c)
  X c := iprop(∃ r, prngReg c r)
  Y c := iprop(∃ r, prngReg c r)
  Z c := Pipeline.unscopedRest (Ix := Unit) (Name := ℕ) (U := UR sig nD τ) (Lvl := ℕ) spec1 c (T5 m ρ c)
  hentry c := by
    rw [Pipeline.ownSems0_none]
    have hsplit := Pipeline.arrays_of_unscopedBufs (p := 1) (pcfgs (F := F)) admC (pdatsC m ρ) launch1.win launch1.arr_whole c
      ((pdatsC m ρ 1 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsC m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admC (Ix := Unit) (Name := ℕ) (U := UR sig nD τ) (Lvl := ℕ)
      launch1.win launch1.arr_whole c (pdatsC m ρ) ((pdatsC m ρ 1 c).share_full fun _ => rfl)
      (T5 m ρ c) (T6 m ρ c) ((pdatsC m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at boundary 7's contents, left at boundary 8's. -/
def reg2 : Pipeline.RegionSeg (pcfgs (F := F)) admC (pdatsC m ρ) () defs₀ vr0 Lz lvz 2 where
  win := launch2.win.to₀
  block_pos := launch2.block_pos
  stage_whole := launch2.stage_whole
  K := PEmpty
  osem k := k.elim
  ho := Pipeline.OwnSemFacts.none _
  hbody c := (body_obligation2 (T7 m ρ) c).loose
  hwaits := Pipeline.hwaits_of_owed_zero _ _ _ _ Lz lvz 2 fun _ _ => rfl
  pre c := iprop(StableHlo.held (c : Thread nD τ) (Pipeline.ucRefs τ sig) (B7 m ρ c) ∗ Rst c)
  post c := iprop(StableHlo.held (c : Thread nD τ) (Pipeline.ucRefs τ sig) (B8 m ρ c) ∗ Rst c)
  X c := iprop(∃ r, prngReg c r)
  Y c := iprop(∃ r, prngReg c r)
  Z c := Pipeline.unscopedRest (Ix := Unit) (Name := ℕ) (U := UR sig nD τ) (Lvl := ℕ) spec2 c (T7 m ρ c)
  hentry c := by
    rw [Pipeline.ownSems0_none]
    have hsplit := Pipeline.arrays_of_unscopedBufs (p := 2) (pcfgs (F := F)) admC (pdatsC m ρ) launch2.win launch2.arr_whole c
      ((pdatsC m ρ 2 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsC m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admC (Ix := Unit) (Name := ℕ) (U := UR sig nD τ) (Lvl := ℕ)
      launch2.win launch2.arr_whole c (pdatsC m ρ) ((pdatsC m ρ 2 c).share_full fun _ => rfl)
      (T7 m ρ c) (T8 m ρ c) ((pdatsC m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered with every unscoped buffer at boundary 9's contents, left at boundary 10's. -/
def reg3 : Pipeline.RegionSeg (pcfgs (F := F)) admC (pdatsC m ρ) () defs₀ vr0 Lz lvz 3 where
  win := launch3.win.to₀
  block_pos := launch3.block_pos
  stage_whole := launch3.stage_whole
  K := PEmpty
  osem k := k.elim
  ho := Pipeline.OwnSemFacts.none _
  hbody c := (body_obligation3 (T9 m ρ) c).loose
  hwaits := Pipeline.hwaits_of_owed_zero _ _ _ _ Lz lvz 3 fun _ _ => rfl
  pre c := iprop(StableHlo.held (c : Thread nD τ) (Pipeline.ucRefs τ sig) (B9 m ρ c) ∗ Rst c)
  post c := iprop(StableHlo.held (c : Thread nD τ) (Pipeline.ucRefs τ sig) (B10 m ρ c) ∗ Rst c)
  X c := iprop(∃ r, prngReg c r)
  Y c := iprop(∃ r, prngReg c r)
  Z c := Pipeline.unscopedRest (Ix := Unit) (Name := ℕ) (U := UR sig nD τ) (Lvl := ℕ) spec3 c (T9 m ρ c)
  hentry c := by
    rw [Pipeline.ownSems0_none]
    have hsplit := Pipeline.arrays_of_unscopedBufs (p := 3) (pcfgs (F := F)) admC (pdatsC m ρ) launch3.win launch3.arr_whole c
      ((pdatsC m ρ 3 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsC m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admC (Ix := Unit) (Name := ℕ) (U := UR sig nD τ) (Lvl := ℕ)
      launch3.win launch3.arr_whole c (pdatsC m ρ) ((pdatsC m ρ 3 c).share_full fun _ => rfl)
      (T9 m ρ c) (T10 m ρ c) ((pdatsC m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered with every unscoped buffer at boundary 11's contents, left at boundary 12's. -/
def reg4 : Pipeline.RegionSeg (pcfgs (F := F)) admC (pdatsC m ρ) () defs₀ vr0 Lz lvz 4 where
  win := launch4.win.to₀
  block_pos := launch4.block_pos
  stage_whole := launch4.stage_whole
  K := PEmpty
  osem k := k.elim
  ho := Pipeline.OwnSemFacts.none _
  hbody c := (body_obligation4 (T11 m ρ) c).loose
  hwaits := Pipeline.hwaits_of_owed_zero _ _ _ _ Lz lvz 4 fun _ _ => rfl
  pre c := iprop(StableHlo.held (c : Thread nD τ) (Pipeline.ucRefs τ sig) (B11 m ρ c) ∗ Rst c)
  post c := iprop(StableHlo.held (c : Thread nD τ) (Pipeline.ucRefs τ sig) (B12 m ρ c) ∗ Rst c)
  X c := iprop(∃ r, prngReg c r)
  Y c := iprop(∃ r, prngReg c r)
  Z c := Pipeline.unscopedRest (Ix := Unit) (Name := ℕ) (U := UR sig nD τ) (Lvl := ℕ) spec4 c (T11 m ρ c)
  hentry c := by
    rw [Pipeline.ownSems0_none]
    have hsplit := Pipeline.arrays_of_unscopedBufs (p := 4) (pcfgs (F := F)) admC (pdatsC m ρ) launch4.win launch4.arr_whole c
      ((pdatsC m ρ 4 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsC m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admC (Ix := Unit) (Name := ℕ) (U := UR sig nD τ) (Lvl := ℕ)
      launch4.win launch4.arr_whole c (pdatsC m ρ) ((pdatsC m ρ 4 c).share_full fun _ => rfl)
      (T11 m ρ c) (T12 m ρ c) ((pdatsC m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5 over the thread state: entered with every unscoped buffer at boundary 13's contents, left at boundary 14's. -/
def reg5 : Pipeline.RegionSeg (pcfgs (F := F)) admC (pdatsC m ρ) () defs₀ vr0 Lz lvz 5 where
  win := launch5.win.to₀
  block_pos := launch5.block_pos
  stage_whole := launch5.stage_whole
  K := PEmpty
  osem k := k.elim
  ho := Pipeline.OwnSemFacts.none _
  hbody c := (body_obligation5 (T13 m ρ) c).loose
  hwaits := Pipeline.hwaits_of_owed_zero _ _ _ _ Lz lvz 5 fun _ _ => rfl
  pre c := iprop(StableHlo.held (c : Thread nD τ) (Pipeline.ucRefs τ sig) (B13 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (T13 m ρ c)
  hentry c := by
    rw [Pipeline.ownSems0_none]
    have hsplit := Pipeline.arrays_of_unscopedBufs (p := 5) (pcfgs (F := F)) admC (pdatsC m ρ) launch5.win launch5.arr_whole c
      ((pdatsC m ρ 5 c).share_full fun _ => rfl) (T13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsC m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admC (Ix := Unit) (Name := ℕ) (U := UR sig nD τ) (Lvl := ℕ)
      launch5.win launch5.arr_whole c (pdatsC m ρ) ((pdatsC m ρ 5 c).share_full fun _ => rfl)
      (T13 m ρ c) (T14 m ρ c) ((pdatsC m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev segsC : List (Pipeline.Seg (pcfgs (F := F)) admC (pdatsC m ρ) () defs₀ vr0 Lz lvz) :=
  [ .host (hsegC hostOps0 hostOps0_sub hostOps0_fresh (B0 m ρ)),
    .host (hsegC hostOps0_1 hostOps0_1_sub hostOps0_1_fresh (B1 m ρ)),
    .host (hsegC hostOps0_2 hostOps0_2_sub hostOps0_2_fresh (B2 m ρ)),
    .region (reg0 m ρ),
    .host (hsegC hostOps1 hostOps1_sub hostOps1_fresh (B4 m ρ)),
    .region (reg1 m ρ),
    .host (hsegC hostOps2 hostOps2_sub hostOps2_fresh (B6 m ρ)),
    .region (reg2 m ρ),
    .host (hsegC hostOps3 hostOps3_sub hostOps3_fresh (B8 m ρ)),
    .region (reg3 m ρ),
    .host (hsegC hostOps4 hostOps4_sub hostOps4_fresh (B10 m ρ)),
    .region (reg4 m ρ),
    .host (hsegC hostOps5 hostOps5_sub hostOps5_fresh (B12 m ρ)),
    .region (reg5 m ρ) ]
theorem main_runC (c : Dev nD) : main (F := F) c = Pipeline.Seg.run (segsC m ρ) := (main_chain c).trans (by chain_rfl)

set_option backward.isDefEq.respectTransparency.types false in
/-- From any memory with zero counters every weakly fair execution of the entry function terminates, nothing faulting, and
    the final memory holds every unscoped buffer at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = T14 m ρ c b) :=
  Pipeline.θ_run_regions_kit (pcfgs (F := F)) admC (pdatsC m ρ) () cellOf_inj emb₁ defs₀ vr0 Lz lvz m ρ main (segsC m ρ)
    (fun c Q => by rw [main_runC m ρ c])
    (by simp only [segsC, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m ρ c b)
    (hfin := fun c s' => by
      iintro ⟨⟨Hh, -⟩, HSI⟩
      unfold StableHlo.held
      imodintro
      iapply (pointsTo_read_all (Pipeline.ucRefs τ sig) (fun b => (((c : Thread nD τ)).1, b)) (B14 m ρ c) s')
      isplitl [Hh] <;> iassumption)
    (hQ := fun s h c b hb => h c _ (mem_ucC b hb))

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_arg0 (by decide)).trans (B14_main_arg0 m ρ c),
    (h c main_arg1 (by decide)).trans (B14_main_arg1 m ρ c),
    (h c main_arg2 (by decide)).trans (B14_main_arg2 m ρ c),
    (h c main_arg3 (by decide)).trans (B14_main_arg3 m ρ c),
    (h c main_arg4 (by decide)).trans (B14_main_arg4 m ρ c),
    (h c main_arg5 (by decide)).trans (B14_main_arg5 m ρ c),
    (h c main_arg6 (by decide)).trans (B14_main_arg6 m ρ c),
    (h c main_arg7 (by decide)).trans (B14_main_arg7 m ρ c)⟩) (run_all m ρ)

end Cert.Kernel.Calls

end
-- ==== Proof.IdealCall0.lean ====
/-
  Pallas call 0 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.KernelIdeal.Launch
import proofs.«145378_j26474178413288_1_alg».proof.Proof.Gen.KernelIdeal.Skeleton
import proofs.«145378_j26474178413288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the block index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetched it or the block index stood still. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetched it or the block index stood still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev rOut0 : Rect S10000x64 := Rect.unit (s := S10000x64) ![0, 0] S10000x64.size inb_S10000x64_S10000x64_0_0

/-- The output block after the body: the one store's payload of the loaded input blocks. -/
def out0 (x0 : Vec F S10000x64 .f32) (x1 : Vec F S64x64 .f32) (x2 : Vec F S64 .f32) : Vec F S10000x64 .f32 :=
  View.canon [⟨rOut0, k0_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover0 (p0 : Vec F S10000x64 .f32) (y : S10000x64.Idx) :
    ∃ pc ∈ ([⟨rOut0, p0⟩] : List (View.Piece (Elt F) S10000x64 .f32)), y ∈ pc.1.set :=
  View.cover_of_tiled [⟨rOut0, p0⟩] S10000x64.size (by rfl) y

set_option maxHeartbeats 4000000 in
/-- The body on whole staging memrefs — inputs at contents `xᵢ`, the output at anything — runs to the continuation with the
    inputs as they were and the output at `out0` of them. -/
theorem sound_kernel0 (c : Dev nD) (E : Set ℕ) (i : grid0.Coords) (arg0 : Memref sig .tc .vmem S10000x64 .f32) (harg0 : arg0.IsWhole) (arg1 : Memref sig .tc .vmem S64x64 .f32) (harg1 : arg1.IsWhole) (arg2 : Memref sig .tc .vmem S64 .f32) (harg2 : arg2.IsWhole) (arg3 : Memref sig .tc .vmem S10000x64 .f32) (harg3 : arg3.IsWhole)
    (x0 : Vec F S10000x64 .f32) (x1 : Vec F S64x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The call's proof data on core `c`: arrays as found; after the body each input buffer at its block and the output buffer at
    `out0` of the input blocks; nothing owed, full shares, the class invariant untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Calls

end
-- ==== Proof.IdealCall1.lean ====
/-
  Pallas call 1 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.KernelIdeal.Launch
import proofs.«145378_j26474178413288_1_alg».proof.Proof.Gen.KernelIdeal.Skeleton
import proofs.«145378_j26474178413288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the block index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetched it or the block index stood still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetched it or the block index stood still. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole output block as one rectangle. -/
abbrev rOut1 : Rect S10000x64 := Rect.unit (s := S10000x64) ![0, 0] S10000x64.size inb_S10000x64_S10000x64_0_0

/-- The output block after the body: the one store's payload of the loaded input blocks. -/
def out1 (x0 : Vec F S10000x64 .f32) (x1 : Vec F S64x64 .f32) (x2 : Vec F S64 .f32) : Vec F S10000x64 .f32 :=
  View.canon [⟨rOut1, k1_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover1 (p0 : Vec F S10000x64 .f32) (y : S10000x64.Idx) :
    ∃ pc ∈ ([⟨rOut1, p0⟩] : List (View.Piece (Elt F) S10000x64 .f32)), y ∈ pc.1.set :=
  View.cover_of_tiled [⟨rOut1, p0⟩] S10000x64.size (by rfl) y

set_option maxHeartbeats 4000000 in
/-- The body on whole staging memrefs — inputs at contents `xᵢ`, the output at anything — runs to the continuation with the
    inputs as they were and the output at `out1` of them. -/
theorem sound_kernel1 (c : Dev nD) (E : Set ℕ) (i : grid1.Coords) (arg0 : Memref sig .tc .vmem S10000x64 .f32) (harg0 : arg0.IsWhole) (arg1 : Memref sig .tc .vmem S64x64 .f32) (harg1 : arg1.IsWhole) (arg2 : Memref sig .tc .vmem S64 .f32) (harg2 : arg2.IsWhole) (arg3 : Memref sig .tc .vmem S10000x64 .f32) (harg3 : arg3.IsWhole)
    (x0 : Vec F S10000x64 .f32) (x1 : Vec F S64x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The call's proof data on core `c`: arrays as found; after the body each input buffer at its block and the output buffer at
    `out1` of the input blocks; nothing owed, full shares, the class invariant untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Calls

end
-- ==== Proof.IdealCall2.lean ====
/-
  Pallas call 2 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.KernelIdeal.Launch
import proofs.«145378_j26474178413288_1_alg».proof.Proof.Gen.KernelIdeal.Skeleton
import proofs.«145378_j26474178413288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or the block index stood still. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or the block index stood still. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole output block as one rectangle. -/
abbrev rOut2 : Rect S10000x64 := Rect.unit (s := S10000x64) ![0, 0] S10000x64.size inb_S10000x64_S10000x64_0_0

/-- The output block after the body: the one store's payload of the loaded input blocks. -/
def out2 (x0 : Vec F S10000x64 .f32) (x1 : Vec F S64 .f32) : Vec F S10000x64 .f32 :=
  View.canon [⟨rOut2, k2_pay1 (View.ld x0 (Rect.unit (s := S10000x64) ![0, 0] S10000x64.size inb_S10000x64_S10000x64_0_0)) (View.ld x1 (Rect.unit (s := S64) ![0] S64.size inb_S64_S64_0))⟩]

/-- The one store covers the output block. -/
theorem cover2 (p0 : Vec F S10000x64 .f32) (y : S10000x64.Idx) :
    ∃ pc ∈ ([⟨rOut2, p0⟩] : List (View.Piece (Elt F) S10000x64 .f32)), y ∈ pc.1.set :=
  View.cover_of_tiled [⟨rOut2, p0⟩] S10000x64.size (by rfl) y

set_option maxHeartbeats 4000000 in
/-- The body on whole staging memrefs — inputs at contents `xᵢ`, the output at anything — runs to the continuation with the
    inputs as they were and the output at `out2` of them. -/
theorem sound_kernel2 (c : Dev nD) (E : Set ℕ) (i : grid2.Coords) (arg0 : Memref sig .tc .vmem S10000x64 .f32) (harg0 : arg0.IsWhole) (arg1 : Memref sig .tc .vmem S64 .f32) (harg1 : arg1.IsWhole) (arg2 : Memref sig .tc .vmem S10000x64 .f32) (harg2 : arg2.IsWhole)
    (x0 : Vec F S10000x64 .f32) (x1 : Vec F S64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ K ⟨⟩))
      ⊢ wp frame (wpE (defs₀ (F := F)) Variants.none c none) E (cc2__bias_relu_kernel i arg0 harg0 arg1 harg1 arg2 harg2) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The call's proof data on core `c`: arrays as found; after the body each input buffer at its block and the output buffer at
    `out2` of the input blocks; nothing owed, full shares, the class invariant untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the triple applies; the invariant and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Calls

end
-- ==== Proof.IdealCall3.lean ====
/-
  Pallas call 3 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.KernelIdeal.Launch
import proofs.«145378_j26474178413288_1_alg».proof.Proof.Gen.KernelIdeal.Skeleton
import proofs.«145378_j26474178413288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetched it or the block index stood still. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetched it or the block index stood still. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetched it or the block index stood still. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole output block as one rectangle. -/
abbrev rOut3 : Rect S10000x64 := Rect.unit (s := S10000x64) ![0, 0] S10000x64.size inb_S10000x64_S10000x64_0_0

/-- The output block after the body: the one store's payload of the loaded input blocks. -/
def out3 (x0 : Vec F S10000x64 .f32) (x1 : Vec F S64x64 .f32) (x2 : Vec F S64 .f32) : Vec F S10000x64 .f32 :=
  View.canon [⟨rOut3, k3_pay1 (View.ld x0 (Rect.unit (s := S10000x64) ![0, 0] S10000x64.size inb_S10000x64_S10000x64_0_0)) (View.ld x1 (Rect.unit (s := S64x64) ![0, 0] S64x64.size inb_S64x64_S64x64_0_0)) (View.ld x2 (Rect.unit (s := S64) ![0] S64.size inb_S64_S64_0))⟩]

/-- The one store covers the output block. -/
theorem cover3 (p0 : Vec F S10000x64 .f32) (y : S10000x64.Idx) :
    ∃ pc ∈ ([⟨rOut3, p0⟩] : List (View.Piece (Elt F) S10000x64 .f32)), y ∈ pc.1.set :=
  View.cover_of_tiled [⟨rOut3, p0⟩] S10000x64.size (by rfl) y

set_option maxHeartbeats 4000000 in
/-- The body on whole staging memrefs — inputs at contents `xᵢ`, the output at anything — runs to the continuation with the
    inputs as they were and the output at `out3` of them. -/
theorem sound_kernel3 (c : Dev nD) (E : Set ℕ) (i : grid3.Coords) (arg0 : Memref sig .tc .vmem S10000x64 .f32) (harg0 : arg0.IsWhole) (arg1 : Memref sig .tc .vmem S64x64 .f32) (harg1 : arg1.IsWhole) (arg2 : Memref sig .tc .vmem S64 .f32) (harg2 : arg2.IsWhole) (arg3 : Memref sig .tc .vmem S10000x64 .f32) (harg3 : arg3.IsWhole)
    (x0 : Vec F S10000x64 .f32) (x1 : Vec F S64x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3 x0 x1 x2)) -∗ K ⟨⟩))
      ⊢ wp frame (wpE (defs₀ (F := F)) Variants.none c none) E (cc3__linear_kernel i arg0 harg0 arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The call's proof data on core `c`: arrays as found; after the body each input buffer at its block and the output buffer at
    `out3` of the input blocks; nothing owed, full shares, the class invariant untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the core's dues pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Calls

end
-- ==== Proof.IdealCall4.lean ====
/-
  Pallas call 4 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.KernelIdeal.Launch
import proofs.«145378_j26474178413288_1_alg».proof.Proof.Gen.KernelIdeal.Skeleton
import proofs.«145378_j26474178413288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the point fetched it or the block index stood still. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the point fetched it or the block index stood still. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole output block as one rectangle. -/
abbrev rOut4 : Rect S10000x64 := Rect.unit (s := S10000x64) ![0, 0] S10000x64.size inb_S10000x64_S10000x64_0_0

/-- The output block after the body: the one store's payload of the loaded input blocks. -/
def out4 (x0 : Vec F S10000x64 .f32) (x1 : Vec F S64 .f32) : Vec F S10000x64 .f32 :=
  View.canon [⟨rOut4, k4_pay1 (View.ld x0 (Rect.unit (s := S10000x64) ![0, 0] S10000x64.size inb_S10000x64_S10000x64_0_0)) (View.ld x1 (Rect.unit (s := S64) ![0] S64.size inb_S64_S64_0))⟩]

/-- The one store covers the output block. -/
theorem cover4 (p0 : Vec F S10000x64 .f32) (y : S10000x64.Idx) :
    ∃ pc ∈ ([⟨rOut4, p0⟩] : List (View.Piece (Elt F) S10000x64 .f32)), y ∈ pc.1.set :=
  View.cover_of_tiled [⟨rOut4, p0⟩] S10000x64.size (by rfl) y

set_option maxHeartbeats 4000000 in
/-- The body on whole staging memrefs — inputs at contents `xᵢ`, the output at anything — runs to the continuation with the
    inputs as they were and the output at `out4` of them. -/
theorem sound_kernel4 (c : Dev nD) (E : Set ℕ) (i : grid4.Coords) (arg0 : Memref sig .tc .vmem S10000x64 .f32) (harg0 : arg0.IsWhole) (arg1 : Memref sig .tc .vmem S64 .f32) (harg1 : arg1.IsWhole) (arg2 : Memref sig .tc .vmem S10000x64 .f32) (harg2 : arg2.IsWhole)
    (x0 : Vec F S10000x64 .f32) (x1 : Vec F S64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4 x0 x1)) -∗ K ⟨⟩))
      ⊢ wp frame (wpE (defs₀ (F := F)) Variants.none c none) E (cc4__bias_relu_kernel i arg0 harg0 arg1 harg1 arg2 harg2) K := by
  simp only [cc4__bias_relu_kernel_eq_skeleton]; unfold cc4__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-- The call's proof data on core `c`: arrays as found; after the body each input buffer at its block and the output buffer at
    `out4` of the input blocks; nothing owed, full shares, the class invariant untouched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the triple applies; the invariant and the core's dues pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Calls

end
-- ==== Proof.IdealCall5.lean ====
/-
  Pallas call 5 of the program, at any float instance: what its body leaves in the output block as a function of
  the input blocks, the body's triple, and the per-point obligation the pipelined launch asks for, all stated at a
  parameter `V` (the buffers' contents when the call is entered).  The output block is stored whole by one store,
  so after the body it holds the payload of the loaded input blocks; every input block is left in place.
-/
import proofs.«145378_j26474178413288_1_alg».proof.Proof.Gen.KernelIdeal.Launch
import proofs.«145378_j26474178413288_1_alg».proof.Proof.Gen.KernelIdeal.Skeleton
import proofs.«145378_j26474178413288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off the window's array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the point fetched it or the block index stood still. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the point fetched it or the block index stood still. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the point fetched it or the block index stood still. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole output block as one rectangle. -/
abbrev rOut5 : Rect S10000x40 := Rect.unit (s := S10000x40) ![0, 0] S10000x40.size inb_S10000x40_S10000x40_0_0

/-- The output block after the body: the one store's payload of the loaded input blocks. -/
def out5 (x0 : Vec F S10000x192 .f32) (x1 : Vec F S192x40 .f32) (x2 : Vec F S40 .f32) : Vec F S10000x40 .f32 :=
  View.canon [⟨rOut5, k5_pay1 (View.ld x0 (Rect.unit (s := S10000x192) ![0, 0] S10000x192.size inb_S10000x192_S10000x192_0_0)) (View.ld x1 (Rect.unit (s := S192x40) ![0, 0] S192x40.size inb_S192x40_S192x40_0_0)) (View.ld x2 (Rect.unit (s := S40) ![0] S40.size inb_S40_S40_0))⟩]

/-- The one store covers the output block. -/
theorem cover5 (p0 : Vec F S10000x40 .f32) (y : S10000x40.Idx) :
    ∃ pc ∈ ([⟨rOut5, p0⟩] : List (View.Piece (Elt F) S10000x40 .f32)), y ∈ pc.1.set :=
  View.cover_of_tiled [⟨rOut5, p0⟩] S10000x40.size (by rfl) y

set_option maxHeartbeats 4000000 in
/-- The body on whole staging memrefs — inputs at contents `xᵢ`, the output at anything — runs to the continuation with the
    inputs as they were and the output at `out5` of them. -/
theorem sound_kernel5 (c : Dev nD) (E : Set ℕ) (i : grid5.Coords) (arg0 : Memref sig .tc .vmem S10000x192 .f32) (harg0 : arg0.IsWhole) (arg1 : Memref sig .tc .vmem S192x40 .f32) (harg1 : arg1.IsWhole) (arg2 : Memref sig .tc .vmem S40 .f32) (harg2 : arg2.IsWhole) (arg3 : Memref sig .tc .vmem S10000x40 .f32) (harg3 : arg3.IsWhole)
    (x0 : Vec F S10000x192 .f32) (x1 : Vec F S192x40 .f32) (x2 : Vec F S40 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5 x0 x1 x2)) -∗ K ⟨⟩))
      ⊢ wp frame (wpE (defs₀ (F := F)) Variants.none c none) E (cc5__linear_kernel i arg0 harg0 arg1 harg1 arg2 harg2 arg3 harg3) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The call's proof data on core `c`: arrays as found; after the body each input buffer at its block and the output buffer at
    `out5` of the input blocks; nothing owed, full shares, the class invariant untouched. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the triple applies; the invariant and the core's dues pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Calls

end
-- ==== Proof.IdealRun.lean ====
/-
  The whole program run: the buffers' contents at every boundary between two items of the entry function (a stretch of
  host operations applies its operations; a Pallas call leaves its input arrays as found and its output array at what
  the grid's write-backs leave), each call as a segment of the pipelined launch, and the launch itself: every weakly
  fair execution terminates with every unscoped buffer at the last boundary's contents.  The argument arrays are
  written by no item, so they end as launched.
-/
import proofs.«145378_j26474178413288_1_alg».proof.Proof.IdealCall0
import proofs.«145378_j26474178413288_1_alg».proof.Proof.IdealCall1
import proofs.«145378_j26474178413288_1_alg».proof.Proof.IdealCall2
import proofs.«145378_j26474178413288_1_alg».proof.Proof.IdealCall3
import proofs.«145378_j26474178413288_1_alg».proof.Proof.IdealCall4
import proofs.«145378_j26474178413288_1_alg».proof.Proof.IdealCall5
import proofs.«145378_j26474178413288_1_alg».proof.Proof.Gen.KernelIdeal.Regions

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev B0 : Dev nD → Valuation τ sig (Elt F) := fun c b => (s₀ m ρ).mem ((c : Dev nD), b)
abbrev T0 : (c : Dev nD) → (b : Ref sig .tc) → Buf (Elt F) ((c : Thread nD τ).loc b) := fun c b => B0 m ρ c b

/-- After the host stretch `hostOps0`. -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b
theorem keep1 (c : Dev nD) (r : Ref sig .tc) (h : r ∉ hostOps0_W) : T1 m ρ c r = T0 m ρ c r :=
  StableHlo.after_of_writes_sub hostOps0 _ hostOps0_writes h

/-- After the host stretch `hostOps0_1`. -/
abbrev B2 : Dev nD → Valuation τ sig (Elt F) := fun c => StableHlo.after hostOps0_1 (B1 m ρ c)
abbrev T2 : (c : Dev nD) → (b : Ref sig .tc) → Buf (Elt F) ((c : Thread nD τ).loc b) := fun c b => B2 m ρ c b
theorem keep2 (c : Dev nD) (r : Ref sig .tc) (h : r ∉ hostOps0_1_W) : T2 m ρ c r = T1 m ρ c r :=
  StableHlo.after_of_writes_sub hostOps0_1 _ hostOps0_1_writes h

/-- After the host stretch `hostOps0_2`. -/
abbrev B3 : Dev nD → Valuation τ sig (Elt F) := fun c => StableHlo.after hostOps0_2 (B2 m ρ c)
abbrev T3 : (c : Dev nD) → (b : Ref sig .tc) → Buf (Elt F) ((c : Thread nD τ).loc b) := fun c b => B3 m ρ c b
theorem keep3 (c : Dev nD) (r : Ref sig .tc) (h : r ∉ hostOps0_2_W) : T3 m ρ c r = T2 m ρ c r :=
  StableHlo.after_of_writes_sub hostOps0_2 _ hostOps0_2_writes h

/-- After Pallas call 0: its arrays at what the pipeline leaves, every other buffer as entered. -/
def B4 (c : Dev nD) : Valuation τ sig (Elt F) :=
  Pipeline.withArrays spec0 c (B3 m ρ c) fun w => (dat0 (T3 m ρ) c).arrAt w cfg0.N
theorem B4_arr (c : Dev nD) (w : Fin cfg0.W) :
    B4 m ρ c (Proc.devRef .tc (Pipeline.arrRef spec0 w)) = (dat0 (T3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev T4 : (c : Dev nD) → (b : Ref sig .tc) → Buf (Elt F) ((c : Thread nD τ).loc b) := fun c b => B4 m ρ c b
theorem hF0 (c : Dev nD) (w : Fin cfg0.W) : (dat0 (T3 m ρ) c).arrAt w cfg0.N = T4 m ρ c (Pipeline.arrRef spec0 w) :=
  (B4_arr m ρ c w).symm
theorem hrest0 (c : Dev nD) : ∀ b, b ∉ Finset.univ.image (Pipeline.arrRef spec0) → T4 m ρ c b = T3 m ρ c b :=
  fun b hb => B4_of_ne m ρ c b fun w e => hb (Finset.mem_image.mpr ⟨w, Finset.mem_univ _, e⟩)
/-- Call 0 changes no buffer but its output array: an input array is left as found, any other buffer is not its. -/
theorem keep4 (c : Dev nD) (b : Ref sig .tc) (hb : b ≠ Pipeline.arrRef spec0 3) : T4 m ρ c b = T3 m ρ c b := by
  by_cases h : ∃ w, Pipeline.arrRef spec0 w = b
  · obtain ⟨w, rfl⟩ := h
    have hw : (cfg0.win w).isOut = false := by
      rcases w with ⟨_ | _ | _ | _ | n, hn⟩
      · rfl
      · rfl
      · rfl
      · exact absurd rfl hb
      · exact absurd hn (Nat.not_lt.2 (Nat.le_add_left _ _))
    exact (B4_arr m ρ c w).trans (((dat0 (T3 m ρ) c).arrAt_in w hw _).trans (A_eq0 (T3 m ρ) c w))
  · exact B4_of_ne m ρ c b (fun w e => h ⟨w, e⟩)
/-- What call 0 leaves in its output array. -/
theorem out_arr0 (c : Dev nD) : T4 m ρ c (Pipeline.arrRef spec0 3) = (dat0 (T3 m ρ) c).arrAt 3 cfg0.N := B4_arr m ρ c 3

/-- After the host stretch `hostOps1`. -/
abbrev B5 : Dev nD → Valuation τ sig (Elt F) := fun c => StableHlo.after hostOps1 (B4 m ρ c)
abbrev T5 : (c : Dev nD) → (b : Ref sig .tc) → Buf (Elt F) ((c : Thread nD τ).loc b) := fun c b => B5 m ρ c b
theorem keep5 (c : Dev nD) (r : Ref sig .tc) (h : r ∉ hostOps1_W) : T5 m ρ c r = T4 m ρ c r :=
  StableHlo.after_of_writes_sub hostOps1 _ hostOps1_writes h

/-- After Pallas call 1: its arrays at what the pipeline leaves, every other buffer as entered. -/
def B6 (c : Dev nD) : Valuation τ sig (Elt F) :=
  Pipeline.withArrays spec1 c (B5 m ρ c) fun w => (dat1 (T5 m ρ) c).arrAt w cfg1.N
theorem B6_arr (c : Dev nD) (w : Fin cfg1.W) :
    B6 m ρ c (Proc.devRef .tc (Pipeline.arrRef spec1 w)) = (dat1 (T5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev T6 : (c : Dev nD) → (b : Ref sig .tc) → Buf (Elt F) ((c : Thread nD τ).loc b) := fun c b => B6 m ρ c b
theorem hF1 (c : Dev nD) (w : Fin cfg1.W) : (dat1 (T5 m ρ) c).arrAt w cfg1.N = T6 m ρ c (Pipeline.arrRef spec1 w) :=
  (B6_arr m ρ c w).symm
theorem hrest1 (c : Dev nD) : ∀ b, b ∉ Finset.univ.image (Pipeline.arrRef spec1) → T6 m ρ c b = T5 m ρ c b :=
  fun b hb => B6_of_ne m ρ c b fun w e => hb (Finset.mem_image.mpr ⟨w, Finset.mem_univ _, e⟩)
/-- Call 1 changes no buffer but its output array: an input array is left as found, any other buffer is not its. -/
theorem keep6 (c : Dev nD) (b : Ref sig .tc) (hb : b ≠ Pipeline.arrRef spec1 3) : T6 m ρ c b = T5 m ρ c b := by
  by_cases h : ∃ w, Pipeline.arrRef spec1 w = b
  · obtain ⟨w, rfl⟩ := h
    have hw : (cfg1.win w).isOut = false := by
      rcases w with ⟨_ | _ | _ | _ | n, hn⟩
      · rfl
      · rfl
      · rfl
      · exact absurd rfl hb
      · exact absurd hn (Nat.not_lt.2 (Nat.le_add_left _ _))
    exact (B6_arr m ρ c w).trans (((dat1 (T5 m ρ) c).arrAt_in w hw _).trans (A_eq1 (T5 m ρ) c w))
  · exact B6_of_ne m ρ c b (fun w e => h ⟨w, e⟩)
/-- What call 1 leaves in its output array. -/
theorem out_arr1 (c : Dev nD) : T6 m ρ c (Pipeline.arrRef spec1 3) = (dat1 (T5 m ρ) c).arrAt 3 cfg1.N := B6_arr m ρ c 3

/-- After the host stretch `hostOps2`. -/
abbrev B7 : Dev nD → Valuation τ sig (Elt F) := fun c => StableHlo.after hostOps2 (B6 m ρ c)
abbrev T7 : (c : Dev nD) → (b : Ref sig .tc) → Buf (Elt F) ((c : Thread nD τ).loc b) := fun c b => B7 m ρ c b
theorem keep7 (c : Dev nD) (r : Ref sig .tc) (h : r ∉ hostOps2_W) : T7 m ρ c r = T6 m ρ c r :=
  StableHlo.after_of_writes_sub hostOps2 _ hostOps2_writes h

/-- After Pallas call 2: its arrays at what the pipeline leaves, every other buffer as entered. -/
def B8 (c : Dev nD) : Valuation τ sig (Elt F) :=
  Pipeline.withArrays spec2 c (B7 m ρ c) fun w => (dat2 (T7 m ρ) c).arrAt w cfg2.N
theorem B8_arr (c : Dev nD) (w : Fin cfg2.W) :
    B8 m ρ c (Proc.devRef .tc (Pipeline.arrRef spec2 w)) = (dat2 (T7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
abbrev T8 : (c : Dev nD) → (b : Ref sig .tc) → Buf (Elt F) ((c : Thread nD τ).loc b) := fun c b => B8 m ρ c b
theorem hF2 (c : Dev nD) (w : Fin cfg2.W) : (dat2 (T7 m ρ) c).arrAt w cfg2.N = T8 m ρ c (Pipeline.arrRef spec2 w) :=
  (B8_arr m ρ c w).symm
theorem hrest2 (c : Dev nD) : ∀ b, b ∉ Finset.univ.image (Pipeline.arrRef spec2) → T8 m ρ c b = T7 m ρ c b :=
  fun b hb => B8_of_ne m ρ c b fun w e => hb (Finset.mem_image.mpr ⟨w, Finset.mem_univ _, e⟩)
/-- Call 2 changes no buffer but its output array: an input array is left as found, any other buffer is not its. -/
theorem keep8 (c : Dev nD) (b : Ref sig .tc) (hb : b ≠ Pipeline.arrRef spec2 2) : T8 m ρ c b = T7 m ρ c b := by
  by_cases h : ∃ w, Pipeline.arrRef spec2 w = b
  · obtain ⟨w, rfl⟩ := h
    have hw : (cfg2.win w).isOut = false := by
      rcases w with ⟨_ | _ | _ | n, hn⟩
      · rfl
      · rfl
      · exact absurd rfl hb
      · exact absurd hn (Nat.not_lt.2 (Nat.le_add_left _ _))
    exact (B8_arr m ρ c w).trans (((dat2 (T7 m ρ) c).arrAt_in w hw _).trans (A_eq2 (T7 m ρ) c w))
  · exact B8_of_ne m ρ c b (fun w e => h ⟨w, e⟩)
/-- What call 2 leaves in its output array. -/
theorem out_arr2 (c : Dev nD) : T8 m ρ c (Pipeline.arrRef spec2 2) = (dat2 (T7 m ρ) c).arrAt 2 cfg2.N := B8_arr m ρ c 2

/-- After the host stretch `hostOps3`. -/
abbrev B9 : Dev nD → Valuation τ sig (Elt F) := fun c => StableHlo.after hostOps3 (B8 m ρ c)
abbrev T9 : (c : Dev nD) → (b : Ref sig .tc) → Buf (Elt F) ((c : Thread nD τ).loc b) := fun c b => B9 m ρ c b
theorem keep9 (c : Dev nD) (r : Ref sig .tc) (h : r ∉ hostOps3_W) : T9 m ρ c r = T8 m ρ c r :=
  StableHlo.after_of_writes_sub hostOps3 _ hostOps3_writes h

/-- After Pallas call 3: its arrays at what the pipeline leaves, every other buffer as entered. -/
def B10 (c : Dev nD) : Valuation τ sig (Elt F) :=
  Pipeline.withArrays spec3 c (B9 m ρ c) fun w => (dat3 (T9 m ρ) c).arrAt w cfg3.N
theorem B10_arr (c : Dev nD) (w : Fin cfg3.W) :
    B10 m ρ c (Proc.devRef .tc (Pipeline.arrRef spec3 w)) = (dat3 (T9 m ρ) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) := by
  unfold B10; exact Pipeline.withArrays_of_ne spec3 c _ _ b hb
abbrev T10 : (c : Dev nD) → (b : Ref sig .tc) → Buf (Elt F) ((c : Thread nD τ).loc b) := fun c b => B10 m ρ c b
theorem hF3 (c : Dev nD) (w : Fin cfg3.W) : (dat3 (T9 m ρ) c).arrAt w cfg3.N = T10 m ρ c (Pipeline.arrRef spec3 w) :=
  (B10_arr m ρ c w).symm
theorem hrest3 (c : Dev nD) : ∀ b, b ∉ Finset.univ.image (Pipeline.arrRef spec3) → T10 m ρ c b = T9 m ρ c b :=
  fun b hb => B10_of_ne m ρ c b fun w e => hb (Finset.mem_image.mpr ⟨w, Finset.mem_univ _, e⟩)
/-- Call 3 changes no buffer but its output array: an input array is left as found, any other buffer is not its. -/
theorem keep10 (c : Dev nD) (b : Ref sig .tc) (hb : b ≠ Pipeline.arrRef spec3 3) : T10 m ρ c b = T9 m ρ c b := by
  by_cases h : ∃ w, Pipeline.arrRef spec3 w = b
  · obtain ⟨w, rfl⟩ := h
    have hw : (cfg3.win w).isOut = false := by
      rcases w with ⟨_ | _ | _ | _ | n, hn⟩
      · rfl
      · rfl
      · rfl
      · exact absurd rfl hb
      · exact absurd hn (Nat.not_lt.2 (Nat.le_add_left _ _))
    exact (B10_arr m ρ c w).trans (((dat3 (T9 m ρ) c).arrAt_in w hw _).trans (A_eq3 (T9 m ρ) c w))
  · exact B10_of_ne m ρ c b (fun w e => h ⟨w, e⟩)
/-- What call 3 leaves in its output array. -/
theorem out_arr3 (c : Dev nD) : T10 m ρ c (Pipeline.arrRef spec3 3) = (dat3 (T9 m ρ) c).arrAt 3 cfg3.N := B10_arr m ρ c 3

/-- After the host stretch `hostOps4`. -/
abbrev B11 : Dev nD → Valuation τ sig (Elt F) := fun c => StableHlo.after hostOps4 (B10 m ρ c)
abbrev T11 : (c : Dev nD) → (b : Ref sig .tc) → Buf (Elt F) ((c : Thread nD τ).loc b) := fun c b => B11 m ρ c b
theorem keep11 (c : Dev nD) (r : Ref sig .tc) (h : r ∉ hostOps4_W) : T11 m ρ c r = T10 m ρ c r :=
  StableHlo.after_of_writes_sub hostOps4 _ hostOps4_writes h

/-- After Pallas call 4: its arrays at what the pipeline leaves, every other buffer as entered. -/
def B12 (c : Dev nD) : Valuation τ sig (Elt F) :=
  Pipeline.withArrays spec4 c (B11 m ρ c) fun w => (dat4 (T11 m ρ) c).arrAt w cfg4.N
theorem B12_arr (c : Dev nD) (w : Fin cfg4.W) :
    B12 m ρ c (Proc.devRef .tc (Pipeline.arrRef spec4 w)) = (dat4 (T11 m ρ) c).arrAt w cfg4.N := by
  unfold B12; exact Pipeline.withArrays_arr spec4 launch4.win.arr_inj c _ _ w
theorem B12_of_ne (c : Dev nD) (b : Ref sig .tc) (hb : ∀ w, Pipeline.arrRef spec4 w ≠ b) :
    B12 m ρ c (Proc.devRef .tc b) = B11 m ρ c (Proc.devRef .tc b) := by
  unfold B12; exact Pipeline.withArrays_of_ne spec4 c _ _ b hb
abbrev T12 : (c : Dev nD) → (b : Ref sig .tc) → Buf (Elt F) ((c : Thread nD τ).loc b) := fun c b => B12 m ρ c b
theorem hF4 (c : Dev nD) (w : Fin cfg4.W) : (dat4 (T11 m ρ) c).arrAt w cfg4.N = T12 m ρ c (Pipeline.arrRef spec4 w) :=
  (B12_arr m ρ c w).symm
theorem hrest4 (c : Dev nD) : ∀ b, b ∉ Finset.univ.image (Pipeline.arrRef spec4) → T12 m ρ c b = T11 m ρ c b :=
  fun b hb => B12_of_ne m ρ c b fun w e => hb (Finset.mem_image.mpr ⟨w, Finset.mem_univ _, e⟩)
/-- Call 4 changes no buffer but its output array: an input array is left as found, any other buffer is not its. -/
theorem keep12 (c : Dev nD) (b : Ref sig .tc) (hb : b ≠ Pipeline.arrRef spec4 2) : T12 m ρ c b = T11 m ρ c b := by
  by_cases h : ∃ w, Pipeline.arrRef spec4 w = b
  · obtain ⟨w, rfl⟩ := h
    have hw : (cfg4.win w).isOut = false := by
      rcases w with ⟨_ | _ | _ | n, hn⟩
      · rfl
      · rfl
      · exact absurd rfl hb
      · exact absurd hn (Nat.not_lt.2 (Nat.le_add_left _ _))
    exact (B12_arr m ρ c w).trans (((dat4 (T11 m ρ) c).arrAt_in w hw _).trans (A_eq4 (T11 m ρ) c w))
  · exact B12_of_ne m ρ c b (fun w e => h ⟨w, e⟩)
/-- What call 4 leaves in its output array. -/
theorem out_arr4 (c : Dev nD) : T12 m ρ c (Pipeline.arrRef spec4 2) = (dat4 (T11 m ρ) c).arrAt 2 cfg4.N := B12_arr m ρ c 2

/-- After the host stretch `hostOps5`. -/
abbrev B13 : Dev nD → Valuation τ sig (Elt F) := fun c => StableHlo.after hostOps5 (B12 m ρ c)
abbrev T13 : (c : Dev nD) → (b : Ref sig .tc) → Buf (Elt F) ((c : Thread nD τ).loc b) := fun c b => B13 m ρ c b
theorem keep13 (c : Dev nD) (r : Ref sig .tc) (h : r ∉ hostOps5_W) : T13 m ρ c r = T12 m ρ c r :=
  StableHlo.after_of_writes_sub hostOps5 _ hostOps5_writes h

/-- After Pallas call 5: its arrays at what the pipeline leaves, every other buffer as entered. -/
def B14 (c : Dev nD) : Valuation τ sig (Elt F) :=
  Pipeline.withArrays spec5 c (B13 m ρ c) fun w => (dat5 (T13 m ρ) c).arrAt w cfg5.N
theorem B14_arr (c : Dev nD) (w : Fin cfg5.W) :
    B14 m ρ c (Proc.devRef .tc (Pipeline.arrRef spec5 w)) = (dat5 (T13 m ρ) c).arrAt w cfg5.N := by
  unfold B14; exact Pipeline.withArrays_arr spec5 launch5.win.arr_inj c _ _ w
theorem B14_of_ne (c : Dev nD) (b : Ref sig .tc) (hb : ∀ w, Pipeline.arrRef spec5 w ≠ b) :
    B14 m ρ c (Proc.devRef .tc b) = B13 m ρ c (Proc.devRef .tc b) := by
  unfold B14; exact Pipeline.withArrays_of_ne spec5 c _ _ b hb
abbrev T14 : (c : Dev nD) → (b : Ref sig .tc) → Buf (Elt F) ((c : Thread nD τ).loc b) := fun c b => B14 m ρ c b
theorem hF5 (c : Dev nD) (w : Fin cfg5.W) : (dat5 (T13 m ρ) c).arrAt w cfg5.N = T14 m ρ c (Pipeline.arrRef spec5 w) :=
  (B14_arr m ρ c w).symm
theorem hrest5 (c : Dev nD) : ∀ b, b ∉ Finset.univ.image (Pipeline.arrRef spec5) → T14 m ρ c b = T13 m ρ c b :=
  fun b hb => B14_of_ne m ρ c b fun w e => hb (Finset.mem_image.mpr ⟨w, Finset.mem_univ _, e⟩)
/-- Call 5 changes no buffer but its output array: an input array is left as found, any other buffer is not its. -/
theorem keep14 (c : Dev nD) (b : Ref sig .tc) (hb : b ≠ Pipeline.arrRef spec5 3) : T14 m ρ c b = T13 m ρ c b := by
  by_cases h : ∃ w, Pipeline.arrRef spec5 w = b
  · obtain ⟨w, rfl⟩ := h
    have hw : (cfg5.win w).isOut = false := by
      rcases w with ⟨_ | _ | _ | _ | n, hn⟩
      · rfl
      · rfl
      · rfl
      · exact absurd rfl hb
      · exact absurd hn (Nat.not_lt.2 (Nat.le_add_left _ _))
    exact (B14_arr m ρ c w).trans (((dat5 (T13 m ρ) c).arrAt_in w hw _).trans (A_eq5 (T13 m ρ) c w))
  · exact B14_of_ne m ρ c b (fun w e => h ⟨w, e⟩)
/-- What call 5 leaves in its output array. -/
theorem out_arr5 (c : Dev nD) : T14 m ρ c (Pipeline.arrRef spec5 3) = (dat5 (T13 m ρ) c).arrAt 3 cfg5.N := B14_arr m ρ c 3

/-! ## No item writes an argument array -/

theorem B14_main_arg0 (c : Dev nD) : T14 m ρ c main_arg0 = m ((c : Thread nD τ).loc main_arg0) :=
  (keep14 m ρ c main_arg0 (by decide)).trans <| (keep13 m ρ c main_arg0 (by decide)).trans <| (keep12 m ρ c main_arg0 (by decide)).trans <| (keep11 m ρ c main_arg0 (by decide)).trans <| (keep10 m ρ c main_arg0 (by decide)).trans <| (keep9 m ρ c main_arg0 (by decide)).trans <| (keep8 m ρ c main_arg0 (by decide)).trans <| (keep7 m ρ c main_arg0 (by decide)).trans <| (keep6 m ρ c main_arg0 (by decide)).trans <| (keep5 m ρ c main_arg0 (by decide)).trans <| (keep4 m ρ c main_arg0 (by decide)).trans <| (keep3 m ρ c main_arg0 (by decide)).trans <| (keep2 m ρ c main_arg0 (by decide)).trans <| (keep1 m ρ c main_arg0 (by decide)).trans <| rfl
theorem B14_main_arg1 (c : Dev nD) : T14 m ρ c main_arg1 = m ((c : Thread nD τ).loc main_arg1) :=
  (keep14 m ρ c main_arg1 (by decide)).trans <| (keep13 m ρ c main_arg1 (by decide)).trans <| (keep12 m ρ c main_arg1 (by decide)).trans <| (keep11 m ρ c main_arg1 (by decide)).trans <| (keep10 m ρ c main_arg1 (by decide)).trans <| (keep9 m ρ c main_arg1 (by decide)).trans <| (keep8 m ρ c main_arg1 (by decide)).trans <| (keep7 m ρ c main_arg1 (by decide)).trans <| (keep6 m ρ c main_arg1 (by decide)).trans <| (keep5 m ρ c main_arg1 (by decide)).trans <| (keep4 m ρ c main_arg1 (by decide)).trans <| (keep3 m ρ c main_arg1 (by decide)).trans <| (keep2 m ρ c main_arg1 (by decide)).trans <| (keep1 m ρ c main_arg1 (by decide)).trans <| rfl
theorem B14_main_arg2 (c : Dev nD) : T14 m ρ c main_arg2 = m ((c : Thread nD τ).loc main_arg2) :=
  (keep14 m ρ c main_arg2 (by decide)).trans <| (keep13 m ρ c main_arg2 (by decide)).trans <| (keep12 m ρ c main_arg2 (by decide)).trans <| (keep11 m ρ c main_arg2 (by decide)).trans <| (keep10 m ρ c main_arg2 (by decide)).trans <| (keep9 m ρ c main_arg2 (by decide)).trans <| (keep8 m ρ c main_arg2 (by decide)).trans <| (keep7 m ρ c main_arg2 (by decide)).trans <| (keep6 m ρ c main_arg2 (by decide)).trans <| (keep5 m ρ c main_arg2 (by decide)).trans <| (keep4 m ρ c main_arg2 (by decide)).trans <| (keep3 m ρ c main_arg2 (by decide)).trans <| (keep2 m ρ c main_arg2 (by decide)).trans <| (keep1 m ρ c main_arg2 (by decide)).trans <| rfl
theorem B14_main_arg3 (c : Dev nD) : T14 m ρ c main_arg3 = m ((c : Thread nD τ).loc main_arg3) :=
  (keep14 m ρ c main_arg3 (by decide)).trans <| (keep13 m ρ c main_arg3 (by decide)).trans <| (keep12 m ρ c main_arg3 (by decide)).trans <| (keep11 m ρ c main_arg3 (by decide)).trans <| (keep10 m ρ c main_arg3 (by decide)).trans <| (keep9 m ρ c main_arg3 (by decide)).trans <| (keep8 m ρ c main_arg3 (by decide)).trans <| (keep7 m ρ c main_arg3 (by decide)).trans <| (keep6 m ρ c main_arg3 (by decide)).trans <| (keep5 m ρ c main_arg3 (by decide)).trans <| (keep4 m ρ c main_arg3 (by decide)).trans <| (keep3 m ρ c main_arg3 (by decide)).trans <| (keep2 m ρ c main_arg3 (by decide)).trans <| (keep1 m ρ c main_arg3 (by decide)).trans <| rfl
theorem B14_main_arg4 (c : Dev nD) : T14 m ρ c main_arg4 = m ((c : Thread nD τ).loc main_arg4) :=
  (keep14 m ρ c main_arg4 (by decide)).trans <| (keep13 m ρ c main_arg4 (by decide)).trans <| (keep12 m ρ c main_arg4 (by decide)).trans <| (keep11 m ρ c main_arg4 (by decide)).trans <| (keep10 m ρ c main_arg4 (by decide)).trans <| (keep9 m ρ c main_arg4 (by decide)).trans <| (keep8 m ρ c main_arg4 (by decide)).trans <| (keep7 m ρ c main_arg4 (by decide)).trans <| (keep6 m ρ c main_arg4 (by decide)).trans <| (keep5 m ρ c main_arg4 (by decide)).trans <| (keep4 m ρ c main_arg4 (by decide)).trans <| (keep3 m ρ c main_arg4 (by decide)).trans <| (keep2 m ρ c main_arg4 (by decide)).trans <| (keep1 m ρ c main_arg4 (by decide)).trans <| rfl
theorem B14_main_arg5 (c : Dev nD) : T14 m ρ c main_arg5 = m ((c : Thread nD τ).loc main_arg5) :=
  (keep14 m ρ c main_arg5 (by decide)).trans <| (keep13 m ρ c main_arg5 (by decide)).trans <| (keep12 m ρ c main_arg5 (by decide)).trans <| (keep11 m ρ c main_arg5 (by decide)).trans <| (keep10 m ρ c main_arg5 (by decide)).trans <| (keep9 m ρ c main_arg5 (by decide)).trans <| (keep8 m ρ c main_arg5 (by decide)).trans <| (keep7 m ρ c main_arg5 (by decide)).trans <| (keep6 m ρ c main_arg5 (by decide)).trans <| (keep5 m ρ c main_arg5 (by decide)).trans <| (keep4 m ρ c main_arg5 (by decide)).trans <| (keep3 m ρ c main_arg5 (by decide)).trans <| (keep2 m ρ c main_arg5 (by decide)).trans <| (keep1 m ρ c main_arg5 (by decide)).trans <| rfl
theorem B14_main_arg6 (c : Dev nD) : T14 m ρ c main_arg6 = m ((c : Thread nD τ).loc main_arg6) :=
  (keep14 m ρ c main_arg6 (by decide)).trans <| (keep13 m ρ c main_arg6 (by decide)).trans <| (keep12 m ρ c main_arg6 (by decide)).trans <| (keep11 m ρ c main_arg6 (by decide)).trans <| (keep10 m ρ c main_arg6 (by decide)).trans <| (keep9 m ρ c main_arg6 (by decide)).trans <| (keep8 m ρ c main_arg6 (by decide)).trans <| (keep7 m ρ c main_arg6 (by decide)).trans <| (keep6 m ρ c main_arg6 (by decide)).trans <| (keep5 m ρ c main_arg6 (by decide)).trans <| (keep4 m ρ c main_arg6 (by decide)).trans <| (keep3 m ρ c main_arg6 (by decide)).trans <| (keep2 m ρ c main_arg6 (by decide)).trans <| (keep1 m ρ c main_arg6 (by decide)).trans <| rfl
theorem B14_main_arg7 (c : Dev nD) : T14 m ρ c main_arg7 = m ((c : Thread nD τ).loc main_arg7) :=
  (keep14 m ρ c main_arg7 (by decide)).trans <| (keep13 m ρ c main_arg7 (by decide)).trans <| (keep12 m ρ c main_arg7 (by decide)).trans <| (keep11 m ρ c main_arg7 (by decide)).trans <| (keep10 m ρ c main_arg7 (by decide)).trans <| (keep9 m ρ c main_arg7 (by decide)).trans <| (keep8 m ρ c main_arg7 (by decide)).trans <| (keep7 m ρ c main_arg7 (by decide)).trans <| (keep6 m ρ c main_arg7 (by decide)).trans <| (keep5 m ρ c main_arg7 (by decide)).trans <| (keep4 m ρ c main_arg7 (by decide)).trans <| (keep3 m ρ c main_arg7 (by decide)).trans <| (keep2 m ρ c main_arg7 (by decide)).trans <| (keep1 m ρ c main_arg7 (by decide)).trans <| rfl

/-! ## The proof data family and what rides beside the buffers -/

abbrev admC : (p : Fin 6) → (pcfgs (F := F) p).Adm := fun p => (cfgs p).toPCfg_adm
/-- Every call's proof data, each at its own entry contents. -/
def pdatsC : (p : Fin 6) → (c : Dev nD) → Dat τ (Elt F) Unit ℕ (UR sig nD τ) ℕ (Pipeline.pin (pcfgs (F := F)) admC p) c
  | ⟨0, _⟩ => fun c => dat0 (T3 m ρ) c
  | ⟨1, _⟩ => fun c => dat1 (T5 m ρ) c
  | ⟨2, _⟩ => fun c => dat2 (T7 m ρ) c
  | ⟨3, _⟩ => fun c => dat3 (T9 m ρ) c
  | ⟨4, _⟩ => fun c => dat4 (T11 m ρ) c
  | ⟨5, _⟩ => fun c => dat5 (T13 m ρ) c
abbrev vr0 : Variants := Variants.none
abbrev Lz : GSem nD τ sig → Finset Unit := fun _ => ∅
abbrev lvz : GSem nD τ sig → Unit → ℕ := fun _ _ => 0
/-- Beside the buffers through every segment: the generator register at some state, and nothing owed. -/
abbrev Rst (c : Dev nD) : sProp 𝕄 := iprop((∃ r, prngReg c r) ∗ ∃ W, owes (c : Thread nD τ) (0 : CellTallies nD τ sig Unit) W)
abbrev hsegC (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vr0 Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucC (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (B14 m ρ c) ∗ ∃ r, prngReg c r)

/-! ## The calls as segments -/

set_option backward.isDefEq.respectTransparency.types false in
/-- Call 0 over the thread state: entered with every unscoped buffer at boundary 3's contents, left at boundary 4's. -/
def reg0 : Pipeline.RegionSeg (pcfgs (F := F)) admC (pdatsC m ρ) () defs₀ vr0 Lz lvz 0 where
  win := launch0.win.to₀
  block_pos := launch0.block_pos
  stage_whole := launch0.stage_whole
  K := PEmpty
  osem k := k.elim
  ho := Pipeline.OwnSemFacts.none _
  hbody c := (body_obligation0 (T3 m ρ) c).loose
  hwaits := Pipeline.hwaits_of_owed_zero _ _ _ _ Lz lvz 0 fun _ _ => rfl
  pre c := iprop(StableHlo.held (c : Thread nD τ) (Pipeline.ucRefs τ sig) (B3 m ρ c) ∗ Rst c)
  post c := iprop(StableHlo.held (c : Thread nD τ) (Pipeline.ucRefs τ sig) (B4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (T3 m ρ c)
  hentry c := by
    rw [Pipeline.ownSems0_none]
    have hsplit := Pipeline.arrays_of_unscopedBufs (p := 0) (pcfgs (F := F)) admC (pdatsC m ρ) launch0.win launch0.arr_whole c
      ((pdatsC m ρ 0 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsC m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admC (Ix := Unit) (Name := ℕ) (U := UR sig nD τ) (Lvl := ℕ)
      launch0.win launch0.arr_whole c (pdatsC m ρ) ((pdatsC m ρ 0 c).share_full fun _ => rfl)
      (T3 m ρ c) (T4 m ρ c) ((pdatsC m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at boundary 5's contents, left at boundary 6's. -/
def reg1 : Pipeline.RegionSeg (pcfgs (F := F)) admC (pdatsC m ρ) () defs₀ vr0 Lz lvz 1 where
  win := launch1.win.to₀
  block_pos := launch1.block_pos
  stage_whole := launch1.stage_whole
  K := PEmpty
  osem k := k.elim
  ho := Pipeline.OwnSemFacts.none _
  hbody c := (body_obligation1 (T5 m ρ) c).loose
  hwaits := Pipeline.hwaits_of_owed_zero _ _ _ _ Lz lvz 1 fun _ _ => rfl
  pre c := iprop(StableHlo.held (c : Thread nD τ) (Pipeline.ucRefs τ sig) (B5 m ρ c) ∗ Rst c)
  post c := iprop(StableHlo.held (c : Thread nD τ) (Pipeline.ucRefs τ sig) (B6 m ρ c) ∗ Rst c)
  X c := iprop(∃ r, prngReg c r)
  Y c := iprop(∃ r, prngReg c r)
  Z c := Pipeline.unscopedRest (Ix := Unit) (Name := ℕ) (U := UR sig nD τ) (Lvl := ℕ) spec1 c (T5 m ρ c)
  hentry c := by
    rw [Pipeline.ownSems0_none]
    have hsplit := Pipeline.arrays_of_unscopedBufs (p := 1) (pcfgs (F := F)) admC (pdatsC m ρ) launch1.win launch1.arr_whole c
      ((pdatsC m ρ 1 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsC m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admC (Ix := Unit) (Name := ℕ) (U := UR sig nD τ) (Lvl := ℕ)
      launch1.win launch1.arr_whole c (pdatsC m ρ) ((pdatsC m ρ 1 c).share_full fun _ => rfl)
      (T5 m ρ c) (T6 m ρ c) ((pdatsC m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at boundary 7's contents, left at boundary 8's. -/
def reg2 : Pipeline.RegionSeg (pcfgs (F := F)) admC (pdatsC m ρ) () defs₀ vr0 Lz lvz 2 where
  win := launch2.win.to₀
  block_pos := launch2.block_pos
  stage_whole := launch2.stage_whole
  K := PEmpty
  osem k := k.elim
  ho := Pipeline.OwnSemFacts.none _
  hbody c := (body_obligation2 (T7 m ρ) c).loose
  hwaits := Pipeline.hwaits_of_owed_zero _ _ _ _ Lz lvz 2 fun _ _ => rfl
  pre c := iprop(StableHlo.held (c : Thread nD τ) (Pipeline.ucRefs τ sig) (B7 m ρ c) ∗ Rst c)
  post c := iprop(StableHlo.held (c : Thread nD τ) (Pipeline.ucRefs τ sig) (B8 m ρ c) ∗ Rst c)
  X c := iprop(∃ r, prngReg c r)
  Y c := iprop(∃ r, prngReg c r)
  Z c := Pipeline.unscopedRest (Ix := Unit) (Name := ℕ) (U := UR sig nD τ) (Lvl := ℕ) spec2 c (T7 m ρ c)
  hentry c := by
    rw [Pipeline.ownSems0_none]
    have hsplit := Pipeline.arrays_of_unscopedBufs (p := 2) (pcfgs (F := F)) admC (pdatsC m ρ) launch2.win launch2.arr_whole c
      ((pdatsC m ρ 2 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsC m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admC (Ix := Unit) (Name := ℕ) (U := UR sig nD τ) (Lvl := ℕ)
      launch2.win launch2.arr_whole c (pdatsC m ρ) ((pdatsC m ρ 2 c).share_full fun _ => rfl)
      (T7 m ρ c) (T8 m ρ c) ((pdatsC m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered with every unscoped buffer at boundary 9's contents, left at boundary 10's. -/
def reg3 : Pipeline.RegionSeg (pcfgs (F := F)) admC (pdatsC m ρ) () defs₀ vr0 Lz lvz 3 where
  win := launch3.win.to₀
  block_pos := launch3.block_pos
  stage_whole := launch3.stage_whole
  K := PEmpty
  osem k := k.elim
  ho := Pipeline.OwnSemFacts.none _
  hbody c := (body_obligation3 (T9 m ρ) c).loose
  hwaits := Pipeline.hwaits_of_owed_zero _ _ _ _ Lz lvz 3 fun _ _ => rfl
  pre c := iprop(StableHlo.held (c : Thread nD τ) (Pipeline.ucRefs τ sig) (B9 m ρ c) ∗ Rst c)
  post c := iprop(StableHlo.held (c : Thread nD τ) (Pipeline.ucRefs τ sig) (B10 m ρ c) ∗ Rst c)
  X c := iprop(∃ r, prngReg c r)
  Y c := iprop(∃ r, prngReg c r)
  Z c := Pipeline.unscopedRest (Ix := Unit) (Name := ℕ) (U := UR sig nD τ) (Lvl := ℕ) spec3 c (T9 m ρ c)
  hentry c := by
    rw [Pipeline.ownSems0_none]
    have hsplit := Pipeline.arrays_of_unscopedBufs (p := 3) (pcfgs (F := F)) admC (pdatsC m ρ) launch3.win launch3.arr_whole c
      ((pdatsC m ρ 3 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsC m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admC (Ix := Unit) (Name := ℕ) (U := UR sig nD τ) (Lvl := ℕ)
      launch3.win launch3.arr_whole c (pdatsC m ρ) ((pdatsC m ρ 3 c).share_full fun _ => rfl)
      (T9 m ρ c) (T10 m ρ c) ((pdatsC m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered with every unscoped buffer at boundary 11's contents, left at boundary 12's. -/
def reg4 : Pipeline.RegionSeg (pcfgs (F := F)) admC (pdatsC m ρ) () defs₀ vr0 Lz lvz 4 where
  win := launch4.win.to₀
  block_pos := launch4.block_pos
  stage_whole := launch4.stage_whole
  K := PEmpty
  osem k := k.elim
  ho := Pipeline.OwnSemFacts.none _
  hbody c := (body_obligation4 (T11 m ρ) c).loose
  hwaits := Pipeline.hwaits_of_owed_zero _ _ _ _ Lz lvz 4 fun _ _ => rfl
  pre c := iprop(StableHlo.held (c : Thread nD τ) (Pipeline.ucRefs τ sig) (B11 m ρ c) ∗ Rst c)
  post c := iprop(StableHlo.held (c : Thread nD τ) (Pipeline.ucRefs τ sig) (B12 m ρ c) ∗ Rst c)
  X c := iprop(∃ r, prngReg c r)
  Y c := iprop(∃ r, prngReg c r)
  Z c := Pipeline.unscopedRest (Ix := Unit) (Name := ℕ) (U := UR sig nD τ) (Lvl := ℕ) spec4 c (T11 m ρ c)
  hentry c := by
    rw [Pipeline.ownSems0_none]
    have hsplit := Pipeline.arrays_of_unscopedBufs (p := 4) (pcfgs (F := F)) admC (pdatsC m ρ) launch4.win launch4.arr_whole c
      ((pdatsC m ρ 4 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsC m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admC (Ix := Unit) (Name := ℕ) (U := UR sig nD τ) (Lvl := ℕ)
      launch4.win launch4.arr_whole c (pdatsC m ρ) ((pdatsC m ρ 4 c).share_full fun _ => rfl)
      (T11 m ρ c) (T12 m ρ c) ((pdatsC m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5 over the thread state: entered with every unscoped buffer at boundary 13's contents, left at boundary 14's. -/
def reg5 : Pipeline.RegionSeg (pcfgs (F := F)) admC (pdatsC m ρ) () defs₀ vr0 Lz lvz 5 where
  win := launch5.win.to₀
  block_pos := launch5.block_pos
  stage_whole := launch5.stage_whole
  K := PEmpty
  osem k := k.elim
  ho := Pipeline.OwnSemFacts.none _
  hbody c := (body_obligation5 (T13 m ρ) c).loose
  hwaits := Pipeline.hwaits_of_owed_zero _ _ _ _ Lz lvz 5 fun _ _ => rfl
  pre c := iprop(StableHlo.held (c : Thread nD τ) (Pipeline.ucRefs τ sig) (B13 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (T13 m ρ c)
  hentry c := by
    rw [Pipeline.ownSems0_none]
    have hsplit := Pipeline.arrays_of_unscopedBufs (p := 5) (pcfgs (F := F)) admC (pdatsC m ρ) launch5.win launch5.arr_whole c
      ((pdatsC m ρ 5 c).share_full fun _ => rfl) (T13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsC m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsC m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admC (Ix := Unit) (Name := ℕ) (U := UR sig nD τ) (Lvl := ℕ)
      launch5.win launch5.arr_whole c (pdatsC m ρ) ((pdatsC m ρ 5 c).share_full fun _ => rfl)
      (T13 m ρ c) (T14 m ρ c) ((pdatsC m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev segsC : List (Pipeline.Seg (pcfgs (F := F)) admC (pdatsC m ρ) () defs₀ vr0 Lz lvz) :=
  [ .host (hsegC hostOps0 hostOps0_sub hostOps0_fresh (B0 m ρ)),
    .host (hsegC hostOps0_1 hostOps0_1_sub hostOps0_1_fresh (B1 m ρ)),
    .host (hsegC hostOps0_2 hostOps0_2_sub hostOps0_2_fresh (B2 m ρ)),
    .region (reg0 m ρ),
    .host (hsegC hostOps1 hostOps1_sub hostOps1_fresh (B4 m ρ)),
    .region (reg1 m ρ),
    .host (hsegC hostOps2 hostOps2_sub hostOps2_fresh (B6 m ρ)),
    .region (reg2 m ρ),
    .host (hsegC hostOps3 hostOps3_sub hostOps3_fresh (B8 m ρ)),
    .region (reg3 m ρ),
    .host (hsegC hostOps4 hostOps4_sub hostOps4_fresh (B10 m ρ)),
    .region (reg4 m ρ),
    .host (hsegC hostOps5 hostOps5_sub hostOps5_fresh (B12 m ρ)),
    .region (reg5 m ρ) ]
theorem main_runC (c : Dev nD) : main (F := F) c = Pipeline.Seg.run (segsC m ρ) := (main_chain c).trans (by chain_rfl)

set_option backward.isDefEq.respectTransparency.types false in
/-- From any memory with zero counters every weakly fair execution of the entry function terminates, nothing faulting, and
    the final memory holds every unscoped buffer at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = T14 m ρ c b) :=
  Pipeline.θ_run_regions_kit (pcfgs (F := F)) admC (pdatsC m ρ) () cellOf_inj emb₁ defs₀ vr0 Lz lvz m ρ main (segsC m ρ)
    (fun c Q => by rw [main_runC m ρ c])
    (by simp only [segsC, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m ρ c b)
    (hfin := fun c s' => by
      iintro ⟨⟨Hh, -⟩, HSI⟩
      unfold StableHlo.held
      imodintro
      iapply (pointsTo_read_all (Pipeline.ucRefs τ sig) (fun b => (((c : Thread nD τ)).1, b)) (B14 m ρ c) s')
      isplitl [Hh] <;> iassumption)
    (hQ := fun s h c b hb => h c _ (mem_ucC b hb))

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_arg0 (by decide)).trans (B14_main_arg0 m ρ c),
    (h c main_arg1 (by decide)).trans (B14_main_arg1 m ρ c),
    (h c main_arg2 (by decide)).trans (B14_main_arg2 m ρ c),
    (h c main_arg3 (by decide)).trans (B14_main_arg3 m ρ c),
    (h c main_arg4 (by decide)).trans (B14_main_arg4 m ρ c),
    (h c main_arg5 (by decide)).trans (B14_main_arg5 m ρ c),
    (h c main_arg6 (by decide)).trans (B14_main_arg6 m ρ c),
    (h c main_arg7 (by decide)).trans (B14_main_arg7 m ρ c)⟩) (run_all m ρ)

end Cert.KernelIdeal.Calls

end
-- ==== Proof.LayerSpec.lean ====
/-
  The four dense layers of the network as whole-array functions, written with the host operations of the reference
  program (so that each is, by unfolding, one of the reference's own stages):
    * `linRelu X W b`   = max (X · W + b, 0)      (the ego embedding),
    * `lin X W`         = X · W                   (a convolution's feature transform),
    * `biasRelu A b`    = max (A + b, 0)          (a convolution's bias and activation),
    * `linBias X W b`   = X · W + b               (the classifier),
  the bias a row vector added to every row.
-/
import proofs.«145378_j26474178413288_1_alg».proof.ReferenceIdeal
import proofs.«145378_j26474178413288_1_alg».proof.Proof.Gen.ReferenceIdeal
import Idealize.ShloMosaic.PureOps.Ideal

noncomputable section

namespace Cert.Layers

open Idealize.ShloMosaic Cert.ReferenceIdeal Cert.ReferenceIdeal.Gen

variable {F : FTy → Type} [FloatOps F]

/-- A length-64 bias added to every row of a 100000 × 64 array. -/
def rowBias64 (B : FVec F S64 .f32) : FVec F S100000x64 .f32 :=
  broadcastInDim S100000x64 ![0, 1] bcast_S1x64_S100000x64_0_1 (broadcastInDim S1x64 ![1] bcast_S64_S1x64_1 B)

/-- The all-zero 100000 × 64 array. -/
def zeros64 : FVec F S100000x64 .f32 :=
  broadcastInDim S100000x64 ![] bcast_S_S100000x64 (constant S_ .f32 0x00000000#32)

/-- `X · W` for a 100000 × 64 array and a 64 × 64 matrix. -/
def lin (X : FVec F S100000x64 .f32) (W : FVec F S64x64 .f32) : FVec F S100000x64 .f32 :=
  Host.dotGeneral dot_S100000x64_S64x64_S100000x64_1_0_0_1_n_n none X W

/-- `max (A + b, 0)`. -/
def biasRelu (A : FVec F S100000x64 .f32) (B : FVec F S64 .f32) : FVec F S100000x64 .f32 :=
  maximumf (addf A (rowBias64 B)) zeros64

/-- `max (X · W + b, 0)`. -/
def linRelu (X : FVec F S100000x64 .f32) (W : FVec F S64x64 .f32) (B : FVec F S64 .f32) : FVec F S100000x64 .f32 :=
  biasRelu (lin X W) B

/-- `X · W + b` for a 100000 × 192 array, a 192 × 40 matrix and a length-40 bias. -/
def linBias (X : FVec F S100000x192 .f32) (W : FVec F S192x40 .f32) (B : FVec F S40 .f32) : FVec F S100000x40 .f32 :=
  addf (Host.dotGeneral dot_S100000x192_S192x40_S100000x40_1_0_0_1_n_n none X W)
    (broadcastInDim S100000x40 ![0, 1] bcast_S1x40_S100000x40_0_1 (broadcastInDim S1x40 ![1] bcast_S40_S1x40_1 B))

end Cert.Layers

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LayerAtIndex.lean ====
/-
  Each kernel body's stored value and each whole-array layer, read at one index.

  At the ideal instance (floats are extended reals, a format change is the identity) a kernel body stores, at row p
  and column q of its 10000-row block, a sum over k of left (p, k) * right (k, q), plus a bias at q, possibly followed
  by a maximum with the zero constant. The whole-array layer reads the same expression at row T * 10000 + p and column
  q. When the block is rows [T * 10000, T * 10000 + 10000) of the array and the small operands are the whole weight and
  bias arrays, the two agree term by term. No finiteness is used: the only arithmetic fact is x + 0 = x.
-/
import proofs.«145378_j26474178413288_1_alg».proof.Proof.Gen.KernelIdeal.Skeleton
import proofs.«145378_j26474178413288_1_alg».proof.Proof.LayerSpec
import proofs.«145378_j26474178413288_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.Layers.AtIndex

open Idealize.ShloMosaic Idealize.ShloMosaic.ValueIdx

/-! ## The pieces, at any sizes -/

section Pieces
variable {M K N : ℕ}

/-- The product of two narrowed matrices into the zero accumulator is, at (p, q), the sum over k of
    x (p, k) * w (k, q): narrowing is the identity on extended reals. -/
theorem matmul_at (x : FVec Ideal ⟨2, ![M, K]⟩ .f32) (w : FVec Ideal ⟨2, ![K, N]⟩ .f32)
    (h1 h2 : FTy.bits .bf16 < FTy.bits .f32) (p : Fin M) (q : Fin N) :
    FloatOps.matmul (DotDims.plain M K N) none (truncf .bf16 x h1) (truncf .bf16 w h2)
        (constant ⟨2, ![M, N]⟩ .f32 0x00000000#32) (ix2 p q)
      = ∑ k : Fin K, x (ix2 p k) * w (ix2 k q) :=
  Cert.Lib.PlainDot.matmul_zero_apply M K N none _ _ (ix2 p q)

/-- The host's product of two matrices is, at (r, q), the sum over k of X (r, k) * W (k, q). -/
theorem dot_at (X : FVec Ideal ⟨2, ![M, K]⟩ .f32) (W : FVec Ideal ⟨2, ![K, N]⟩ .f32) (r : Fin M) (q : Fin N) :
    FloatOps.dotGeneral (DotDims.plain M K N) none .single X W (ix2 r q)
      = ∑ k : Fin K, X (ix2 r k) * W (ix2 k q) :=
  Cert.Lib.PlainDot.dotGeneral_apply M K N none .single X W (ix2 r q)

/-- A length-N vector viewed as one row and repeated over M rows reads, at (p, q), its entry q. -/
theorem rowRepeat_at (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- The host's form of the same: a length-N vector placed on axis 1 of a one-row matrix, then repeated over M rows,
    reads, at (r, q), its entry q. -/
theorem hostRowRepeat_at (B : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (q : Fin N) :
    broadcastInDim ⟨2, ![M, N]⟩ (![0, 1] : Fin 2 → Fin 2) h2
        (broadcastInDim ⟨2, ![1, N]⟩ (![1] : Fin 1 → Fin 2) h1 B) (ix2 r q) = B (ix1 q) := by
  refine (broadcastInDim_apply _ h2 _ (ix2 r q) (ix2 (0 : Fin 1) q) fun a => ?_).trans
    (broadcastInDim_apply _ h1 B (ix2 (0 : Fin 1) q) (ix1 q) fun a => ?_)
  · match a with
    | ⟨0, _⟩ => rfl
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

end Pieces

/-! ## Each kernel body at (p, q) -/

section Bodies
open Cert.KernelIdeal Cert.KernelIdeal.Gen

/-- The first body at (p, q): the sum over k of x (p, k) * w (k, q), plus b q, then the maximum with the zero
    constant. -/
theorem k0_apply (x : Vec Ideal S10000x64 .f32) (w : Vec Ideal S64x64 .f32) (b : Vec Ideal S64 .f32)
    (p : Fin 10000) (q : Fin 64) :
    Gen.k0_pay1 (F := Ideal) x w b (ix2 p q)
      = max ((∑ k : Fin 64, x (ix2 p k) * w (ix2 k q)) + b (ix1 q)) (Ideal.ofBits .f32 0x00000000#32) := by
  unfold Gen.k0_pay1
  exact congrArg₂ max (congrArg₂ (· + ·) (matmul_at x w _ _ p q) (rowRepeat_at b _ _ p q)) rfl

/-- The second body at (p, q): the sum over k of x (p, k) * w (k, q), plus b q. -/
theorem k1_apply (x : Vec Ideal S10000x64 .f32) (w : Vec Ideal S64x64 .f32) (b : Vec Ideal S64 .f32)
    (p : Fin 10000) (q : Fin 64) :
    Gen.k1_pay1 (F := Ideal) x w b (ix2 p q) = (∑ k : Fin 64, x (ix2 p k) * w (ix2 k q)) + b (ix1 q) := by
  unfold Gen.k1_pay1
  exact congrArg₂ (· + ·)
    ((matmul_at x (shapeCast S64x64 w shapeCasts_S64x64_S64x64) _ _ p q).trans (by rw [shapeCast_self]))
    ((rowRepeat_at (shapeCast S64 b shapeCasts_S64_S64) _ _ p q).trans (by rw [shapeCast_self]))

/-- The third body at (p, q): x (p, q) plus b q, then the maximum with the zero constant. -/
theorem k2_apply (x : Vec Ideal S10000x64 .f32) (b : Vec Ideal S64 .f32) (p : Fin 10000) (q : Fin 64) :
    Gen.k2_pay1 (F := Ideal) x b (ix2 p q) = max (x (ix2 p q) + b (ix1 q)) (Ideal.ofBits .f32 0x00000000#32) := by
  unfold Gen.k2_pay1
  exact congrArg₂ max (congrArg₂ (· + ·)
    (by rw [shapeCast_self])
    ((rowRepeat_at (shapeCast S64 b shapeCasts_S64_S64) _ _ p q).trans (by rw [shapeCast_self]))) rfl

/-- The fourth body at (p, q): the sum over k of x (p, k) * w (k, q), plus b q. -/
theorem k3_apply (x : Vec Ideal S10000x64 .f32) (w : Vec Ideal S64x64 .f32) (b : Vec Ideal S64 .f32)
    (p : Fin 10000) (q : Fin 64) :
    Gen.k3_pay1 (F := Ideal) x w b (ix2 p q) = (∑ k : Fin 64, x (ix2 p k) * w (ix2 k q)) + b (ix1 q) := by
  unfold Gen.k3_pay1
  exact congrArg₂ (· + ·)
    ((matmul_at (shapeCast S10000x64 x shapeCasts_S10000x64_S10000x64) (shapeCast S64x64 w shapeCasts_S64x64_S64x64)
      _ _ p q).trans (by rw [shapeCast_self, shapeCast_self]))
    ((rowRepeat_at (shapeCast S64 b shapeCasts_S64_S64) _ _ p q).trans (by rw [shapeCast_self]))

/-- The fifth body at (p, q): x (p, q) plus b q, then the maximum with the zero constant. -/
theorem k4_apply (x : Vec Ideal S10000x64 .f32) (b : Vec Ideal S64 .f32) (p : Fin 10000) (q : Fin 64) :
    Gen.k4_pay1 (F := Ideal) x b (ix2 p q) = max (x (ix2 p q) + b (ix1 q)) (Ideal.ofBits .f32 0x00000000#32) := by
  unfold Gen.k4_pay1
  exact congrArg₂ max (congrArg₂ (· + ·)
    (by rw [shapeCast_self])
    ((rowRepeat_at (shapeCast S64 b shapeCasts_S64_S64) _ _ p q).trans (by rw [shapeCast_self]))) rfl

/-- The sixth body at (p, q): the sum over k of x (p, k) * w (k, q), plus b q. -/
theorem k5_apply (x : Vec Ideal S10000x192 .f32) (w : Vec Ideal S192x40 .f32) (b : Vec Ideal S40 .f32)
    (p : Fin 10000) (q : Fin 40) :
    Gen.k5_pay1 (F := Ideal) x w b (ix2 p q) = (∑ k : Fin 192, x (ix2 p k) * w (ix2 k q)) + b (ix1 q) := by
  unfold Gen.k5_pay1
  exact congrArg₂ (· + ·)
    ((matmul_at (shapeCast S10000x192 x shapeCasts_S10000x192_S10000x192) w _ _ p q).trans (by rw [shapeCast_self]))
    (rowRepeat_at b _ _ p q)

end Bodies

/-! ## Each whole-array layer at (r, q) -/

section Layers
open Cert.ReferenceIdeal

/-- X · W at (r, q): the sum over k of X (r, k) * W (k, q). -/
theorem lin_apply (X : FVec Ideal S100000x64 .f32) (W : FVec Ideal S64x64 .f32) (r : Fin 100000) (q : Fin 64) :
    Cert.Layers.lin X W (ix2 r q) = ∑ k : Fin 64, X (ix2 r k) * W (ix2 k q) := by
  unfold Cert.Layers.lin
  exact dot_at X W r q

/-- max (A + b, 0) at (r, q): A (r, q) plus B q, then the maximum with the zero constant. -/
theorem biasRelu_apply (A : FVec Ideal S100000x64 .f32) (B : FVec Ideal S64 .f32) (r : Fin 100000) (q : Fin 64) :
    Cert.Layers.biasRelu A B (ix2 r q) = max (A (ix2 r q) + B (ix1 q)) (Ideal.ofBits .f32 0x00000000#32) := by
  unfold Cert.Layers.biasRelu Cert.Layers.rowBias64 Cert.Layers.zeros64
  exact congrArg₂ max (congrArg₂ (· + ·) rfl (hostRowRepeat_at B _ _ r q)) rfl

/-- max (X · W + b, 0) at (r, q). -/
theorem linRelu_apply (X : FVec Ideal S100000x64 .f32) (W : FVec Ideal S64x64 .f32) (B : FVec Ideal S64 .f32)
    (r : Fin 100000) (q : Fin 64) :
    Cert.Layers.linRelu X W B (ix2 r q)
      = max ((∑ k : Fin 64, X (ix2 r k) * W (ix2 k q)) + B (ix1 q)) (Ideal.ofBits .f32 0x00000000#32) := by
  unfold Cert.Layers.linRelu
  rw [biasRelu_apply, lin_apply]

/-- X · W + b at (r, q), for the 192-column array. -/
theorem linBias_apply (X : FVec Ideal S100000x192 .f32) (W : FVec Ideal S192x40 .f32) (B : FVec Ideal S40 .f32)
    (r : Fin 100000) (q : Fin 40) :
    Cert.Layers.linBias X W B (ix2 r q) = (∑ k : Fin 192, X (ix2 r k) * W (ix2 k q)) + B (ix1 q) := by
  unfold Cert.Layers.linBias
  exact congrArg₂ (· + ·) (dot_at X W r q) (hostRowRepeat_at B _ _ r q)

end Layers

/-! ## A block of a layer is the layer at the block's rows -/

/-- The first body on rows [T * 10000, T * 10000 + 10000) of X, with the whole W and B, stores max (X · W + B, 0) at
    those rows. -/
theorem linRelu_block (X : FVec Ideal Cert.ReferenceIdeal.S100000x64 .f32) (W : FVec Ideal Cert.ReferenceIdeal.S64x64 .f32)
    (B : FVec Ideal Cert.ReferenceIdeal.S64 .f32)
    (x : Vec Ideal Cert.KernelIdeal.S10000x64 .f32) (w : Vec Ideal Cert.KernelIdeal.S64x64 .f32)
    (b : Vec Ideal Cert.KernelIdeal.S64 .f32) (T : ℕ) (hT : T < 10)
    (hx : ∀ (p : Fin 10000) (k : Fin 64), x (ix2 p k) = X (ix2 ⟨T * 10000 + p.val, by omega⟩ k))
    (hw : ∀ (k q : Fin 64), w (ix2 k q) = W (ix2 k q)) (hb : ∀ q : Fin 64, b (ix1 q) = B (ix1 q))
    (p : Fin 10000) (q : Fin 64) :
    Cert.KernelIdeal.Gen.k0_pay1 (F := Ideal) x w b (ix2 p q)
      = Cert.Layers.linRelu X W B (ix2 ⟨T * 10000 + p.val, by omega⟩ q) := by
  rw [k0_apply, linRelu_apply, hb q]
  exact congrArg₂ max (congrArg₂ (· + ·) (Finset.sum_congr rfl fun k _ => by rw [hx p k, hw k q]) rfl) rfl

/-- The second body on rows [T * 10000, T * 10000 + 10000) of X, with the whole W and a zero bias, stores X · W at
    those rows. -/
theorem lin_block1 (X : FVec Ideal Cert.ReferenceIdeal.S100000x64 .f32) (W : FVec Ideal Cert.ReferenceIdeal.S64x64 .f32)
    (x : Vec Ideal Cert.KernelIdeal.S10000x64 .f32) (w : Vec Ideal Cert.KernelIdeal.S64x64 .f32)
    (b : Vec Ideal Cert.KernelIdeal.S64 .f32) (T : ℕ) (hT : T < 10)
    (hx : ∀ (p : Fin 10000) (k : Fin 64), x (ix2 p k) = X (ix2 ⟨T * 10000 + p.val, by omega⟩ k))
    (hw : ∀ (k q : Fin 64), w (ix2 k q) = W (ix2 k q)) (hb0 : ∀ q : Fin 64, b (ix1 q) = (0 : EReal))
    (p : Fin 10000) (q : Fin 64) :
    Cert.KernelIdeal.Gen.k1_pay1 (F := Ideal) x w b (ix2 p q)
      = Cert.Layers.lin X W (ix2 ⟨T * 10000 + p.val, by omega⟩ q) := by
  rw [k1_apply, lin_apply, hb0 q, add_zero]
  exact Finset.sum_congr rfl fun k _ => by rw [hx p k, hw k q]

/-- The fourth body on rows [T * 10000, T * 10000 + 10000) of X, with the whole W and a zero bias, stores X · W at
    those rows. -/
theorem lin_block3 (X : FVec Ideal Cert.ReferenceIdeal.S100000x64 .f32) (W : FVec Ideal Cert.ReferenceIdeal.S64x64 .f32)
    (x : Vec Ideal Cert.KernelIdeal.S10000x64 .f32) (w : Vec Ideal Cert.KernelIdeal.S64x64 .f32)
    (b : Vec Ideal Cert.KernelIdeal.S64 .f32) (T : ℕ) (hT : T < 10)
    (hx : ∀ (p : Fin 10000) (k : Fin 64), x (ix2 p k) = X (ix2 ⟨T * 10000 + p.val, by omega⟩ k))
    (hw : ∀ (k q : Fin 64), w (ix2 k q) = W (ix2 k q)) (hb0 : ∀ q : Fin 64, b (ix1 q) = (0 : EReal))
    (p : Fin 10000) (q : Fin 64) :
    Cert.KernelIdeal.Gen.k3_pay1 (F := Ideal) x w b (ix2 p q)
      = Cert.Layers.lin X W (ix2 ⟨T * 10000 + p.val, by omega⟩ q) := by
  rw [k3_apply, lin_apply, hb0 q, add_zero]
  exact Finset.sum_congr rfl fun k _ => by rw [hx p k, hw k q]

/-- The third body on rows [T * 10000, T * 10000 + 10000) of A, with the whole B, stores max (A + B, 0) at those
    rows. -/
theorem biasRelu_block2 (A : FVec Ideal Cert.ReferenceIdeal.S100000x64 .f32) (B : FVec Ideal Cert.ReferenceIdeal.S64 .f32)
    (x : Vec Ideal Cert.KernelIdeal.S10000x64 .f32) (b : Vec Ideal Cert.KernelIdeal.S64 .f32) (T : ℕ) (hT : T < 10)
    (hx : ∀ (p : Fin 10000) (k : Fin 64), x (ix2 p k) = A (ix2 ⟨T * 10000 + p.val, by omega⟩ k))
    (hb : ∀ q : Fin 64, b (ix1 q) = B (ix1 q)) (p : Fin 10000) (q : Fin 64) :
    Cert.KernelIdeal.Gen.k2_pay1 (F := Ideal) x b (ix2 p q)
      = Cert.Layers.biasRelu A B (ix2 ⟨T * 10000 + p.val, by omega⟩ q) := by
  rw [k2_apply, biasRelu_apply, hb q, hx p q]

/-- The fifth body on rows [T * 10000, T * 10000 + 10000) of A, with the whole B, stores max (A + B, 0) at those
    rows. -/
theorem biasRelu_block4 (A : FVec Ideal Cert.ReferenceIdeal.S100000x64 .f32) (B : FVec Ideal Cert.ReferenceIdeal.S64 .f32)
    (x : Vec Ideal Cert.KernelIdeal.S10000x64 .f32) (b : Vec Ideal Cert.KernelIdeal.S64 .f32) (T : ℕ) (hT : T < 10)
    (hx : ∀ (p : Fin 10000) (k : Fin 64), x (ix2 p k) = A (ix2 ⟨T * 10000 + p.val, by omega⟩ k))
    (hb : ∀ q : Fin 64, b (ix1 q) = B (ix1 q)) (p : Fin 10000) (q : Fin 64) :
    Cert.KernelIdeal.Gen.k4_pay1 (F := Ideal) x b (ix2 p q)
      = Cert.Layers.biasRelu A B (ix2 ⟨T * 10000 + p.val, by omega⟩ q) := by
  rw [k4_apply, biasRelu_apply, hb q, hx p q]

/-- The sixth body on rows [T * 10000, T * 10000 + 10000) of the 192-column X, with the whole W and B, stores
    X · W + B at those rows. -/
theorem linBias_block (X : FVec Ideal Cert.ReferenceIdeal.S100000x192 .f32) (W : FVec Ideal Cert.ReferenceIdeal.S192x40 .f32)
    (B : FVec Ideal Cert.ReferenceIdeal.S40 .f32)
    (x : Vec Ideal Cert.KernelIdeal.S10000x192 .f32) (w : Vec Ideal Cert.KernelIdeal.S192x40 .f32)
    (b : Vec Ideal Cert.KernelIdeal.S40 .f32) (T : ℕ) (hT : T < 10)
    (hx : ∀ (p : Fin 10000) (k : Fin 192), x (ix2 p k) = X (ix2 ⟨T * 10000 + p.val, by omega⟩ k))
    (hw : ∀ (k : Fin 192) (q : Fin 40), w (ix2 k q) = W (ix2 k q)) (hb : ∀ q : Fin 40, b (ix1 q) = B (ix1 q))
    (p : Fin 10000) (q : Fin 40) :
    Cert.KernelIdeal.Gen.k5_pay1 (F := Ideal) x w b (ix2 p q)
      = Cert.Layers.linBias X W B (ix2 ⟨T * 10000 + p.val, by omega⟩ q) := by
  rw [k5_apply, linBias_apply, hb q]
  exact congrArg₂ (· + ·) (Finset.sum_congr rfl fun k _ => by rw [hx p k, hw k q]) rfl

end Cert.Layers.AtIndex

end
-- ==== Proof.IdealValue0.lean ====
/-
  What Pallas call 0 leaves in its output array, at the ideal instance: block `t` of the output is rows
  `[10000 t, 10000 (t+1))`, the row-block input is the same rows of its array, the small operands are whole; the ten
  blocks tile the 100000 rows, so the array ends as one host-form layer of the input arrays.
-/
import proofs.«145378_j26474178413288_1_alg».proof.Proof.IdealCall0
import proofs.«145378_j26474178413288_1_alg».proof.Proof.LayerAtIndex
import Idealize.ShloMosaic.Lib.Pipeline.Value
import Idealize.ShloMosaic.Lib.ValueIdx

set_option maxRecDepth 16384

noncomputable section

namespace Cert.KernelIdeal.Calls

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_0 : (![0, 0] : Fin 2 → Nat) = fun _ => 0 := funext fun a => by fin_cases a <;> rfl
theorem zero1_0 : (![0] : Fin 1 → Nat) = fun _ => 0 := funext fun a => by fin_cases a <;> rfl

/-- The printed index maps over the grid: the row-block windows move with the point, the small operands stay. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

theorem lt10_0 (t : Fin cfg0.N) : t.val < 10 := (show t.val < grid0.N from t.isLt).trans_eq N_0

/-- The row block at point `t` is rows `10000 t + p` of its array. -/
theorem rows0 (c : Dev nD) (t : Fin cfg0.N) (p : Fin 10000) (k : Fin 64) :
    iblk0 V c 0 t (ix2 p k) = V c (Pipeline.arrRef spec0 0) (ix2 ⟨t.val * 10000 + p.val, by have := lt10_0 t; omega⟩ k) := by
  obtain ⟨e0, e1, e2, e3, e4, e5, e6⟩ := idx0 t
  show V c (Pipeline.arrRef spec0 0) (((cfg0.win 0).blk t).view.emb (ix2 p k)) = _
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- The weight block is the whole weight array. -/
theorem whole0_1 (c : Dev nD) (t : Fin cfg0.N) (k : Fin 64) (q : Fin 64) :
    iblk0 V c 1 t (ix2 k q) = V c (Pipeline.arrRef spec0 1) (ix2 k q) := by
  obtain ⟨e0, e1, e2, e3, e4, e5, e6⟩ := idx0 t
  show V c (Pipeline.arrRef spec0 1) (((cfg0.win 1).blk t).view.emb (ix2 k q)) = _
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The bias block is the whole bias vector. -/
theorem whole0_2 (c : Dev nD) (t : Fin cfg0.N) (q : Fin 64) :
    iblk0 V c 2 t (ix1 q) = V c (Pipeline.arrRef spec0 2) (ix1 q) := by
  obtain ⟨e0, e1, e2, e3, e4, e5, e6⟩ := idx0 t
  show V c (Pipeline.arrRef spec0 2) (((cfg0.win 2).blk t).view.emb (ix1 q)) = _
  refine congrArg _ (funext fun a => Fin.ext ?_)
  match a with
  | ⟨0, _⟩ => show win0_2.index t (0 : Fin 1) * 64 + 1 * q.val = q.val; omega

/-- What point `t` writes back is block `t` of the layer of the input arrays. -/
theorem flushed0_eq (c : Dev nD) (t : Fin cfg0.N) :
    (dat0 V c).flushed 3 t = ((cfg0.win 3).blk t).view.read (Elt Ideal) (Cert.Layers.linRelu (F := Ideal) (V c (Pipeline.arrRef spec0 0)) (V c (Pipeline.arrRef spec0 1)) (V c (Pipeline.arrRef spec0 2))) := by
  show (cfg0.win 3).cut (grid0.coords t) ((dat0 V c).after 3 t) = _
  rw [after0_3]
  unfold out0
  rw [View.canon_unit_zero zero2_0]
  simp only [View.ld_unit_zero (S := S10000x64) zero2_0, View.ld_unit_zero (S := S64x64) zero2_0, View.ld_unit_zero (S := S64) zero1_0]
  obtain ⟨e0, e1, e2, e3, e4, e5, e6⟩ := idx0 t
  funext j
  obtain ⟨p, q, rfl⟩ : ∃ (p : Fin 10000) (q : Fin 64), j = ix2 p q := ⟨j 0, j 1, eq_ix2 j⟩
  have hemb : ((cfg0.win 3).blk t).view.emb (ix2 p q) = ix2 ⟨t.val * 10000 + p.val, by have := lt10_0 t; omega⟩ q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show k0_pay1 (iblk0 V c 0 t) (iblk0 V c 1 t) (iblk0 V c 2 t) (ix2 p q) = (Cert.Layers.linRelu (F := Ideal) (V c (Pipeline.arrRef spec0 0)) (V c (Pipeline.arrRef spec0 1)) (V c (Pipeline.arrRef spec0 2))) (((cfg0.win 3).blk t).view.emb (ix2 p q))
  rw [hemb]
  exact Cert.Layers.AtIndex.linRelu_block (V c (Pipeline.arrRef spec0 0)) (V c (Pipeline.arrRef spec0 1)) (V c (Pipeline.arrRef spec0 2)) (iblk0 V c 0 t) (iblk0 V c 1 t) (iblk0 V c 2 t) t.val (lt10_0 t) (rows0 V c t) (whole0_1 V c t) (whole0_2 V c t) p q

/-- An index of the output array is in point `t`'s block iff each coordinate is in the block's range. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v33).slice (win0_3.rect t)).set ↔ _
  rw [View.set_slice_whole, Rect.mem_set_unit]
  exact Iff.rfl

/-- Row `r` lies in the block of point `r / 10000`: the ten blocks cover the array. -/
theorem covered0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 10000, by show _ < grid0.N; rw [N_0]; omega⟩, flush0_3 _, ?_⟩
  rw [mem_blk0]
  obtain ⟨e0, e1, e2, e3, e4, e5, e6⟩ := idx0 ⟨(i 0).val / 10000, by show _ < grid0.N; rw [N_0]; omega⟩
  intro a
  match a with
  | ⟨0, _⟩ => show win0_3.index _ (0 : Fin 2) * 10000 ≤ (i 0).val ∧ (i 0).val < win0_3.index _ (0 : Fin 2) * 10000 + 10000; rw [e5]; show (i 0).val / 10000 * 10000 ≤ (i 0).val ∧ (i 0).val < (i 0).val / 10000 * 10000 + 10000; omega
  | ⟨1, _⟩ => show win0_3.index _ (1 : Fin 2) * 64 ≤ (i 1).val ∧ (i 1).val < win0_3.index _ (1 : Fin 2) * 64 + 64; rw [e6]; omega

/-- The output array after the call is the layer of the input arrays as the call found them. -/
theorem final0 (c : Dev nD) : (dat0 V c).arrAt 3 cfg0.N = Cert.Layers.linRelu (F := Ideal) (V c (Pipeline.arrRef spec0 0)) (V c (Pipeline.arrRef spec0 1)) (V c (Pipeline.arrRef spec0 2)) :=
  (dat0 V c).arrAt_eq_of_cover 3 _ (fun t _ => flushed0_eq V c t) (covered0)

end Cert.KernelIdeal.Calls

end
-- ==== Proof.IdealValue1.lean ====
/-
  What Pallas call 1 leaves in its output array, at the ideal instance: block `t` of the output is rows
  `[10000 t, 10000 (t+1))`, the row-block input is the same rows of its array, the small operands are whole; the ten
  blocks tile the 100000 rows, so the array ends as one host-form layer of the input arrays.
-/
import proofs.«145378_j26474178413288_1_alg».proof.Proof.IdealCall1
import proofs.«145378_j26474178413288_1_alg».proof.Proof.LayerAtIndex
import Idealize.ShloMosaic.Lib.Pipeline.Value
import Idealize.ShloMosaic.Lib.ValueIdx

set_option maxRecDepth 16384

noncomputable section

namespace Cert.KernelIdeal.Calls

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a <;> rfl

/-- The printed index maps over the grid: the row-block windows move with the point, the small operands stay. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

theorem lt10_1 (t : Fin cfg1.N) : t.val < 10 := (show t.val < grid1.N from t.isLt).trans_eq N_1

/-- The row block at point `t` is rows `10000 t + p` of its array. -/
theorem rows1 (c : Dev nD) (t : Fin cfg1.N) (p : Fin 10000) (k : Fin 64) :
    iblk1 V c 0 t (ix2 p k) = V c (Pipeline.arrRef spec1 0) (ix2 ⟨t.val * 10000 + p.val, by have := lt10_1 t; omega⟩ k) := by
  obtain ⟨e0, e1, e2, e3, e4, e5, e6⟩ := idx1 t
  show V c (Pipeline.arrRef spec1 0) (((cfg1.win 0).blk t).view.emb (ix2 p k)) = _
  refine congrArg _ (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- The weight block is the whole weight array. -/
theorem whole1_1 (c : Dev nD) (t : Fin cfg1.N) (k : Fin 64) (q : Fin 64) :
    iblk1 V c 1 t (ix2 k q) = V c (Pipeline.arrRef spec1 1) (ix2 k q) := by
  obtain ⟨e0, e1, e2, e3, e4, e5, e6⟩ := idx1 t
  show V c (Pipeline.arrRef spec1 1) (((cfg1.win 1).blk t).view.emb (ix2 k q)) = _
  refine congrArg _ (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

/-- The bias block is the whole bias vector. -/
theorem whole1_2 (c : Dev nD) (t : Fin cfg1.N) (q : Fin 64) :
    iblk1 V c 2 t (ix1 q) = V c (Pipeline.arrRef spec1 2) (ix1 q) := by
  obtain ⟨e0, e1, e2, e3, e4, e5, e6⟩ := idx1 t
  show V c (Pipeline.arrRef spec1 2) (((cfg1.win 2).blk t).view.emb (ix1 q)) = _
  refine congrArg _ (funext fun a => Fin.ext ?_)
  match a with
  | ⟨0, _⟩ => show win1_2.index t (0 : Fin 1) * 64 + 1 * q.val = q.val; omega

/-- What point `t` writes back is block `t` of the layer of the input arrays. -/
theorem flushed1_eq (c : Dev nD) (hzero : ∀ q : Fin 64, V c (Pipeline.arrRef spec1 2) (ix1 q) = (0 : EReal)) (t : Fin cfg1.N) :
    (dat1 V c).flushed 3 t = ((cfg1.win 3).blk t).view.read (Elt Ideal) (Cert.Layers.lin (F := Ideal) (V c (Pipeline.arrRef spec1 0)) (V c (Pipeline.arrRef spec1 1))) := by
  show (cfg1.win 3).cut (grid1.coords t) ((dat1 V c).after 3 t) = _
  rw [after1_3]
  unfold out1
  rw [View.canon_unit_zero zero2_1]
  simp only [View.ld_unit_zero (S := S10000x64) zero2_1, View.ld_unit_zero (S := S64x64) zero2_1, View.ld_unit_zero (S := S64) zero1_1]
  obtain ⟨e0, e1, e2, e3, e4, e5, e6⟩ := idx1 t
  funext j
  obtain ⟨p, q, rfl⟩ : ∃ (p : Fin 10000) (q : Fin 64), j = ix2 p q := ⟨j 0, j 1, eq_ix2 j⟩
  have hemb : ((cfg1.win 3).blk t).view.emb (ix2 p q) = ix2 ⟨t.val * 10000 + p.val, by have := lt10_1 t; omega⟩ q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show k1_pay1 (iblk1 V c 0 t) (iblk1 V c 1 t) (iblk1 V c 2 t) (ix2 p q) = (Cert.Layers.lin (F := Ideal) (V c (Pipeline.arrRef spec1 0)) (V c (Pipeline.arrRef spec1 1))) (((cfg1.win 3).blk t).view.emb (ix2 p q))
  rw [hemb]
  exact Cert.Layers.AtIndex.lin_block1 (V c (Pipeline.arrRef spec1 0)) (V c (Pipeline.arrRef spec1 1)) (iblk1 V c 0 t) (iblk1 V c 1 t) (iblk1 V c 2 t) t.val (lt10_1 t) (rows1 V c t) (whole1_1 V c t) (fun q => (whole1_2 V c t q).trans (hzero q)) p q

/-- An index of the output array is in point `t`'s block iff each coordinate is in the block's range. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v37).slice (win1_3.rect t)).set ↔ _
  rw [View.set_slice_whole, Rect.mem_set_unit]
  exact Iff.rfl

/-- Row `r` lies in the block of point `r / 10000`: the ten blocks cover the array. -/
theorem covered1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  refine ⟨⟨(i 0).val / 10000, by show _ < grid1.N; rw [N_1]; omega⟩, flush1_3 _, ?_⟩
  rw [mem_blk1]
  obtain ⟨e0, e1, e2, e3, e4, e5, e6⟩ := idx1 ⟨(i 0).val / 10000, by show _ < grid1.N; rw [N_1]; omega⟩
  intro a
  match a with
  | ⟨0, _⟩ => show win1_3.index _ (0 : Fin 2) * 10000 ≤ (i 0).val ∧ (i 0).val < win1_3.index _ (0 : Fin 2) * 10000 + 10000; rw [e5]; show (i 0).val / 10000 * 10000 ≤ (i 0).val ∧ (i 0).val < (i 0).val / 10000 * 10000 + 10000; omega
  | ⟨1, _⟩ => show win1_3.index _ (1 : Fin 2) * 64 ≤ (i 1).val ∧ (i 1).val < win1_3.index _ (1 : Fin 2) * 64 + 64; rw [e6]; omega

/-- The output array after the call is the layer of the input arrays as the call found them. -/
theorem final1 (c : Dev nD) (hzero : ∀ q : Fin 64, V c (Pipeline.arrRef spec1 2) (ix1 q) = (0 : EReal)) : (dat1 V c).arrAt 3 cfg1.N = Cert.Layers.lin (F := Ideal) (V c (Pipeline.arrRef spec1 0)) (V c (Pipeline.arrRef spec1 1)) :=
  (dat1 V c).arrAt_eq_of_cover 3 _ (fun t _ => flushed1_eq V c hzero t) (covered1)

end Cert.KernelIdeal.Calls

end
-- ==== Proof.IdealValue2.lean ====
/-
  What Pallas call 2 leaves in its output array, at the ideal instance: block `t` of the output is rows
  `[10000 t, 10000 (t+1))`, the row-block input is the same rows of its array, the small operands are whole; the ten
  blocks tile the 100000 rows, so the array ends as one host-form layer of the input arrays.
-/
import proofs.«145378_j26474178413288_1_alg».proof.Proof.IdealCall2
import proofs.«145378_j26474178413288_1_alg».proof.Proof.LayerAtIndex
import Idealize.ShloMosaic.Lib.Pipeline.Value
import Idealize.ShloMosaic.Lib.ValueIdx

set_option maxRecDepth 16384

noncomputable section

namespace Cert.KernelIdeal.Calls

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_2 : (![0, 0] : Fin 2 → Nat) = fun _ => 0 := funext fun a => by fin_cases a <;> rfl
theorem zero1_2 : (![0] : Fin 1 → Nat) = fun _ => 0 := funext fun a => by fin_cases a <;> rfl

/-- The printed index maps over the grid: the row-block windows move with the point, the small operands stay. -/
theorem idx2 : ∀ t : Fin cfg2.N, win2_0.index t (0 : Fin 2) = t.val
    ∧ win2_0.index t (1 : Fin 2) = 0
    ∧ win2_1.index t (0 : Fin 1) = 0
    ∧ win2_2.index t (0 : Fin 2) = t.val
    ∧ win2_2.index t (1 : Fin 2) = 0 :=
  (by decide +kernel : ∀ t : Fin grid2.N, _)

theorem lt10_2 (t : Fin cfg2.N) : t.val < 10 := (show t.val < grid2.N from t.isLt).trans_eq N_2

/-- The row block at point `t` is rows `10000 t + p` of its array. -/
theorem rows2 (c : Dev nD) (t : Fin cfg2.N) (p : Fin 10000) (k : Fin 64) :
    iblk2 V c 0 t (ix2 p k) = V c (Pipeline.arrRef spec2 0) (ix2 ⟨t.val * 10000 + p.val, by have := lt10_2 t; omega⟩ k) := by
  obtain ⟨e0, e1, e2, e3, e4⟩ := idx2 t
  show V c (Pipeline.arrRef spec2 0) (((cfg2.win 0).blk t).view.emb (ix2 p k)) = _
  refine congrArg _ (funext fun a => Fin.ext ?_)
  match a with
  | ⟨0, _⟩ => show win2_0.index t (0 : Fin 2) * 10000 + 1 * p.val = t.val * 10000 + p.val; omega
  | ⟨1, _⟩ => show win2_0.index t (1 : Fin 2) * 64 + 1 * k.val = k.val; omega

/-- The bias block is the whole bias vector. -/
theorem whole2_1 (c : Dev nD) (t : Fin cfg2.N) (q : Fin 64) :
    iblk2 V c 1 t (ix1 q) = V c (Pipeline.arrRef spec2 1) (ix1 q) := by
  obtain ⟨e0, e1, e2, e3, e4⟩ := idx2 t
  show V c (Pipeline.arrRef spec2 1) (((cfg2.win 1).blk t).view.emb (ix1 q)) = _
  refine congrArg _ (funext fun a => Fin.ext ?_)
  match a with
  | ⟨0, _⟩ => show win2_1.index t (0 : Fin 1) * 64 + 1 * q.val = q.val; omega

/-- What point `t` writes back is block `t` of the layer of the input arrays. -/
theorem flushed2_eq (c : Dev nD) (t : Fin cfg2.N) :
    (dat2 V c).flushed 2 t = ((cfg2.win 2).blk t).view.read (Elt Ideal) (Cert.Layers.biasRelu (F := Ideal) (V c (Pipeline.arrRef spec2 0)) (V c (Pipeline.arrRef spec2 1))) := by
  show (cfg2.win 2).cut (grid2.coords t) ((dat2 V c).after 2 t) = _
  rw [after2_2]
  unfold out2
  rw [View.canon_unit_zero zero2_2]
  simp only [View.ld_unit_zero (S := S10000x64) zero2_2, View.ld_unit_zero (S := S64) zero1_2]
  obtain ⟨e0, e1, e2, e3, e4⟩ := idx2 t
  funext j
  obtain ⟨p, q, rfl⟩ : ∃ (p : Fin 10000) (q : Fin 64), j = ix2 p q := ⟨j 0, j 1, eq_ix2 j⟩
  have hemb : ((cfg2.win 2).blk t).view.emb (ix2 p q) = ix2 ⟨t.val * 10000 + p.val, by have := lt10_2 t; omega⟩ q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  show k2_pay1 (iblk2 V c 0 t) (iblk2 V c 1 t) (ix2 p q) = (Cert.Layers.biasRelu (F := Ideal) (V c (Pipeline.arrRef spec2 0)) (V c (Pipeline.arrRef spec2 1))) (((cfg2.win 2).blk t).view.emb (ix2 p q))
  rw [hemb]
  exact Cert.Layers.AtIndex.biasRelu_block2 (V c (Pipeline.arrRef spec2 0)) (V c (Pipeline.arrRef spec2 1)) (iblk2 V c 0 t) (iblk2 V c 1 t) t.val (lt10_2 t) (rows2 V c t) (whole2_1 V c t) p q

/-- An index of the output array is in point `t`'s block iff each coordinate is in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v53).slice (win2_2.rect t)).set ↔ _
  rw [View.set_slice_whole, Rect.mem_set_unit]
  exact Iff.rfl

/-- Row `r` lies in the block of point `r / 10000`: the ten blocks cover the array. -/
theorem covered2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 10000, by show _ < grid2.N; rw [N_2]; omega⟩, flush2_2 _, ?_⟩
  rw [mem_blk2]
  obtain ⟨e0, e1, e2, e3, e4⟩ := idx2 ⟨(i 0).val / 10000, by show _ < grid2.N; rw [N_2]; omega⟩
  intro a
  match a with
  | ⟨0, _⟩ => show win2_2.index _ (0 : Fin 2) * 10000 ≤ (i 0).val ∧ (i 0).val < win2_2.index _ (0 : Fin 2) * 10000 + 10000; rw [e3]; show (i 0).val / 10000 * 10000 ≤ (i 0).val ∧ (i 0).val < (i 0).val / 10000 * 10000 + 10000; omega
  | ⟨1, _⟩ => show win2_2.index _ (1 : Fin 2) * 64 ≤ (i 1).val ∧ (i 1).val < win2_2.index _ (1 : Fin 2) * 64 + 64; rw [e4]; omega

/-- The output array after the call is the layer of the input arrays as the call found them. -/
theorem final2 (c : Dev nD) : (dat2 V c).arrAt 2 cfg2.N = Cert.Layers.biasRelu (F := Ideal) (V c (Pipeline.arrRef spec2 0)) (V c (Pipeline.arrRef spec2 1)) :=
  (dat2 V c).arrAt_eq_of_cover 2 _ (fun t _ => flushed2_eq V c t) (covered2)

end Cert.KernelIdeal.Calls

end
-- ==== Proof.IdealValue3.lean ====
/-
  What Pallas call 3 leaves in its output array, at the ideal instance: block `t` of the output is rows
  `[10000 t, 10000 (t+1))`, the row-block input is the same rows of its array, the small operands are whole; the ten
  blocks tile the 100000 rows, so the array ends as one host-form layer of the input arrays.
-/
import proofs.«145378_j26474178413288_1_alg».proof.Proof.IdealCall3
import proofs.«145378_j26474178413288_1_alg».proof.Proof.LayerAtIndex
import Idealize.ShloMosaic.Lib.Pipeline.Value
import Idealize.ShloMosaic.Lib.ValueIdx

set_option maxRecDepth 16384

noncomputable section

namespace Cert.KernelIdeal.Calls

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_3 : (![0, 0] : Fin 2 → Nat) = fun _ => 0 := funext fun a => by fin_cases a <;> rfl
theorem zero1_3 : (![0] : Fin 1 → Nat) = fun _ => 0 := funext fun a => by fin_cases a <;> rfl

/-- The printed index maps over the grid: the row-block windows move with the point, the small operands stay. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 1) = 0
    ∧ win3_3.index t (0 : Fin 2) = t.val
    ∧ win3_3.index t (1 : Fin 2) = 0 :=
  (by decide +kernel : ∀ t : Fin grid3.N, _)

theorem lt10_3 (t : Fin cfg3.N) : t.val < 10 := (show t.val < grid3.N from t.isLt).trans_eq N_3

/-- The row block at point `t` is rows `10000 t + p` of its array. -/
theorem rows3 (c : Dev nD) (t : Fin cfg3.N) (p : Fin 10000) (k : Fin 64) :
    iblk3 V c 0 t (ix2 p k) = V c (Pipeline.arrRef spec3 0) (ix2 ⟨t.val * 10000 + p.val, by have := lt10_3 t; omega⟩ k) := by
  obtain ⟨e0, e1, e2, e3, e4, e5, e6⟩ := idx3 t
  show V c (Pipeline.arrRef spec3 0) (((cfg3.win 0).blk t).view.emb (ix2 p k)) = _
  refine congrArg _ (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * k.val = k.val; omega

/-- The weight block is the whole weight array. -/
theorem whole3_1 (c : Dev nD) (t : Fin cfg3.N) (k : Fin 64) (q : Fin 64) :
    iblk3 V c 1 t (ix2 k q) = V c (Pipeline.arrRef spec3 1) (ix2 k q) := by
  obtain ⟨e0, e1, e2, e3, e4, e5, e6⟩ := idx3 t
  show V c (Pipeline.arrRef spec3 1) (((cfg3.win 1).blk t).view.emb (ix2 k q)) = _
  refine congrArg _ (funext fun a => Fin.ext ?_)
  match a with
  | ⟨0, _⟩ => show win3_1.index t (0 : Fin 2) * 64 + 1 * k.val = k.val; omega
  | ⟨1, _⟩ => show win3_1.index t (1 : Fin 2) * 64 + 1 * q.val = q.val; omega

/-- The bias block is the whole bias vector. -/
theorem whole3_2 (c : Dev nD) (t : Fin cfg3.N) (q : Fin 64) :
    iblk3 V c 2 t (ix1 q) = V c (Pipeline.arrRef spec3 2) (ix1 q) := by
  obtain ⟨e0, e1, e2, e3, e4, e5, e6⟩ := idx3 t
  show V c (Pipeline.arrRef spec3 2) (((cfg3.win 2).blk t).view.emb (ix1 q)) = _
  refine congrArg _ (funext fun a => Fin.ext ?_)
  match a with
  | ⟨0, _⟩ => show win3_2.index t (0 : Fin 1) * 64 + 1 * q.val = q.val; omega

/-- What point `t` writes back is block `t` of the layer of the input arrays. -/
theorem flushed3_eq (c : Dev nD) (hzero : ∀ q : Fin 64, V c (Pipeline.arrRef spec3 2) (ix1 q) = (0 : EReal)) (t : Fin cfg3.N) :
    (dat3 V c).flushed 3 t = ((cfg3.win 3).blk t).view.read (Elt Ideal) (Cert.Layers.lin (F := Ideal) (V c (Pipeline.arrRef spec3 0)) (V c (Pipeline.arrRef spec3 1))) := by
  show (cfg3.win 3).cut (grid3.coords t) ((dat3 V c).after 3 t) = _
  rw [after3_3]
  unfold out3
  rw [View.canon_unit_zero zero2_3]
  simp only [View.ld_unit_zero (S := S10000x64) zero2_3, View.ld_unit_zero (S := S64x64) zero2_3, View.ld_unit_zero (S := S64) zero1_3]
  obtain ⟨e0, e1, e2, e3, e4, e5, e6⟩ := idx3 t
  funext j
  obtain ⟨p, q, rfl⟩ : ∃ (p : Fin 10000) (q : Fin 64), j = ix2 p q := ⟨j 0, j 1, eq_ix2 j⟩
  have hemb : ((cfg3.win 3).blk t).view.emb (ix2 p q) = ix2 ⟨t.val * 10000 + p.val, by have := lt10_3 t; omega⟩ q := by
    funext a; apply Fin.ext
    match a with
    | ⟨0, _⟩ => show win3_3.index t (0 : Fin 2) * 10000 + 1 * p.val = t.val * 10000 + p.val; omega
    | ⟨1, _⟩ => show win3_3.index t (1 : Fin 2) * 64 + 1 * q.val = q.val; omega
  show k3_pay1 (iblk3 V c 0 t) (iblk3 V c 1 t) (iblk3 V c 2 t) (ix2 p q) = (Cert.Layers.lin (F := Ideal) (V c (Pipeline.arrRef spec3 0)) (V c (Pipeline.arrRef spec3 1))) (((cfg3.win 3).blk t).view.emb (ix2 p q))
  rw [hemb]
  exact Cert.Layers.AtIndex.lin_block3 (V c (Pipeline.arrRef spec3 0)) (V c (Pipeline.arrRef spec3 1)) (iblk3 V c 0 t) (iblk3 V c 1 t) (iblk3 V c 2 t) t.val (lt10_3 t) (rows3 V c t) (whole3_1 V c t) (fun q => (whole3_2 V c t q).trans (hzero q)) p q

/-- An index of the output array is in point `t`'s block iff each coordinate is in the block's range. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v56).slice (win3_3.rect t)).set ↔ _
  rw [View.set_slice_whole, Rect.mem_set_unit]
  exact Iff.rfl

/-- Row `r` lies in the block of point `r / 10000`: the ten blocks cover the array. -/
theorem covered3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  refine ⟨⟨(i 0).val / 10000, by show _ < grid3.N; rw [N_3]; omega⟩, flush3_3 _, ?_⟩
  rw [mem_blk3]
  obtain ⟨e0, e1, e2, e3, e4, e5, e6⟩ := idx3 ⟨(i 0).val / 10000, by show _ < grid3.N; rw [N_3]; omega⟩
  intro a
  match a with
  | ⟨0, _⟩ => show win3_3.index _ (0 : Fin 2) * 10000 ≤ (i 0).val ∧ (i 0).val < win3_3.index _ (0 : Fin 2) * 10000 + 10000; rw [e5]; show (i 0).val / 10000 * 10000 ≤ (i 0).val ∧ (i 0).val < (i 0).val / 10000 * 10000 + 10000; omega
  | ⟨1, _⟩ => show win3_3.index _ (1 : Fin 2) * 64 ≤ (i 1).val ∧ (i 1).val < win3_3.index _ (1 : Fin 2) * 64 + 64; rw [e6]; omega

/-- The output array after the call is the layer of the input arrays as the call found them. -/
theorem final3 (c : Dev nD) (hzero : ∀ q : Fin 64, V c (Pipeline.arrRef spec3 2) (ix1 q) = (0 : EReal)) : (dat3 V c).arrAt 3 cfg3.N = Cert.Layers.lin (F := Ideal) (V c (Pipeline.arrRef spec3 0)) (V c (Pipeline.arrRef spec3 1)) :=
  (dat3 V c).arrAt_eq_of_cover 3 _ (fun t _ => flushed3_eq V c hzero t) (covered3)

end Cert.KernelIdeal.Calls

end
-- ==== Proof.IdealValue4.lean ====
/-
  What Pallas call 4 leaves in its output array, at the ideal instance: block `t` of the output is rows
  `[10000 t, 10000 (t+1))`, the row-block input is the same rows of its array, the small operands are whole; the ten
  blocks tile the 100000 rows, so the array ends as one host-form layer of the input arrays.
-/
import proofs.«145378_j26474178413288_1_alg».proof.Proof.IdealCall4
import proofs.«145378_j26474178413288_1_alg».proof.Proof.LayerAtIndex
import Idealize.ShloMosaic.Lib.Pipeline.Value
import Idealize.ShloMosaic.Lib.ValueIdx

set_option maxRecDepth 16384

noncomputable section

namespace Cert.KernelIdeal.Calls

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_4 : (![0, 0] : Fin 2 → Nat) = fun _ => 0 := funext fun a => by fin_cases a <;> rfl
theorem zero1_4 : (![0] : Fin 1 → Nat) = fun _ => 0 := funext fun a => by fin_cases a <;> rfl

/-- The printed index maps over the grid: the row-block windows move with the point, the small operands stay. -/
theorem idx4 : ∀ t : Fin cfg4.N, win4_0.index t (0 : Fin 2) = t.val
    ∧ win4_0.index t (1 : Fin 2) = 0
    ∧ win4_1.index t (0 : Fin 1) = 0
    ∧ win4_2.index t (0 : Fin 2) = t.val
    ∧ win4_2.index t (1 : Fin 2) = 0 :=
  (by decide +kernel : ∀ t : Fin grid4.N, _)

theorem lt10_4 (t : Fin cfg4.N) : t.val < 10 := (show t.val < grid4.N from t.isLt).trans_eq N_4

/-- The row block at point `t` is rows `10000 t + p` of its array. -/
theorem rows4 (c : Dev nD) (t : Fin cfg4.N) (p : Fin 10000) (k : Fin 64) :
    iblk4 V c 0 t (ix2 p k) = V c (Pipeline.arrRef spec4 0) (ix2 ⟨t.val * 10000 + p.val, by have := lt10_4 t; omega⟩ k) := by
  obtain ⟨e0, e1, e2, e3, e4⟩ := idx4 t
  show V c (Pipeline.arrRef spec4 0) (((cfg4.win 0).blk t).view.emb (ix2 p k)) = _
  refine congrArg _ (funext fun a => Fin.ext ?_)
  match a with
  | ⟨0, _⟩ => show win4_0.index t (0 : Fin 2) * 10000 + 1 * p.val = t.val * 10000 + p.val; omega
  | ⟨1, _⟩ => show win4_0.index t (1 : Fin 2) * 64 + 1 * k.val = k.val; omega

/-- The bias block is the whole bias vector. -/
theorem whole4_1 (c : Dev nD) (t : Fin cfg4.N) (q : Fin 64) :
    iblk4 V c 1 t (ix1 q) = V c (Pipeline.arrRef spec4 1) (ix1 q) := by
  obtain ⟨e0, e1, e2, e3, e4⟩ := idx4 t
  show V c (Pipeline.arrRef spec4 1) (((cfg4.win 1).blk t).view.emb (ix1 q)) = _
  refine congrArg _ (funext fun a => Fin.ext ?_)
  match a with
  | ⟨0, _⟩ => show win4_1.index t (0 : Fin 1) * 64 + 1 * q.val = q.val; omega

/-- What point `t` writes back is block `t` of the layer of the input arrays. -/
theorem flushed4_eq (c : Dev nD) (t : Fin cfg4.N) :
    (dat4 V c).flushed 2 t = ((cfg4.win 2).blk t).view.read (Elt Ideal) (Cert.Layers.biasRelu (F := Ideal) (V c (Pipeline.arrRef spec4 0)) (V c (Pipeline.arrRef spec4 1))) := by
  show (cfg4.win 2).cut (grid4.coords t) ((dat4 V c).after 2 t) = _
  rw [after4_2]
  unfold out4
  rw [View.canon_unit_zero zero2_4]
  simp only [View.ld_unit_zero (S := S10000x64) zero2_4, View.ld_unit_zero (S := S64) zero1_4]
  obtain ⟨e0, e1, e2, e3, e4⟩ := idx4 t
  funext j
  obtain ⟨p, q, rfl⟩ : ∃ (p : Fin 10000) (q : Fin 64), j = ix2 p q := ⟨j 0, j 1, eq_ix2 j⟩
  have hemb : ((cfg4.win 2).blk t).view.emb (ix2 p q) = ix2 ⟨t.val * 10000 + p.val, by have := lt10_4 t; omega⟩ q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  show k4_pay1 (iblk4 V c 0 t) (iblk4 V c 1 t) (ix2 p q) = (Cert.Layers.biasRelu (F := Ideal) (V c (Pipeline.arrRef spec4 0)) (V c (Pipeline.arrRef spec4 1))) (((cfg4.win 2).blk t).view.emb (ix2 p q))
  rw [hemb]
  exact Cert.Layers.AtIndex.biasRelu_block4 (V c (Pipeline.arrRef spec4 0)) (V c (Pipeline.arrRef spec4 1)) (iblk4 V c 0 t) (iblk4 V c 1 t) t.val (lt10_4 t) (rows4 V c t) (whole4_1 V c t) p q

/-- An index of the output array is in point `t`'s block iff each coordinate is in the block's range. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v72).slice (win4_2.rect t)).set ↔ _
  rw [View.set_slice_whole, Rect.mem_set_unit]
  exact Iff.rfl

/-- Row `r` lies in the block of point `r / 10000`: the ten blocks cover the array. -/
theorem covered4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  refine ⟨⟨(i 0).val / 10000, by show _ < grid4.N; rw [N_4]; omega⟩, flush4_2 _, ?_⟩
  rw [mem_blk4]
  obtain ⟨e0, e1, e2, e3, e4⟩ := idx4 ⟨(i 0).val / 10000, by show _ < grid4.N; rw [N_4]; omega⟩
  intro a
  match a with
  | ⟨0, _⟩ => show win4_2.index _ (0 : Fin 2) * 10000 ≤ (i 0).val ∧ (i 0).val < win4_2.index _ (0 : Fin 2) * 10000 + 10000; rw [e3]; show (i 0).val / 10000 * 10000 ≤ (i 0).val ∧ (i 0).val < (i 0).val / 10000 * 10000 + 10000; omega
  | ⟨1, _⟩ => show win4_2.index _ (1 : Fin 2) * 64 ≤ (i 1).val ∧ (i 1).val < win4_2.index _ (1 : Fin 2) * 64 + 64; rw [e4]; omega

/-- The output array after the call is the layer of the input arrays as the call found them. -/
theorem final4 (c : Dev nD) : (dat4 V c).arrAt 2 cfg4.N = Cert.Layers.biasRelu (F := Ideal) (V c (Pipeline.arrRef spec4 0)) (V c (Pipeline.arrRef spec4 1)) :=
  (dat4 V c).arrAt_eq_of_cover 2 _ (fun t _ => flushed4_eq V c t) (covered4)

end Cert.KernelIdeal.Calls

end
-- ==== Proof.IdealValue5.lean ====
/-
  What Pallas call 5 leaves in its output array, at the ideal instance: block `t` of the output is rows
  `[10000 t, 10000 (t+1))`, the row-block input is the same rows of its array, the small operands are whole; the ten
  blocks tile the 100000 rows, so the array ends as one host-form layer of the input arrays.
-/
import proofs.«145378_j26474178413288_1_alg».proof.Proof.IdealCall5
import proofs.«145378_j26474178413288_1_alg».proof.Proof.LayerAtIndex
import Idealize.ShloMosaic.Lib.Pipeline.Value
import Idealize.ShloMosaic.Lib.ValueIdx

set_option maxRecDepth 16384

noncomputable section

namespace Cert.KernelIdeal.Calls

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_5 : (![0, 0] : Fin 2 → Nat) = fun _ => 0 := funext fun a => by fin_cases a <;> rfl
theorem zero1_5 : (![0] : Fin 1 → Nat) = fun _ => 0 := funext fun a => by fin_cases a <;> rfl

/-- The printed index maps over the grid: the row-block windows move with the point, the small operands stay. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 1) = 0
    ∧ win5_3.index t (0 : Fin 2) = t.val
    ∧ win5_3.index t (1 : Fin 2) = 0 :=
  (by decide +kernel : ∀ t : Fin grid5.N, _)

theorem lt10_5 (t : Fin cfg5.N) : t.val < 10 := (show t.val < grid5.N from t.isLt).trans_eq N_5

/-- The row block at point `t` is rows `10000 t + p` of its array. -/
theorem rows5 (c : Dev nD) (t : Fin cfg5.N) (p : Fin 10000) (k : Fin 192) :
    iblk5 V c 0 t (ix2 p k) = V c (Pipeline.arrRef spec5 0) (ix2 ⟨t.val * 10000 + p.val, by have := lt10_5 t; omega⟩ k) := by
  obtain ⟨e0, e1, e2, e3, e4, e5, e6⟩ := idx5 t
  show V c (Pipeline.arrRef spec5 0) (((cfg5.win 0).blk t).view.emb (ix2 p k)) = _
  refine congrArg _ (funext fun a => Fin.ext ?_)
  match a with
  | ⟨0, _⟩ => show win5_0.index t (0 : Fin 2) * 10000 + 1 * p.val = t.val * 10000 + p.val; omega
  | ⟨1, _⟩ => show win5_0.index t (1 : Fin 2) * 192 + 1 * k.val = k.val; omega

/-- The weight block is the whole weight array. -/
theorem whole5_1 (c : Dev nD) (t : Fin cfg5.N) (k : Fin 192) (q : Fin 40) :
    iblk5 V c 1 t (ix2 k q) = V c (Pipeline.arrRef spec5 1) (ix2 k q) := by
  obtain ⟨e0, e1, e2, e3, e4, e5, e6⟩ := idx5 t
  show V c (Pipeline.arrRef spec5 1) (((cfg5.win 1).blk t).view.emb (ix2 k q)) = _
  refine congrArg _ (funext fun a => Fin.ext ?_)
  match a with
  | ⟨0, _⟩ => show win5_1.index t (0 : Fin 2) * 192 + 1 * k.val = k.val; omega
  | ⟨1, _⟩ => show win5_1.index t (1 : Fin 2) * 40 + 1 * q.val = q.val; omega

/-- The bias block is the whole bias vector. -/
theorem whole5_2 (c : Dev nD) (t : Fin cfg5.N) (q : Fin 40) :
    iblk5 V c 2 t (ix1 q) = V c (Pipeline.arrRef spec5 2) (ix1 q) := by
  obtain ⟨e0, e1, e2, e3, e4, e5, e6⟩ := idx5 t
  show V c (Pipeline.arrRef spec5 2) (((cfg5.win 2).blk t).view.emb (ix1 q)) = _
  refine congrArg _ (funext fun a => Fin.ext ?_)
  match a with
  | ⟨0, _⟩ => show win5_2.index t (0 : Fin 1) * 40 + 1 * q.val = q.val; omega

/-- What point `t` writes back is block `t` of the layer of the input arrays. -/
theorem flushed5_eq (c : Dev nD) (t : Fin cfg5.N) :
    (dat5 V c).flushed 3 t = ((cfg5.win 3).blk t).view.read (Elt Ideal) (Cert.Layers.linBias (F := Ideal) (V c (Pipeline.arrRef spec5 0)) (V c (Pipeline.arrRef spec5 1)) (V c (Pipeline.arrRef spec5 2))) := by
  show (cfg5.win 3).cut (grid5.coords t) ((dat5 V c).after 3 t) = _
  rw [after5_3]
  unfold out5
  rw [View.canon_unit_zero zero2_5]
  simp only [View.ld_unit_zero (S := S10000x192) zero2_5, View.ld_unit_zero (S := S192x40) zero2_5, View.ld_unit_zero (S := S40) zero1_5]
  obtain ⟨e0, e1, e2, e3, e4, e5, e6⟩ := idx5 t
  funext j
  obtain ⟨p, q, rfl⟩ : ∃ (p : Fin 10000) (q : Fin 40), j = ix2 p q := ⟨j 0, j 1, eq_ix2 j⟩
  have hemb : ((cfg5.win 3).blk t).view.emb (ix2 p q) = ix2 ⟨t.val * 10000 + p.val, by have := lt10_5 t; omega⟩ q := by
    funext a; apply Fin.ext
    match a with
    | ⟨0, _⟩ => show win5_3.index t (0 : Fin 2) * 10000 + 1 * p.val = t.val * 10000 + p.val; omega
    | ⟨1, _⟩ => show win5_3.index t (1 : Fin 2) * 40 + 1 * q.val = q.val; omega
  show k5_pay1 (iblk5 V c 0 t) (iblk5 V c 1 t) (iblk5 V c 2 t) (ix2 p q) = (Cert.Layers.linBias (F := Ideal) (V c (Pipeline.arrRef spec5 0)) (V c (Pipeline.arrRef spec5 1)) (V c (Pipeline.arrRef spec5 2))) (((cfg5.win 3).blk t).view.emb (ix2 p q))
  rw [hemb]
  exact Cert.Layers.AtIndex.linBias_block (V c (Pipeline.arrRef spec5 0)) (V c (Pipeline.arrRef spec5 1)) (V c (Pipeline.arrRef spec5 2)) (iblk5 V c 0 t) (iblk5 V c 1 t) (iblk5 V c 2 t) t.val (lt10_5 t) (rows5 V c t) (whole5_1 V c t) (whole5_2 V c t) p q

/-- An index of the output array is in point `t`'s block iff each coordinate is in the block's range. -/
theorem mem_blk5 (t : Fin cfg5.N) (i : S100000x40.Idx) :
    i ∈ ((cfg5.win 3).blk t).view.set ↔ ∀ a : Fin 2, win5_3.index t a * S10000x40.size a ≤ (i a).val ∧ (i a).val < win5_3.index t a * S10000x40.size a + S10000x40.size a := by
  show i ∈ ((View.whole main_v74).slice (win5_3.rect t)).set ↔ _
  rw [View.set_slice_whole, Rect.mem_set_unit]
  exact Iff.rfl

/-- Row `r` lies in the block of point `r / 10000`: the ten blocks cover the array. -/
theorem covered5 (i : S100000x40.Idx) : ∃ t : Fin cfg5.N, (cfg5.win 3).flush t = true ∧ i ∈ ((cfg5.win 3).blk t).view.set := by
  have hi0 : (i 0).val < 100000 := (i 0).isLt
  have hi1 : (i 1).val < 40 := (i 1).isLt
  refine ⟨⟨(i 0).val / 10000, by show _ < grid5.N; rw [N_5]; omega⟩, flush5_3 _, ?_⟩
  rw [mem_blk5]
  obtain ⟨e0, e1, e2, e3, e4, e5, e6⟩ := idx5 ⟨(i 0).val / 10000, by show _ < grid5.N; rw [N_5]; omega⟩
  intro a
  match a with
  | ⟨0, _⟩ => show win5_3.index _ (0 : Fin 2) * 10000 ≤ (i 0).val ∧ (i 0).val < win5_3.index _ (0 : Fin 2) * 10000 + 10000; rw [e5]; show (i 0).val / 10000 * 10000 ≤ (i 0).val ∧ (i 0).val < (i 0).val / 10000 * 10000 + 10000; omega
  | ⟨1, _⟩ => show win5_3.index _ (1 : Fin 2) * 40 ≤ (i 1).val ∧ (i 1).val < win5_3.index _ (1 : Fin 2) * 40 + 40; rw [e6]; omega

/-- The output array after the call is the layer of the input arrays as the call found them. -/
theorem final5 (c : Dev nD) : (dat5 V c).arrAt 3 cfg5.N = Cert.Layers.linBias (F := Ideal) (V c (Pipeline.arrRef spec5 0)) (V c (Pipeline.arrRef spec5 1)) (V c (Pipeline.arrRef spec5 2)) :=
  (dat5 V c).arrAt_eq_of_cover 3 _ (fun t _ => flushed5_eq V c t) (covered5)

end Cert.KernelIdeal.Calls

end
-- ==== Proof.IdealStages.lean ====
/-
  The kernel's buffers, boundary by boundary, are the reference's own stages of the argument arrays (at the ideal
  instance).  The graph normalisation, the two gather–scale–scatter aggregations and the concatenation are the same host
  operations in both programs, so each stretch's results are the reference's stages of the stretch's inputs by
  unfolding; each Pallas call's output array is a dense layer of its input arrays (a matrix product with a row bias and
  possibly a positive part), which is the reference's stage for that layer.  The convolutions' zero bias adds nothing.
-/
import proofs.«145378_j26474178413288_1_alg».proof.Proof.IdealRun
import proofs.«145378_j26474178413288_1_alg».proof.Proof.IdealValue0
import proofs.«145378_j26474178413288_1_alg».proof.Proof.IdealValue1
import proofs.«145378_j26474178413288_1_alg».proof.Proof.IdealValue2
import proofs.«145378_j26474178413288_1_alg».proof.Proof.IdealValue3
import proofs.«145378_j26474178413288_1_alg».proof.Proof.IdealValue4
import proofs.«145378_j26474178413288_1_alg».proof.Proof.IdealValue5
import proofs.«145378_j26474178413288_1_alg».proof.Proof.RefRead
import proofs.«145378_j26474178413288_1_alg».proof.Proof.LayerSpec
import Idealize.ShloMosaic.Lib.StableHlo.Run
import Idealize.ShloMosaic.Lib.IdealHost
import Idealize.ShloMosaic.Lib.ValueIdx
import Idealize.ShloMosaic.PureOps.Ideal.Laws

set_option maxRecDepth 16384

noncomputable section

namespace Cert.KernelIdeal.Calls

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg) (c : Dev nD)

/-! ## The argument arrays, where an item reads them -/

theorem arg_3_0 : B3 m ρ c (Proc.devRef .tc main_arg0) = (m ((c : Thread nD τ).loc main_arg0)) :=
  (keep3 m ρ c main_arg0 (by decide)).trans <| (keep2 m ρ c main_arg0 (by decide)).trans <| (keep1 m ρ c main_arg0 (by decide)).trans <| rfl
theorem arg_3_2 : B3 m ρ c (Proc.devRef .tc main_arg2) = (m ((c : Thread nD τ).loc main_arg2)) :=
  (keep3 m ρ c main_arg2 (by decide)).trans <| (keep2 m ρ c main_arg2 (by decide)).trans <| (keep1 m ρ c main_arg2 (by decide)).trans <| rfl
theorem arg_3_3 : B3 m ρ c (Proc.devRef .tc main_arg3) = (m ((c : Thread nD τ).loc main_arg3)) :=
  (keep3 m ρ c main_arg3 (by decide)).trans <| (keep2 m ρ c main_arg3 (by decide)).trans <| (keep1 m ρ c main_arg3 (by decide)).trans <| rfl
theorem arg_4_4 : B4 m ρ c (Proc.devRef .tc main_arg4) = (m ((c : Thread nD τ).loc main_arg4)) :=
  (keep4 m ρ c main_arg4 (by decide)).trans <| (keep3 m ρ c main_arg4 (by decide)).trans <| (keep2 m ρ c main_arg4 (by decide)).trans <| (keep1 m ρ c main_arg4 (by decide)).trans <| rfl
theorem arg_5_0 : B5 m ρ c (Proc.devRef .tc main_arg0) = (m ((c : Thread nD τ).loc main_arg0)) :=
  (keep5 m ρ c main_arg0 (by decide)).trans <| (keep4 m ρ c main_arg0 (by decide)).trans <| (keep3 m ρ c main_arg0 (by decide)).trans <| (keep2 m ρ c main_arg0 (by decide)).trans <| (keep1 m ρ c main_arg0 (by decide)).trans <| rfl
theorem arg_6_5 : B6 m ρ c (Proc.devRef .tc main_arg5) = (m ((c : Thread nD τ).loc main_arg5)) :=
  (keep6 m ρ c main_arg5 (by decide)).trans <| (keep5 m ρ c main_arg5 (by decide)).trans <| (keep4 m ρ c main_arg5 (by decide)).trans <| (keep3 m ρ c main_arg5 (by decide)).trans <| (keep2 m ρ c main_arg5 (by decide)).trans <| (keep1 m ρ c main_arg5 (by decide)).trans <| rfl
theorem arg_8_4 : B8 m ρ c (Proc.devRef .tc main_arg4) = (m ((c : Thread nD τ).loc main_arg4)) :=
  (keep8 m ρ c main_arg4 (by decide)).trans <| (keep7 m ρ c main_arg4 (by decide)).trans <| (keep6 m ρ c main_arg4 (by decide)).trans <| (keep5 m ρ c main_arg4 (by decide)).trans <| (keep4 m ρ c main_arg4 (by decide)).trans <| (keep3 m ρ c main_arg4 (by decide)).trans <| (keep2 m ρ c main_arg4 (by decide)).trans <| (keep1 m ρ c main_arg4 (by decide)).trans <| rfl
theorem arg_10_5 : B10 m ρ c (Proc.devRef .tc main_arg5) = (m ((c : Thread nD τ).loc main_arg5)) :=
  (keep10 m ρ c main_arg5 (by decide)).trans <| (keep9 m ρ c main_arg5 (by decide)).trans <| (keep8 m ρ c main_arg5 (by decide)).trans <| (keep7 m ρ c main_arg5 (by decide)).trans <| (keep6 m ρ c main_arg5 (by decide)).trans <| (keep5 m ρ c main_arg5 (by decide)).trans <| (keep4 m ρ c main_arg5 (by decide)).trans <| (keep3 m ρ c main_arg5 (by decide)).trans <| (keep2 m ρ c main_arg5 (by decide)).trans <| (keep1 m ρ c main_arg5 (by decide)).trans <| rfl
theorem arg_13_6 : B13 m ρ c (Proc.devRef .tc main_arg6) = (m ((c : Thread nD τ).loc main_arg6)) :=
  (keep13 m ρ c main_arg6 (by decide)).trans <| (keep12 m ρ c main_arg6 (by decide)).trans <| (keep11 m ρ c main_arg6 (by decide)).trans <| (keep10 m ρ c main_arg6 (by decide)).trans <| (keep9 m ρ c main_arg6 (by decide)).trans <| (keep8 m ρ c main_arg6 (by decide)).trans <| (keep7 m ρ c main_arg6 (by decide)).trans <| (keep6 m ρ c main_arg6 (by decide)).trans <| (keep5 m ρ c main_arg6 (by decide)).trans <| (keep4 m ρ c main_arg6 (by decide)).trans <| (keep3 m ρ c main_arg6 (by decide)).trans <| (keep2 m ρ c main_arg6 (by decide)).trans <| (keep1 m ρ c main_arg6 (by decide)).trans <| rfl
theorem arg_13_7 : B13 m ρ c (Proc.devRef .tc main_arg7) = (m ((c : Thread nD τ).loc main_arg7)) :=
  (keep13 m ρ c main_arg7 (by decide)).trans <| (keep12 m ρ c main_arg7 (by decide)).trans <| (keep11 m ρ c main_arg7 (by decide)).trans <| (keep10 m ρ c main_arg7 (by decide)).trans <| (keep9 m ρ c main_arg7 (by decide)).trans <| (keep8 m ρ c main_arg7 (by decide)).trans <| (keep7 m ρ c main_arg7 (by decide)).trans <| (keep6 m ρ c main_arg7 (by decide)).trans <| (keep5 m ρ c main_arg7 (by decide)).trans <| (keep4 m ρ c main_arg7 (by decide)).trans <| (keep3 m ρ c main_arg7 (by decide)).trans <| (keep2 m ρ c main_arg7 (by decide)).trans <| (keep1 m ρ c main_arg7 (by decide)).trans <| rfl

/-! ## The graph normalisation: the edge lists with self-loops and the edge weights -/

theorem st1_main_v3 : B1 m ρ c (Proc.devRef .tc main_v3) = val_main_v3 (F := Ideal) (m ((c : Thread nD τ).loc main_arg1)) := by
  show StableHlo.after hostOps0 (B0 m ρ c) (Proc.devRef .tc main_v3) = _
  after_results
  rfl
theorem st1_main_v7 : B1 m ρ c (Proc.devRef .tc main_v7) = val_main_v7 (F := Ideal) (m ((c : Thread nD τ).loc main_arg1)) := by
  show StableHlo.after hostOps0 (B0 m ρ c) (Proc.devRef .tc main_v7) = _
  after_results
  rfl
theorem st1_main_v13 : B1 m ρ c (Proc.devRef .tc main_v13) = val_main_v13 (F := Ideal) (m ((c : Thread nD τ).loc main_arg1)) := by
  show StableHlo.after hostOps0 (B0 m ρ c) (Proc.devRef .tc main_v13) = _
  after_results
  rfl
theorem st1_main_v16 : B1 m ρ c (Proc.devRef .tc main_v16) = val_main_v16 (F := Ideal) (m ((c : Thread nD τ).loc main_arg1)) := by
  show StableHlo.after hostOps0 (B0 m ρ c) (Proc.devRef .tc main_v16) = _
  after_results
  rfl
theorem st1_main_cst_3 : B1 m ρ c (Proc.devRef .tc main_cst_3) = val_main_cst_3 (F := Ideal) := by
  show StableHlo.after hostOps0 (B0 m ρ c) (Proc.devRef .tc main_cst_3) = _
  after_results
  rfl
/-- The inverse square roots of the degrees (zero where the degree is zero). -/
theorem st2_main_v17 : B2 m ρ c (Proc.devRef .tc main_v17) = val_main_v17 (F := Ideal) (m ((c : Thread nD τ).loc main_arg1)) := by
  show StableHlo.after hostOps0_1 (B1 m ρ c) (Proc.devRef .tc main_v17) = _
  generalize hW : B1 m ρ c = W
  after_results
  subst hW
  rw [st1_main_v13 m ρ c, st1_main_v16 m ρ c, st1_main_cst_3 m ρ c]
  simp only [TRef.toBuf, TRef.ofBuf]
  repeat rw [cast_eq]
  rfl
theorem st2_main_v3 : B2 m ρ c (Proc.devRef .tc main_v3) = val_main_v3 (F := Ideal) (m ((c : Thread nD τ).loc main_arg1)) :=
  (keep2 m ρ c main_v3 (by decide)).trans <| st1_main_v3 m ρ c
theorem st2_main_v7 : B2 m ρ c (Proc.devRef .tc main_v7) = val_main_v7 (F := Ideal) (m ((c : Thread nD τ).loc main_arg1)) :=
  (keep2 m ρ c main_v7 (by decide)).trans <| st1_main_v7 m ρ c
set_option maxHeartbeats 4000000 in
/-- The edge weights: the product of the two endpoints' inverse square-root degrees. -/
theorem st3_main_v32 : B3 m ρ c (Proc.devRef .tc main_v32) = val_main_v32 (F := Ideal) (m ((c : Thread nD τ).loc main_arg1)) := by
  show StableHlo.after hostOps0_2 (B2 m ρ c) (Proc.devRef .tc main_v32) = _
  generalize hW : B2 m ρ c = W
  after_results_simp
  subst hW
  rw [st2_main_v17 m ρ c, st2_main_v3 m ρ c, st2_main_v7 m ρ c]
  rfl
theorem st3_main_v3 : B3 m ρ c (Proc.devRef .tc main_v3) = val_main_v3 (F := Ideal) (m ((c : Thread nD τ).loc main_arg1)) :=
  (keep3 m ρ c main_v3 (by decide)).trans <| st2_main_v3 m ρ c
theorem st3_main_v7 : B3 m ρ c (Proc.devRef .tc main_v7) = val_main_v7 (F := Ideal) (m ((c : Thread nD τ).loc main_arg1)) :=
  (keep3 m ρ c main_v7 (by decide)).trans <| st2_main_v7 m ρ c
theorem st6_main_v32 : B6 m ρ c (Proc.devRef .tc main_v32) = val_main_v32 (F := Ideal) (m ((c : Thread nD τ).loc main_arg1)) :=
  (keep6 m ρ c main_v32 (by decide)).trans <| (keep5 m ρ c main_v32 (by decide)).trans <| (keep4 m ρ c main_v32 (by decide)).trans <| st3_main_v32 m ρ c
theorem st10_main_v32 : B10 m ρ c (Proc.devRef .tc main_v32) = val_main_v32 (F := Ideal) (m ((c : Thread nD τ).loc main_arg1)) :=
  (keep10 m ρ c main_v32 (by decide)).trans <| (keep9 m ρ c main_v32 (by decide)).trans <| (keep8 m ρ c main_v32 (by decide)).trans <| (keep7 m ρ c main_v32 (by decide)).trans <| st6_main_v32 m ρ c
theorem st6_main_v3 : B6 m ρ c (Proc.devRef .tc main_v3) = val_main_v3 (F := Ideal) (m ((c : Thread nD τ).loc main_arg1)) :=
  (keep6 m ρ c main_v3 (by decide)).trans <| (keep5 m ρ c main_v3 (by decide)).trans <| (keep4 m ρ c main_v3 (by decide)).trans <| st3_main_v3 m ρ c
theorem st10_main_v3 : B10 m ρ c (Proc.devRef .tc main_v3) = val_main_v3 (F := Ideal) (m ((c : Thread nD τ).loc main_arg1)) :=
  (keep10 m ρ c main_v3 (by decide)).trans <| (keep9 m ρ c main_v3 (by decide)).trans <| (keep8 m ρ c main_v3 (by decide)).trans <| (keep7 m ρ c main_v3 (by decide)).trans <| st6_main_v3 m ρ c
theorem st6_main_v7 : B6 m ρ c (Proc.devRef .tc main_v7) = val_main_v7 (F := Ideal) (m ((c : Thread nD τ).loc main_arg1)) :=
  (keep6 m ρ c main_v7 (by decide)).trans <| (keep5 m ρ c main_v7 (by decide)).trans <| (keep4 m ρ c main_v7 (by decide)).trans <| st3_main_v7 m ρ c
theorem st10_main_v7 : B10 m ρ c (Proc.devRef .tc main_v7) = val_main_v7 (F := Ideal) (m ((c : Thread nD τ).loc main_arg1)) :=
  (keep10 m ρ c main_v7 (by decide)).trans <| (keep9 m ρ c main_v7 (by decide)).trans <| (keep8 m ρ c main_v7 (by decide)).trans <| (keep7 m ρ c main_v7 (by decide)).trans <| st6_main_v7 m ρ c

/-! ## The ego embedding (call 0) -/

theorem st_v33 : B4 m ρ c (Proc.devRef .tc main_v33) = val_main_v37 (F := Ideal) (m ((c : Thread nD τ).loc main_arg0)) (m ((c : Thread nD τ).loc main_arg2)) (m ((c : Thread nD τ).loc main_arg3)) := by
  refine (out_arr0 m ρ c).trans ((final0 (T3 m ρ) c).trans ?_)
  rw [show T3 m ρ c (Pipeline.arrRef spec0 0) = (m ((c : Thread nD τ).loc main_arg0)) from arg_3_0 m ρ c,
    show T3 m ρ c (Pipeline.arrRef spec0 1) = (m ((c : Thread nD τ).loc main_arg2)) from arg_3_2 m ρ c,
    show T3 m ρ c (Pipeline.arrRef spec0 2) = (m ((c : Thread nD τ).loc main_arg3)) from arg_3_3 m ρ c]
  rfl

/-! ## The first convolution: weights and the zero bias (host), the feature transform (call 1), the aggregation (host), bias and activation (call 2) -/

theorem st_v36 : B5 m ρ c (Proc.devRef .tc main_v36) = val_main_v39 (F := Ideal) (m ((c : Thread nD τ).loc main_arg4)) := by
  show StableHlo.after hostOps1 (B4 m ρ c) (Proc.devRef .tc main_v36) = _
  after_results
  rw [arg_4_4 m ρ c]
  rfl
/-- The convolutions' bias operand inside the dense kernel is the all-zero vector. -/
theorem st_v34 : (B5 m ρ c (Proc.devRef .tc main_v34) : S64.Idx → EReal) = broadcastInDim S64 ![] bcast_S_S64 (constant (F := Ideal) S_ .f32 0x00000000#32) := by
  show StableHlo.after hostOps1 (B4 m ρ c) (Proc.devRef .tc main_v34) = _
  after_results
theorem zero5 (q : Fin 64) : T5 m ρ c (Pipeline.arrRef spec1 2) (ix1 q) = (0 : EReal) := by
  show (B5 m ρ c (Proc.devRef .tc main_v34) : S64.Idx → EReal) (ix1 q) = (0 : EReal)
  rw [st_v34 m ρ c, broadcastInDim_scalar_apply, constant_apply]
  exact Ideal.ofBits_zero_f32
theorem st_v37 : B6 m ρ c (Proc.devRef .tc main_v37) = val_main_v42 (F := Ideal) (m ((c : Thread nD τ).loc main_arg0)) (m ((c : Thread nD τ).loc main_arg4)) := by
  refine (out_arr1 m ρ c).trans ((final1 (T5 m ρ) c (zero5 m ρ c)).trans ?_)
  rw [show T5 m ρ c (Pipeline.arrRef spec1 0) = (m ((c : Thread nD τ).loc main_arg0)) from arg_5_0 m ρ c,
    show T5 m ρ c (Pipeline.arrRef spec1 1) = val_main_v39 (F := Ideal) (m ((c : Thread nD τ).loc main_arg4)) from st_v36 m ρ c]
  rfl
set_option maxHeartbeats 4000000 in
theorem st_v50 : B7 m ρ c (Proc.devRef .tc main_v50) = val_main_v55 (F := Ideal) (m ((c : Thread nD τ).loc main_arg0)) (m ((c : Thread nD τ).loc main_arg1)) (m ((c : Thread nD τ).loc main_arg4)) := by
  show StableHlo.after hostOps2 (B6 m ρ c) (Proc.devRef .tc main_v50) = _
  after_results_simp
  rw [st6_main_v32 m ρ c, st6_main_v3 m ρ c, st6_main_v7 m ρ c, st_v37 m ρ c]
  rfl
theorem st_v52 : B7 m ρ c (Proc.devRef .tc main_v52) = val_main_v41 (F := Ideal) (m ((c : Thread nD τ).loc main_arg5)) := by
  show StableHlo.after hostOps2 (B6 m ρ c) (Proc.devRef .tc main_v52) = _
  after_results
  rw [arg_6_5 m ρ c]
  rfl
theorem st_v53 : B8 m ρ c (Proc.devRef .tc main_v53) = val_main_v59 (F := Ideal) (m ((c : Thread nD τ).loc main_arg0)) (m ((c : Thread nD τ).loc main_arg1)) (m ((c : Thread nD τ).loc main_arg4)) (m ((c : Thread nD τ).loc main_arg5)) := by
  refine (out_arr2 m ρ c).trans ((final2 (T7 m ρ) c).trans ?_)
  rw [show T7 m ρ c (Pipeline.arrRef spec2 0) = val_main_v55 (F := Ideal) (m ((c : Thread nD τ).loc main_arg0)) (m ((c : Thread nD τ).loc main_arg1)) (m ((c : Thread nD τ).loc main_arg4)) from st_v50 m ρ c,
    show T7 m ρ c (Pipeline.arrRef spec2 1) = val_main_v41 (F := Ideal) (m ((c : Thread nD τ).loc main_arg5)) from st_v52 m ρ c]
  rfl

/-! ## The second convolution, on the first one's output -/

theorem st_v55 : B9 m ρ c (Proc.devRef .tc main_v55) = val_main_v61 (F := Ideal) (m ((c : Thread nD τ).loc main_arg4)) := by
  show StableHlo.after hostOps3 (B8 m ρ c) (Proc.devRef .tc main_v55) = _
  after_results
  rw [arg_8_4 m ρ c]
  rfl
theorem st9_v53 : B9 m ρ c (Proc.devRef .tc main_v53) = val_main_v59 (F := Ideal) (m ((c : Thread nD τ).loc main_arg0)) (m ((c : Thread nD τ).loc main_arg1)) (m ((c : Thread nD τ).loc main_arg4)) (m ((c : Thread nD τ).loc main_arg5)) :=
  (keep9 m ρ c main_v53 (by decide)).trans <| st_v53 m ρ c
theorem st9_v34 : B9 m ρ c (Proc.devRef .tc main_v34) = B5 m ρ c (Proc.devRef .tc main_v34) :=
  (keep9 m ρ c main_v34 (by decide)).trans <| (keep8 m ρ c main_v34 (by decide)).trans <| (keep7 m ρ c main_v34 (by decide)).trans <| (keep6 m ρ c main_v34 (by decide)).trans <| rfl
theorem zero9 (q : Fin 64) : T9 m ρ c (Pipeline.arrRef spec3 2) (ix1 q) = (0 : EReal) := by
  show (B9 m ρ c (Proc.devRef .tc main_v34) : S64.Idx → EReal) (ix1 q) = (0 : EReal)
  rw [st9_v34 m ρ c]
  exact zero5 m ρ c q
theorem st_v56 : B10 m ρ c (Proc.devRef .tc main_v56) = val_main_v64 (F := Ideal) (m ((c : Thread nD τ).loc main_arg0)) (m ((c : Thread nD τ).loc main_arg1)) (m ((c : Thread nD τ).loc main_arg4)) (m ((c : Thread nD τ).loc main_arg5)) := by
  refine (out_arr3 m ρ c).trans ((final3 (T9 m ρ) c (zero9 m ρ c)).trans ?_)
  rw [show T9 m ρ c (Pipeline.arrRef spec3 0) = val_main_v59 (F := Ideal) (m ((c : Thread nD τ).loc main_arg0)) (m ((c : Thread nD τ).loc main_arg1)) (m ((c : Thread nD τ).loc main_arg4)) (m ((c : Thread nD τ).loc main_arg5)) from st9_v53 m ρ c,
    show T9 m ρ c (Pipeline.arrRef spec3 1) = val_main_v61 (F := Ideal) (m ((c : Thread nD τ).loc main_arg4)) from st_v55 m ρ c]
  rfl
set_option maxHeartbeats 4000000 in
theorem st_v69 : B11 m ρ c (Proc.devRef .tc main_v69) = val_main_v77 (F := Ideal) (m ((c : Thread nD τ).loc main_arg0)) (m ((c : Thread nD τ).loc main_arg1)) (m ((c : Thread nD τ).loc main_arg4)) (m ((c : Thread nD τ).loc main_arg5)) := by
  show StableHlo.after hostOps4 (B10 m ρ c) (Proc.devRef .tc main_v69) = _
  after_results_simp
  rw [st10_main_v32 m ρ c, st10_main_v3 m ρ c, st10_main_v7 m ρ c, st_v56 m ρ c]
  rfl
theorem st_v71 : B11 m ρ c (Proc.devRef .tc main_v71) = val_main_v63 (F := Ideal) (m ((c : Thread nD τ).loc main_arg5)) := by
  show StableHlo.after hostOps4 (B10 m ρ c) (Proc.devRef .tc main_v71) = _
  after_results
  rw [arg_10_5 m ρ c]
  rfl
theorem st_v72 : B12 m ρ c (Proc.devRef .tc main_v72) = val_main_v81 (F := Ideal) (m ((c : Thread nD τ).loc main_arg0)) (m ((c : Thread nD τ).loc main_arg1)) (m ((c : Thread nD τ).loc main_arg4)) (m ((c : Thread nD τ).loc main_arg5)) := by
  refine (out_arr4 m ρ c).trans ((final4 (T11 m ρ) c).trans ?_)
  rw [show T11 m ρ c (Pipeline.arrRef spec4 0) = val_main_v77 (F := Ideal) (m ((c : Thread nD τ).loc main_arg0)) (m ((c : Thread nD τ).loc main_arg1)) (m ((c : Thread nD τ).loc main_arg4)) (m ((c : Thread nD τ).loc main_arg5)) from st_v69 m ρ c,
    show T11 m ρ c (Pipeline.arrRef spec4 1) = val_main_v63 (F := Ideal) (m ((c : Thread nD τ).loc main_arg5)) from st_v71 m ρ c]
  rfl

/-! ## The three parts side by side, and the classifier (call 5) -/

theorem st12_v33 : B12 m ρ c (Proc.devRef .tc main_v33) = val_main_v37 (F := Ideal) (m ((c : Thread nD τ).loc main_arg0)) (m ((c : Thread nD τ).loc main_arg2)) (m ((c : Thread nD τ).loc main_arg3)) :=
  (keep12 m ρ c main_v33 (by decide)).trans <| (keep11 m ρ c main_v33 (by decide)).trans <| (keep10 m ρ c main_v33 (by decide)).trans <| (keep9 m ρ c main_v33 (by decide)).trans <| (keep8 m ρ c main_v33 (by decide)).trans <| (keep7 m ρ c main_v33 (by decide)).trans <| (keep6 m ρ c main_v33 (by decide)).trans <| (keep5 m ρ c main_v33 (by decide)).trans <| st_v33 m ρ c
theorem st12_v53 : B12 m ρ c (Proc.devRef .tc main_v53) = val_main_v59 (F := Ideal) (m ((c : Thread nD τ).loc main_arg0)) (m ((c : Thread nD τ).loc main_arg1)) (m ((c : Thread nD τ).loc main_arg4)) (m ((c : Thread nD τ).loc main_arg5)) :=
  (keep12 m ρ c main_v53 (by decide)).trans <| (keep11 m ρ c main_v53 (by decide)).trans <| (keep10 m ρ c main_v53 (by decide)).trans <| st9_v53 m ρ c
theorem st_v73 : B13 m ρ c (Proc.devRef .tc main_v73) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps5 (B12 m ρ c) (Proc.devRef .tc main_v73) = _
  after_results
  show concatenate S100000x192 1 [⟨S100000x64, B12 m ρ c (Proc.devRef .tc main_v33)⟩, ⟨S100000x64, B12 m ρ c (Proc.devRef .tc main_v53)⟩, ⟨S100000x64, B12 m ρ c (Proc.devRef .tc main_v72)⟩]
    concatenates_S100000x64_S100000x64_S100000x64_S100000x192_d1 = _
  rw [st12_v33 m ρ c, st12_v53 m ρ c, st_v72 m ρ c]
  rfl
/-- The kernel's result array is the reference's result stage of the argument arrays. -/
theorem st_v74 : T14 m ρ c main_v74 = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (out_arr5 m ρ c).trans ((final5 (T13 m ρ) c).trans ?_)
  rw [show T13 m ρ c (Pipeline.arrRef spec5 0) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from st_v73 m ρ c,
    show T13 m ρ c (Pipeline.arrRef spec5 1) = (m ((c : Thread nD τ).loc main_arg6)) from arg_13_6 m ρ c,
    show T13 m ρ c (Pipeline.arrRef spec5 2) = (m ((c : Thread nD τ).loc main_arg7)) from arg_13_7 m ρ c]
  rfl

/-- Every weakly fair execution of the idealized kernel terminates with its result at the reference's result stage of the
    argument arrays, the arguments unchanged. -/
theorem run_value : θ_run defs (onTc (τ := τ) (main (F := Ideal))) ⟨m, fun _ => 0, ρ⟩ (fun r => ∀ c : Dev nD,
      r.2.mem ((c.tc : Thread nD τ).loc main_v74) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_v74 (by decide)).trans (st_v74 m ρ c),
    (h c main_arg0 (by decide)).trans (B14_main_arg0 m ρ c),
    (h c main_arg1 (by decide)).trans (B14_main_arg1 m ρ c),
    (h c main_arg2 (by decide)).trans (B14_main_arg2 m ρ c),
    (h c main_arg3 (by decide)).trans (B14_main_arg3 m ρ c),
    (h c main_arg4 (by decide)).trans (B14_main_arg4 m ρ c),
    (h c main_arg5 (by decide)).trans (B14_main_arg5 m ρ c),
    (h c main_arg6 (by decide)).trans (B14_main_arg6 m ρ c),
    (h c main_arg7 (by decide)).trans (B14_main_arg7 m ρ c)⟩) (run_all m ρ)

end Cert.KernelIdeal.Calls

end
-- ==== Proof.Claims.lean ====
/-
  The five claims.  Both kernel programs' frames are the launch of their segments (every argument array is written by no
  item).  The reference's frame is its run with the result dropped.  No operation was rewritten by the idealization, so
  there is nothing to preserve.  For the value claim both runs end at ONE function of the argument arrays: the
  reference's last stage — for the kernel because each dense Pallas call computes the reference's layer of its inputs
  (a matrix product over the extended reals is the same sum whatever the tiling, and the extra zero bias adds nothing)
  and the host stretches between the calls are the reference's own operations; for the reference because its run's
  composed term is that stage by unfolding.  No step uses that the inputs are finite.
-/
import proofs.«145378_j26474178413288_1_alg».proof.Defs
import proofs.«145378_j26474178413288_1_alg».proof.Proof.BitsRun
import proofs.«145378_j26474178413288_1_alg».proof.Proof.IdealStages
import proofs.«145378_j26474178413288_1_alg».proof.Proof.RefRun
import proofs.«145378_j26474178413288_1_alg».proof.Proof.RefRead
import proofs.«145378_j26474178413288_1_alg».proof.Proof.Gen.Pre_finite_inputs

set_option maxRecDepth 16384

noncomputable section

namespace Cert.Proof.Claims

open Idealize.ShloMosaic Idealize.ShloMosaic.TcCoe Idealize.SL.Sem

set_option maxHeartbeats 4000000 in
/-- The reference run's composed term is the last stage of the stage-by-stage reading. -/
theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v86 (F := Ideal) m c = Cert.ReferenceIdeal.ReadP.val_main_v86 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) := by
  unfold Cert.ReferenceIdeal.ValueP.res_main_v86; rfl

theorem frame_k : Cert.frame_Kernel := fun m ρ _ => Cert.Kernel.Calls.frame_all m ρ

theorem frame_ki : Cert.frame_KernelIdeal := fun m ρ _ => Cert.KernelIdeal.Calls.frame_all m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.ReferenceIdeal.ReadP.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Calls.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [ref_result m' c, e0, e1, e2, e3, e4, e5, e6, e7]

end Cert.Proof.Claims

end
-- ==== Proof.lean ====
/-
  Equivalence, over the extended reals, of a two-layer graph convolution network with an ego embedding and a linear
  classifier, computed by six dense Pallas calls (row blocks of 10000 of the 100000 nodes) around host gather / scale /
  scatter-add aggregations, with its plain jnp reference.  The claims are proved in `Proof/Claims.lean`; the witnesses of
  the programs' stated side conditions are the generated ones.
-/
import proofs.«145378_j26474178413288_1_alg».proof.Defs
import proofs.«145378_j26474178413288_1_alg».proof.Proof.Gen.Kernel
import proofs.«145378_j26474178413288_1_alg».proof.Proof.Gen.KernelIdeal
import proofs.«145378_j26474178413288_1_alg».proof.Proof.Gen.ReferenceIdeal
import proofs.«145378_j26474178413288_1_alg».proof.Proof.Gen.Pre_finite_inputs
import proofs.«145378_j26474178413288_1_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
